-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S384x40 : Shape := ⟨2, ![384, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x40 : S_.BroadcastsInDim S384x40 (![] : Fin 0 → Fin S384x40.rank)
  reducesTo_S384x40_S_d0_1 : S384x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S384x40 .f32) (main_arg9 : FVec F S40 .f32) (main_v33 : IVec S_ 1) : IVec S_ 1 :=
  let main_v34 : FVec F S384x40 .f32 := Host.absf main_arg8
  let main_cst_12 : FVec F S_ .f32 := constant S_ .f32 0x7F800000#32
  let main_v35 : FVec F S384x40 .f32 := broadcastInDim S384x40 ![] bcast_S_S384x40 main_cst_12
  let main_v36 : IVec S384x40 1 := cmpf .olt main_v34 main_v35
  let main_c_13 : IVec S_ 1 := constantI S_ 1 1#1
  let main_v37 : IVec S_ 1 := (fun x v => Host.reduce IntOp.andi x v reducesTo_S384x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S384x40 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S384x40 .f32) (main_arg9 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S384x40 : Shape := ⟨2, ![384, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x384 : Shape := ⟨2, ![50000, 384]⟩
abbrev S1x40 : Shape := ⟨2, ![1, 40]⟩
abbrev S50000x40 : Shape := ⟨2, ![50000, 40]⟩
abbrev S2000x384 : Shape := ⟨2, ![2000, 384]⟩
abbrev S2000x40 : Shape := ⟨2, ![2000, 40]⟩

abbrev nBuf : Space → Nat
  | .hbm => 113
  | .vmem => 36
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x1, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x384, .f32⟩
  | .hbm, ⟨111, _⟩ => ⟨S1x40, .f32⟩
  | .hbm, ⟨112, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x384, .f32⟩
  | .local _ .vmem, ⟨31, _⟩ => ⟨S2000x384, .f32⟩
  | .local _ .vmem, ⟨32, _⟩ => ⟨S384x40, .f32⟩
  | .local _ .vmem, ⟨33, _⟩ => ⟨S1x40, .f32⟩
  | .local _ .vmem, ⟨34, _⟩ => ⟨S2000x40, .f32⟩
  | .local _ .vmem, ⟨35, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x384 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S384x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  concatenates_S50000x128_S50000x128_S50000x128_S50000x384_d1 : Shape.Concatenates [S50000x128, S50000x128, S50000x128] S50000x384 1
  shapeCasts_S40_S1x40 : S40.ShapeCasts S1x40
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S384x40_S384x40_0_0 : ∀ a, (![0, 0] : Fin 2 → Nat) a + S384x40.size a ≤ S384x40.size a
  h_S384x40 : 0 < S384x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x384_S384x40_S2000x40_1_0_0_1_n_n_wf : DotDims.WF S2000x384 S384x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x384.size a ≤ S50000x384.size a
  hwx6_0 : ∀ i : grid6.Coords, EltTy.bits .f32 = 32 ∨ (Rect.block (s := S50000x384) S2000x384.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S384x40.size a ≤ S384x40.size a
  hwx6_1 : ∀ i : grid6.Coords, EltTy.bits .f32 = 32 ∨ (Rect.block (s := S384x40) S384x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S50000x40.size a
  hwx6_3 : ∀ i : grid6.Coords, EltTy.bits .f32 = 32 ∨ (Rect.block (s := S50000x40) S2000x40.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x40_S2000x40_1_0_0_1_n_n : DotDims S2000x384 S384x40 S2000x40 where
  lhsContracting := [1]
  rhsContracting := [0]
  lhsNonContracting := [0]
  rhsNonContracting := [1]
  lhsBatch := []
  rhsBatch := []
  wf := dot_S2000x384_S384x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S2000x384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S384x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S2000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S384x40 : Shape := ⟨2, ![384, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x384 : Shape := ⟨2, ![50000, 384]⟩
abbrev S50000x40 : Shape := ⟨2, ![50000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S384x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x128, .f32⟩
  | .hbm, ⟨86, _⟩ => ⟨S850000x1, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x128, .f32⟩
  | .hbm, ⟨109, _⟩ => ⟨S850000x1, .f32⟩
  | .hbm, ⟨110, _⟩ => ⟨S850000x128, .f32⟩
  | .hbm, ⟨111, _⟩ => ⟨S850000x128, .f32⟩
  | .hbm, ⟨112, _⟩ => ⟨S_, .f32⟩
  | .hbm, ⟨113, _⟩ => ⟨S50000x128, .f32⟩
  | .hbm, ⟨114, _⟩ => ⟨S850000x1, .i32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | .hbm, ⟨122, _⟩ => ⟨S50000x384, .f32⟩
  | .hbm, ⟨123, _⟩ => ⟨S50000x40, .f32⟩
  | .hbm, ⟨124, _⟩ => ⟨S1x40, .f32⟩
  | .hbm, ⟨125, _⟩ => ⟨S50000x40, .f32⟩
  | .hbm, ⟨126, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x128_S50000x384_d1 : Shape.Concatenates [S50000x128, S50000x128, S50000x128] S50000x384 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x384_S384x40_S50000x40_1_0_0_1_n_n_wf : DotDims.WF S50000x384 S384x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x384_S384x40_S50000x40_1_0_0_1_n_n : DotDims S50000x384 S384x40 S50000x40 where
  lhsContracting := [1]
  rhsContracting := [0]
  lhsNonContracting := [0]
  rhsNonContracting := [1]
  lhsBatch := []
  rhsBatch := []
  wf := dot_S50000x384_S384x40_S50000x40_1_0_0_1_n_n_wf

class Facts : Prop extends Facts₀ where

variable [Facts]
-- ==== Proof.WordRegion0.lean ====
/-
  Region 0: the first dense product, h0 = x · W0, tiled over the 50000 rows in 25 blocks of 2000.
  Window 0 is the 2000×256 row block of x at the grid point, window 1 the whole 256×128 weight (the same block at
  every point, so it is fetched once), window 2 the 2000×128 row block of the result, written back at every point.
  The body reads both input blocks whole, forms their product into a zero accumulator and overwrites the output
  block whole; so after the body the output block is one function of the two input blocks (`out0_2`), the inputs
  are as found, and nothing is carried from point to point. Everything is stated at a parameter `V`, the buffer
  contents at the region's entry, and at any float instance.
-/
import proofs.«164648_j74337293959433_1_alg».proof.Proof.Gen.Kernel.Launch
import proofs.«164648_j74337293959433_1_alg».proof.Proof.Gen.Kernel.Skeleton
import proofs.«164648_j74337293959433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight is in its staging buffer at every point: fetched at the first, and its block index never moves, so
    what the body left there (the block itself) is still this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S2000x256 := Rect.unit (s := S2000x256) ![0, 0] S2000x256.size inb_S2000x256_S2000x256_0_0
abbrev rw0 : Rect S256x128 := Rect.unit (s := S256x128) ![0, 0] S256x128.size inb_S256x128_S256x128_0_0
abbrev ro0 : Rect S2000x128 := Rect.unit (s := S2000x128) ![0, 0] S2000x128.size inb_S2000x128_S2000x128_0_0

/-! ## What the body leaves in the output block -/

/-- The output block after the body: its one whole store, of the product of the two input blocks. -/
def out0_2 (x0 : Vec F S2000x256 .f32) (x1 : Vec F S256x128 .f32) : Vec F S2000x128 .f32 :=
  View.canon [⟨ro0, k0_pay1 (View.ld x0 rx0) (View.ld x1 rw0)⟩]

/-- The one store is of the whole block, so it covers it. -/
theorem cover0_2 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

/-! ## The body's triple -/

set_option maxHeartbeats 1000000 in
/-- The body on whole staging memrefs, the inputs' reading `x0`, `x1` and the output's anything, runs to the
    continuation with the inputs as they were and the output reading `out0_2 x0 x1`. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at the product of the two input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordRegion1.lean ====
/-
  Region 1: x1 = max(agg0 + b0, 0), tiled over the 50000 rows in 25 blocks of 2000.
  Window 0 is the 2000×128 row block of the aggregated features at the grid point, window 1 the bias kept as one
  1×128 row (the same block at every point, fetched once), window 2 the 2000×128 row block of the result, written
  back at every point. The body reads both input blocks whole, adds the bias row to every row, takes the maximum
  with zero and overwrites the output block whole; so the output block is one function of the two input blocks
  (`out1_2`), the inputs are as found, nothing is carried from point to point. Stated at a parameter `V`, the
  buffer contents at the region's entry, and at any float instance.
-/
import proofs.«164648_j74337293959433_1_alg».proof.Proof.Gen.Kernel.Launch
import proofs.«164648_j74337293959433_1_alg».proof.Proof.Gen.Kernel.Skeleton
import proofs.«164648_j74337293959433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the aggregated features is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is in its staging buffer at every point: fetched at the first, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S2000x128 := Rect.unit (s := S2000x128) ![0, 0] S2000x128.size inb_S2000x128_S2000x128_0_0
abbrev rb1 : Rect S1x128 := Rect.unit (s := S1x128) ![0, 0] S1x128.size inb_S1x128_S1x128_0_0
abbrev ro1 : Rect S2000x128 := Rect.unit (s := S2000x128) ![0, 0] S2000x128.size inb_S2000x128_S2000x128_0_0

/-! ## What the body leaves in the output block -/

/-- The output block after the body: its one whole store, of max(block + bias row, 0). -/
def out1_2 (x0 : Vec F S2000x128 .f32) (x1 : Vec F S1x128 .f32) : Vec F S2000x128 .f32 :=
  View.canon [⟨ro1, k1_pay1 (View.ld x0 rx1) (View.ld x1 rb1)⟩]

/-- The one store is of the whole block, so it covers it. -/
theorem cover1_2 (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

/-! ## The body's triple -/

set_option maxHeartbeats 1000000 in
/-- The body on whole staging memrefs, the inputs' reading `x0`, `x1` and the output's anything, runs to the
    continuation with the inputs as they were and the output reading `out1_2 x0 x1`. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer at its block and the output's at max(block + bias row, 0); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordRegion2.lean ====
/-
  Region 2: the second dense product, h1 = x1 · W1, tiled over the 50000 rows in 25 blocks of 2000.
  Window 0 is the 2000×128 row block of x1 at the grid point, window 1 the whole 128×128 weight (the same block at
  every point, fetched once), window 2 the 2000×128 row block of the result, written back at every point. The body
  reads both input blocks whole, forms their product into a zero accumulator and overwrites the output block whole;
  so the output block is one function of the two input blocks (`out2_2`), the inputs are as found, nothing is
  carried from point to point. Stated at a parameter `V`, the buffer contents at the region's entry, and at any
  float instance.
-/
import proofs.«164648_j74337293959433_1_alg».proof.Proof.Gen.Kernel.Launch
import proofs.«164648_j74337293959433_1_alg».proof.Proof.Gen.Kernel.Skeleton
import proofs.«164648_j74337293959433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of x1 is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight is in its staging buffer at every point: fetched at the first, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rx2 : Rect S2000x128 := Rect.unit (s := S2000x128) ![0, 0] S2000x128.size inb_S2000x128_S2000x128_0_0
abbrev rw2 : Rect S128x128 := Rect.unit (s := S128x128) ![0, 0] S128x128.size inb_S128x128_S128x128_0_0
abbrev ro2 : Rect S2000x128 := Rect.unit (s := S2000x128) ![0, 0] S2000x128.size inb_S2000x128_S2000x128_0_0

/-! ## What the body leaves in the output block -/

/-- The output block after the body: its one whole store, of the product of the two input blocks. -/
def out2_2 (x0 : Vec F S2000x128 .f32) (x1 : Vec F S128x128 .f32) : Vec F S2000x128 .f32 :=
  View.canon [⟨ro2, k2_pay1 (View.ld x0 rx2) (View.ld x1 rw2)⟩]

/-- The one store is of the whole block, so it covers it. -/
theorem cover2_2 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

/-! ## The body's triple -/

set_option maxHeartbeats 1000000 in
/-- The body on whole staging memrefs, the inputs' reading `x0`, `x1` and the output's anything, runs to the
    continuation with the inputs as they were and the output reading `out2_2 x0 x1`. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input's buffer at its block and the output's at the product of the two input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.WordRegion3.lean ====
/-
  Region 3: x2 = max(agg1 + b1, 0), tiled over the 50000 rows in 25 blocks of 2000.
  Window 0 is the 2000×128 row block of the aggregated features at the grid point, window 1 the bias kept as one
  1×128 row (the same block at every point, fetched once), window 2 the 2000×128 row block of the result, written
  back at every point. The body reads both input blocks whole, adds the bias row to every row, takes the maximum
  with zero and overwrites the output block whole; so the output block is one function of the two input blocks
  (`out3_2`), the inputs are as found, nothing is carried from point to point. Stated at a parameter `V`, the
  buffer contents at the region's entry, and at any float instance.
-/
import proofs.«164648_j74337293959433_1_alg».proof.Proof.Gen.Kernel.Launch
import proofs.«164648_j74337293959433_1_alg».proof.Proof.Gen.Kernel.Skeleton
import proofs.«164648_j74337293959433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the aggregated features is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row is in its staging buffer at every point: fetched at the first, its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev rx3 : Rect S2000x128 := Rect.unit (s := S2000x128) ![0, 0] S2000x128.size inb_S2000x128_S2000x128_0_0
abbrev rb3 : Rect S1x128 := Rect.unit (s := S1x128) ![0, 0] S1x128.size inb_S1x128_S1x128_0_0
abbrev ro3 : Rect S2000x128 := Rect.unit (s := S2000x128) ![0, 0] S2000x128.size inb_S2000x128_S2000x128_0_0

/-! ## What the body leaves in the output block -/

/-- The output block after the body: its one whole store, of max(block + bias row, 0). -/
def out3_2 (x0 : Vec F S2000x128 .f32) (x1 : Vec F S1x128 .f32) : Vec F S2000x128 .f32 :=
  View.canon [⟨ro3, k3_pay1 (View.ld x0 rx3) (View.ld x1 rb3)⟩]

/-- The one store is of the whole block, so it covers it. -/
theorem cover3_2 (p0 : Vec F S2000x128 .f32) (y : S2000x128.Idx) :
    ∃ pc ∈ ([⟨ro3, p0⟩] : List (View.Piece (Elt F) S2000x128 .f32)), y ∈ pc.1.set :=
  View.cover_of_tiled [⟨ro3, p0⟩] S2000x128.size (by rfl) y

/-! ## The body's triple -/

set_option maxHeartbeats 1000000 in
/-- The body on whole staging memrefs, the inputs' reading `x0`, `x1` and the output's anything, runs to the
    continuation with the inputs as they were and the output reading `out3_2 x0 x1`. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t`
    each input's buffer at its block and the output's at max(block + bias row, 0); nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.WordRegion4.lean ====
/-
  Region 4: the third dense product, h2 = x2 · W2, tiled over the 50000 rows in 25 blocks of 2000.
  Window 0 is the 2000×128 row block of x2 at the grid point, window 1 the whole 128×128 weight (the same block at
  every point, fetched once), window 2 the 2000×128 row block of the result, written back at every point. The body
  reads both input blocks whole, forms their product into a zero accumulator and overwrites the output block whole;
  so the output block is one function of the two input blocks (`out4_2`), the inputs are as found, nothing is
  carried from point to point. Stated at a parameter `V`, the buffer contents at the region's entry, and at any
  float instance.
-/
import proofs.«164648_j74337293959433_1_alg».proof.Proof.Gen.Kernel.Launch
import proofs.«164648_j74337293959433_1_alg».proof.Proof.Gen.Kernel.Skeleton
import proofs.«164648_j74337293959433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block of x2 is in its staging buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight is in its staging buffer at every point: fetched at the first, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rx4 : Rect S2000x128 := Rect.unit (s := S2000x128) ![0, 0] S2000x128.size inb_S2000x128_S2000x128_0_0
abbrev rw4 : Rect S128x128 := Rect.unit (s := S128x128) ![0, 0] S128x128.size inb_S128x128_S128x128_0_0
abbrev ro4 : Rect S2000x128 := Rect.unit (s := S2000x128) ![0, 0] S2000x128.size inb_S2000x128_S2000x128_0_0

/-! ## What the body leaves in the output block -/

/-- The output block after the body: its one whole store, of the product of the two input blocks. -/
def out4_2 (x0 : Vec F S2000x128 .f32) (x1 : Vec F S128x128 .f32) : Vec F S2000x128 .f32 :=
  View.canon [⟨ro4, k4_pay1 (View.ld x0 rx4) (View.ld x1 rw4)⟩]

/-- The one store is of the whole block, so it covers it. -/
theorem cover4_2 (p0 : Vec F S2000x128 .f32) (y : S2000x128.Idx) :
    ∃ pc ∈ ([⟨ro4, p0⟩] : List (View.Piece (Elt F) S2000x128 .f32)), y ∈ pc.1.set :=
  View.cover_of_tiled [⟨ro4, p0⟩] S2000x128.size (by rfl) y

/-! ## The body's triple -/

set_option maxHeartbeats 1000000 in
/-- The body on whole staging memrefs, the inputs' reading `x0`, `x1` and the output's anything, runs to the
    continuation with the inputs as they were and the output reading `out4_2 x0 x1`. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t`
    each input's buffer at its block and the output's at the product of the two input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.WordRegion5.lean ====
/-
  Region 5: x3 = max(agg2 + b2, 0), tiled over the 50000 rows in 25 blocks of 2000.
  Window 0 is the 2000×128 row block of the aggregated features at the grid point, window 1 the bias kept as one
  1×128 row (the same block at every point, fetched once), window 2 the 2000×128 row block of the result, written
  back at every point. The body reads both input blocks whole, adds the bias row to every row, takes the maximum
  with zero and overwrites the output block whole; so the output block is one function of the two input blocks
  (`out5_2`), the inputs are as found, nothing is carried from point to point. Stated at a parameter `V`, the
  buffer contents at the region's entry, and at any float instance.
-/
import proofs.«164648_j74337293959433_1_alg».proof.Proof.Gen.Kernel.Launch
import proofs.«164648_j74337293959433_1_alg».proof.Proof.Gen.Kernel.Skeleton
import proofs.«164648_j74337293959433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block of the aggregated features is in its staging buffer at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row is in its staging buffer at every point: fetched at the first, its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev rx5 : Rect S2000x128 := Rect.unit (s := S2000x128) ![0, 0] S2000x128.size inb_S2000x128_S2000x128_0_0
abbrev rb5 : Rect S1x128 := Rect.unit (s := S1x128) ![0, 0] S1x128.size inb_S1x128_S1x128_0_0
abbrev ro5 : Rect S2000x128 := Rect.unit (s := S2000x128) ![0, 0] S2000x128.size inb_S2000x128_S2000x128_0_0

/-! ## What the body leaves in the output block -/

/-- The output block after the body: its one whole store, of max(block + bias row, 0). -/
def out5_2 (x0 : Vec F S2000x128 .f32) (x1 : Vec F S1x128 .f32) : Vec F S2000x128 .f32 :=
  View.canon [⟨ro5, k5_pay1 (View.ld x0 rx5) (View.ld x1 rb5)⟩]

/-- The one store is of the whole block, so it covers it. -/
theorem cover5_2 (p0 : Vec F S2000x128 .f32) (y : S2000x128.Idx) :
    ∃ pc ∈ ([⟨ro5, p0⟩] : List (View.Piece (Elt F) S2000x128 .f32)), y ∈ pc.1.set :=
  View.cover_of_tiled [⟨ro5, p0⟩] S2000x128.size (by rfl) y

/-! ## The body's triple -/

set_option maxHeartbeats 1000000 in
/-- The body on whole staging memrefs, the inputs' reading `x0`, `x1` and the output's anything, runs to the
    continuation with the inputs as they were and the output reading `out5_2 x0 x1`. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t`
    each input's buffer at its block and the output's at max(block + bias row, 0); nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.WordRegion6.lean ====
/-
  Region 6: the output layer, out = [x1 | x2 | x3] · Wout + bout, tiled over the 50000 rows in 25 blocks of 2000.
  Window 0 is the 2000×384 row block of the concatenated features at the grid point, window 1 the whole 384×40
  weight and window 2 the bias kept as one 1×40 row (each the same block at every point, fetched once), window 3 the
  2000×40 row block of the result, written back at every point. The body reads the three input blocks whole, forms
  the product into a zero accumulator, adds the bias row to every row and overwrites the output block whole; so the
  output block is one function of the three input blocks (`out6_3`), the inputs are as found, nothing is carried
  from point to point. Stated at a parameter `V`, the buffer contents at the region's entry, and at any float
  instance.
-/
import proofs.«164648_j74337293959433_1_alg».proof.Proof.Gen.Kernel.Launch
import proofs.«164648_j74337293959433_1_alg».proof.Proof.Gen.Kernel.Skeleton
import proofs.«164648_j74337293959433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block of the concatenated features is in its staging buffer at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight is in its staging buffer at every point: fetched at the first, its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The bias row is in its staging buffer at every point: fetched at the first, its block index never moves. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev rx6 : Rect S2000x384 := Rect.unit (s := S2000x384) ![0, 0] S2000x384.size inb_S2000x384_S2000x384_0_0
abbrev rw6 : Rect S384x40 := Rect.unit (s := S384x40) ![0, 0] S384x40.size inb_S384x40_S384x40_0_0
abbrev rb6 : Rect S1x40 := Rect.unit (s := S1x40) ![0, 0] S1x40.size inb_S1x40_S1x40_0_0
abbrev ro6 : Rect S2000x40 := Rect.unit (s := S2000x40) ![0, 0] S2000x40.size inb_S2000x40_S2000x40_0_0

/-! ## What the body leaves in the output block -/

/-- The output block after the body: its one whole store, of the product of the first two input blocks plus the
    bias row. -/
def out6_3 (x0 : Vec F S2000x384 .f32) (x1 : Vec F S384x40 .f32) (x2 : Vec F S1x40 .f32) : Vec F S2000x40 .f32 :=
  View.canon [⟨ro6, k6_pay1 (View.ld x0 rx6) (View.ld x1 rw6) (View.ld x2 rb6)⟩]

/-- The one store is of the whole block, so it covers it. -/
theorem cover6_3 (p0 : Vec F S2000x40 .f32) (y : S2000x40.Idx) :
    ∃ pc ∈ ([⟨ro6, p0⟩] : List (View.Piece (Elt F) S2000x40 .f32)), y ∈ pc.1.set :=
  View.cover_of_tiled [⟨ro6, p0⟩] S2000x40.size (by rfl) y

/-! ## The body's triple -/

set_option maxHeartbeats 1000000 in
/-- The body on whole staging memrefs, the inputs' reading `x0`, `x1`, `x2` and the output's anything, runs to the
    continuation with the inputs as they were and the output reading `out6_3 x0 x1 x2`. -/
theorem sound_kernel6 (c : Dev nD) (E : Set ℕ) (i : grid6.Coords) (arg1 : Memref sig .tc .vmem S2000x384 .f32) (harg1 : arg1.IsWhole) (arg2 : Memref sig .tc .vmem S384x40 .f32) (harg2 : arg2.IsWhole) (arg3 : Memref sig .tc .vmem S1x40 .f32) (harg3 : arg3.IsWhole) (arg4 : Memref sig .tc .vmem S2000x40 .f32) (harg4 : arg4.IsWhole)
    (x0 : Vec F S2000x384 .f32) (x1 : Vec F S384x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of this pipeline on core `c`: the arrays as the region finds them; after the body at point `t`
    each input's buffer at its block and the output's at the product plus the bias row; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.WordRun.lean ====
/-
  The kernel program's whole run, as printed (its floats read as words): @main is fourteen items in order — three stretches of host operations
  (the edge lists with self loops appended, the degree vector and its inverse square root, the per-edge weight), then
  seven tiled kernel regions with host stretches between them (each layer: the dense product, then on the host the
  gather along the source index, the scaling by the edge weight and the scatter-add along the target index, then the
  bias-and-relu region; at the end the three layers' features side by side and the output layer's region).
  This module names the contents of every unscoped buffer at each of the fifteen boundaries as a fold from the launch
  memory — a host stretch applies its operations, a region leaves its input arrays as found and each output array at
  what its write-backs leave —, shows that a buffer no item writes still holds its launch contents at the end, states
  each region as a segment over those contents, and runs @main: every weakly fair execution terminates, nothing
  faults, and at the end every unscoped buffer holds the last boundary's contents. The frame claim and the value of
  the result are both read off that one run. At any float instance.
-/
import proofs.«164648_j74337293959433_1_alg».proof.Proof.WordRegion0
import proofs.«164648_j74337293959433_1_alg».proof.Proof.WordRegion1
import proofs.«164648_j74337293959433_1_alg».proof.Proof.WordRegion2
import proofs.«164648_j74337293959433_1_alg».proof.Proof.WordRegion3
import proofs.«164648_j74337293959433_1_alg».proof.Proof.WordRegion4
import proofs.«164648_j74337293959433_1_alg».proof.Proof.WordRegion5
import proofs.«164648_j74337293959433_1_alg».proof.Proof.WordRegion6
import proofs.«164648_j74337293959433_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through @main

`WJ` is core `c`'s valuation of every buffer after J items; `XJ` is the same read at the TensorCore's references,
which is what a region's proof data take. -/

/-- At launch. -/
abbrev W0 : Dev nD → Valuation τ sig (Elt F) := fun c b => m (c, b)
/-- After the first host stretch (edge lists, degrees, inverse square roots). -/
abbrev W1 : Dev nD → Valuation τ sig (Elt F) := fun c => StableHlo.after hostOps0 (W0 m c)
/-- After the second host stretch (zero where the degree is zero). -/
abbrev W2 : Dev nD → Valuation τ sig (Elt F) := fun c => StableHlo.after hostOps0_1 (W1 m c)
/-- After the third host stretch (the per-edge weight): region 0's entry. -/
abbrev W3 : Dev nD → Valuation τ sig (Elt F) := fun c => StableHlo.after hostOps0_2 (W2 m c)
abbrev X3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (X3 m) c).arrAt w cfg0.N
theorem W4_arr (c : Dev nD) (w : Fin cfg0.W) :
    W4 m c (Proc.devRef .tc (Pipeline.arrRef spec0 w)) = (dat0 (X3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev X4 : (c : Dev nD) → (b : Ref sig .tc) → Buf (Elt F) ((c : Thread nD τ).loc b) := fun c b => W4 m c b
theorem hF0 (c : Dev nD) (w : Fin cfg0.W) : (dat0 (X3 m) c).arrAt w cfg0.N = X4 m c (Pipeline.arrRef spec0 w) :=
  (W4_arr m c w).symm
theorem hrest0 (c : Dev nD) : ∀ b, b ∉ Finset.univ.image (Pipeline.arrRef spec0) → X4 m c b = X3 m c b :=
  fun b hb => W4_of_ne m c b fun w e => hb (Finset.mem_image.mpr ⟨w, Finset.mem_univ _, e⟩)

/-- After the first layer's gather, scaling and scatter-add: region 1's entry. -/
abbrev W5 : Dev nD → Valuation τ sig (Elt F) := fun c => StableHlo.after hostOps1 (W4 m c)
abbrev X5 : (c : Dev nD) → (b : Ref sig .tc) → Buf (Elt F) ((c : Thread nD τ).loc b) := fun c b => W5 m c b
/-- At region 1's exit (which is region 2's entry). -/
def W6 (c : Dev nD) : Valuation τ sig (Elt F) :=
  Pipeline.withArrays spec1 c (W5 m c) fun w => (dat1 (X5 m) c).arrAt w cfg1.N
theorem W6_arr (c : Dev nD) (w : Fin cfg1.W) :
    W6 m c (Proc.devRef .tc (Pipeline.arrRef spec1 w)) = (dat1 (X5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev X6 : (c : Dev nD) → (b : Ref sig .tc) → Buf (Elt F) ((c : Thread nD τ).loc b) := fun c b => W6 m c b
theorem hF1 (c : Dev nD) (w : Fin cfg1.W) : (dat1 (X5 m) c).arrAt w cfg1.N = X6 m c (Pipeline.arrRef spec1 w) :=
  (W6_arr m c w).symm
theorem hrest1 (c : Dev nD) : ∀ b, b ∉ Finset.univ.image (Pipeline.arrRef spec1) → X6 m c b = X5 m c b :=
  fun b hb => W6_of_ne m c b fun w e => hb (Finset.mem_image.mpr ⟨w, Finset.mem_univ _, e⟩)

/-- At region 2's exit. -/
def W7 (c : Dev nD) : Valuation τ sig (Elt F) :=
  Pipeline.withArrays spec2 c (W6 m c) fun w => (dat2 (X6 m) c).arrAt w cfg2.N
theorem W7_arr (c : Dev nD) (w : Fin cfg2.W) :
    W7 m c (Proc.devRef .tc (Pipeline.arrRef spec2 w)) = (dat2 (X6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev X7 : (c : Dev nD) → (b : Ref sig .tc) → Buf (Elt F) ((c : Thread nD τ).loc b) := fun c b => W7 m c b
theorem hF2 (c : Dev nD) (w : Fin cfg2.W) : (dat2 (X6 m) c).arrAt w cfg2.N = X7 m c (Pipeline.arrRef spec2 w) :=
  (W7_arr m c w).symm
theorem hrest2 (c : Dev nD) : ∀ b, b ∉ Finset.univ.image (Pipeline.arrRef spec2) → X7 m c b = X6 m c b :=
  fun b hb => W7_of_ne m c b fun w e => hb (Finset.mem_image.mpr ⟨w, Finset.mem_univ _, e⟩)

/-- After the second layer's gather, scaling and scatter-add: region 3's entry. -/
abbrev W8 : Dev nD → Valuation τ sig (Elt F) := fun c => StableHlo.after hostOps3 (W7 m c)
abbrev X8 : (c : Dev nD) → (b : Ref sig .tc) → Buf (Elt F) ((c : Thread nD τ).loc b) := fun c b => W8 m c b
/-- At region 3's exit (which is region 4's entry). -/
def W9 (c : Dev nD) : Valuation τ sig (Elt F) :=
  Pipeline.withArrays spec3 c (W8 m c) fun w => (dat3 (X8 m) c).arrAt w cfg3.N
theorem W9_arr (c : Dev nD) (w : Fin cfg3.W) :
    W9 m c (Proc.devRef .tc (Pipeline.arrRef spec3 w)) = (dat3 (X8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev X9 : (c : Dev nD) → (b : Ref sig .tc) → Buf (Elt F) ((c : Thread nD τ).loc b) := fun c b => W9 m c b
theorem hF3 (c : Dev nD) (w : Fin cfg3.W) : (dat3 (X8 m) c).arrAt w cfg3.N = X9 m c (Pipeline.arrRef spec3 w) :=
  (W9_arr m c w).symm
theorem hrest3 (c : Dev nD) : ∀ b, b ∉ Finset.univ.image (Pipeline.arrRef spec3) → X9 m c b = X8 m c b :=
  fun b hb => W9_of_ne m c b fun w e => hb (Finset.mem_image.mpr ⟨w, Finset.mem_univ _, e⟩)

/-- At region 4's exit. -/
def W10 (c : Dev nD) : Valuation τ sig (Elt F) :=
  Pipeline.withArrays spec4 c (W9 m c) fun w => (dat4 (X9 m) c).arrAt w cfg4.N
theorem W10_arr (c : Dev nD) (w : Fin cfg4.W) :
    W10 m c (Proc.devRef .tc (Pipeline.arrRef spec4 w)) = (dat4 (X9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev X10 : (c : Dev nD) → (b : Ref sig .tc) → Buf (Elt F) ((c : Thread nD τ).loc b) := fun c b => W10 m c b
theorem hF4 (c : Dev nD) (w : Fin cfg4.W) : (dat4 (X9 m) c).arrAt w cfg4.N = X10 m c (Pipeline.arrRef spec4 w) :=
  (W10_arr m c w).symm
theorem hrest4 (c : Dev nD) : ∀ b, b ∉ Finset.univ.image (Pipeline.arrRef spec4) → X10 m c b = X9 m c b :=
  fun b hb => W10_of_ne m c b fun w e => hb (Finset.mem_image.mpr ⟨w, Finset.mem_univ _, e⟩)

/-- After the third layer's gather, scaling and scatter-add: region 5's entry. -/
abbrev W11 : Dev nD → Valuation τ sig (Elt F) := fun c => StableHlo.after hostOps5 (W10 m c)
abbrev X11 : (c : Dev nD) → (b : Ref sig .tc) → Buf (Elt F) ((c : Thread nD τ).loc b) := fun c b => W11 m c b
/-- At region 5's exit. -/
def W12 (c : Dev nD) : Valuation τ sig (Elt F) :=
  Pipeline.withArrays spec5 c (W11 m c) fun w => (dat5 (X11 m) c).arrAt w cfg5.N
theorem W12_arr (c : Dev nD) (w : Fin cfg5.W) :
    W12 m c (Proc.devRef .tc (Pipeline.arrRef spec5 w)) = (dat5 (X11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev X12 : (c : Dev nD) → (b : Ref sig .tc) → Buf (Elt F) ((c : Thread nD τ).loc b) := fun c b => W12 m c b
theorem hF5 (c : Dev nD) (w : Fin cfg5.W) : (dat5 (X11 m) c).arrAt w cfg5.N = X12 m c (Pipeline.arrRef spec5 w) :=
  (W12_arr m c w).symm
theorem hrest5 (c : Dev nD) : ∀ b, b ∉ Finset.univ.image (Pipeline.arrRef spec5) → X12 m c b = X11 m c b :=
  fun b hb => W12_of_ne m c b fun w e => hb (Finset.mem_image.mpr ⟨w, Finset.mem_univ _, e⟩)

/-- After the three layers' features are put side by side: region 6's entry. -/
abbrev W13 : Dev nD → Valuation τ sig (Elt F) := fun c => StableHlo.after hostOps6 (W12 m c)
abbrev X13 : (c : Dev nD) → (b : Ref sig .tc) → Buf (Elt F) ((c : Thread nD τ).loc b) := fun c b => W13 m c b
/-- At region 6's exit: the end of @main. -/
def W14 (c : Dev nD) : Valuation τ sig (Elt F) :=
  Pipeline.withArrays spec6 c (W13 m c) fun w => (dat6 (X13 m) c).arrAt w cfg6.N
theorem W14_arr (c : Dev nD) (w : Fin cfg6.W) :
    W14 m c (Proc.devRef .tc (Pipeline.arrRef spec6 w)) = (dat6 (X13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev X14 : (c : Dev nD) → (b : Ref sig .tc) → Buf (Elt F) ((c : Thread nD τ).loc b) := fun c b => W14 m c b
theorem hF6 (c : Dev nD) (w : Fin cfg6.W) : (dat6 (X13 m) c).arrAt w cfg6.N = X14 m c (Pipeline.arrRef spec6 w) :=
  (W14_arr m c w).symm
theorem hrest6 (c : Dev nD) : ∀ b, b ∉ Finset.univ.image (Pipeline.arrRef spec6) → X14 m c b = X13 m c b :=
  fun b hb => W14_of_ne m c b fun w e => hb (Finset.mem_image.mpr ⟨w, Finset.mem_univ _, e⟩)

/-! ## What no item writes ends as launched

A host stretch changes only the buffers its operations write. A region changes only its output array: an input
array it reads through a window is left as found, and a buffer that is none of its arrays is untouched. -/

/-- Region 0 changes at most the product's array. -/
theorem W4_kept (c : Dev nD) (r : Ref sig .tc) (h : r ≠ main_v32) : W4 m c (Proc.devRef .tc r) = W3 m c (Proc.devRef .tc r) := by
  by_cases h0 : r = main_arg0
  · subst h0; exact (W4_arr m c 0).trans (((dat0 (X3 m) c).arrAt_in 0 rfl _).trans (A_eq0 (X3 m) c 0))
  by_cases h1 : r = main_arg2
  · subst h1; exact (W4_arr m c 1).trans (((dat0 (X3 m) c).arrAt_in 1 rfl _).trans (A_eq0 (X3 m) c 1))
  exact W4_of_ne m c r fun w => match w with
    | ⟨0, _⟩ => fun e => h0 e.symm
    | ⟨1, _⟩ => fun e => h1 e.symm
    | ⟨2, _⟩ => fun e => h e.symm

/-- Region 1 changes at most the first layer's features. -/
theorem W6_kept (c : Dev nD) (r : Ref sig .tc) (h : r ≠ main_v47) : W6 m c (Proc.devRef .tc r) = W5 m c (Proc.devRef .tc r) := by
  by_cases h0 : r = main_v45
  · subst h0; exact (W6_arr m c 0).trans (((dat1 (X5 m) c).arrAt_in 0 rfl _).trans (A_eq1 (X5 m) c 0))
  by_cases h1 : r = main_v46
  · subst h1; exact (W6_arr m c 1).trans (((dat1 (X5 m) c).arrAt_in 1 rfl _).trans (A_eq1 (X5 m) c 1))
  exact W6_of_ne m c r fun w => match w with
    | ⟨0, _⟩ => fun e => h0 e.symm
    | ⟨1, _⟩ => fun e => h1 e.symm
    | ⟨2, _⟩ => fun e => h e.symm

/-- Region 2 changes at most the second product's array. -/
theorem W7_kept (c : Dev nD) (r : Ref sig .tc) (h : r ≠ main_v48) : W7 m c (Proc.devRef .tc r) = W6 m c (Proc.devRef .tc r) := by
  by_cases h0 : r = main_v47
  · subst h0; exact (W7_arr m c 0).trans (((dat2 (X6 m) c).arrAt_in 0 rfl _).trans (A_eq2 (X6 m) c 0))
  by_cases h1 : r = main_arg4
  · subst h1; exact (W7_arr m c 1).trans (((dat2 (X6 m) c).arrAt_in 1 rfl _).trans (A_eq2 (X6 m) c 1))
  exact W7_of_ne m c r fun w => match w with
    | ⟨0, _⟩ => fun e => h0 e.symm
    | ⟨1, _⟩ => fun e => h1 e.symm
    | ⟨2, _⟩ => fun e => h e.symm

/-- Region 3 changes at most the second layer's features. -/
theorem W9_kept (c : Dev nD) (r : Ref sig .tc) (h : r ≠ main_v63) : W9 m c (Proc.devRef .tc r) = W8 m c (Proc.devRef .tc r) := by
  by_cases h0 : r = main_v61
  · subst h0; exact (W9_arr m c 0).trans (((dat3 (X8 m) c).arrAt_in 0 rfl _).trans (A_eq3 (X8 m) c 0))
  by_cases h1 : r = main_v62
  · subst h1; exact (W9_arr m c 1).trans (((dat3 (X8 m) c).arrAt_in 1 rfl _).trans (A_eq3 (X8 m) c 1))
  exact W9_of_ne m c r fun w => match w with
    | ⟨0, _⟩ => fun e => h0 e.symm
    | ⟨1, _⟩ => fun e => h1 e.symm
    | ⟨2, _⟩ => fun e => h e.symm

/-- Region 4 changes at most the third product's array. -/
theorem W10_kept (c : Dev nD) (r : Ref sig .tc) (h : r ≠ main_v64) : W10 m c (Proc.devRef .tc r) = W9 m c (Proc.devRef .tc r) := by
  by_cases h0 : r = main_v63
  · subst h0; exact (W10_arr m c 0).trans (((dat4 (X9 m) c).arrAt_in 0 rfl _).trans (A_eq4 (X9 m) c 0))
  by_cases h1 : r = main_arg6
  · subst h1; exact (W10_arr m c 1).trans (((dat4 (X9 m) c).arrAt_in 1 rfl _).trans (A_eq4 (X9 m) c 1))
  exact W10_of_ne m c r fun w => match w with
    | ⟨0, _⟩ => fun e => h0 e.symm
    | ⟨1, _⟩ => fun e => h1 e.symm
    | ⟨2, _⟩ => fun e => h e.symm

/-- Region 5 changes at most the third layer's features. -/
theorem W12_kept (c : Dev nD) (r : Ref sig .tc) (h : r ≠ main_v79) : W12 m c (Proc.devRef .tc r) = W11 m c (Proc.devRef .tc r) := by
  by_cases h0 : r = main_v77
  · subst h0; exact (W12_arr m c 0).trans (((dat5 (X11 m) c).arrAt_in 0 rfl _).trans (A_eq5 (X11 m) c 0))
  by_cases h1 : r = main_v78
  · subst h1; exact (W12_arr m c 1).trans (((dat5 (X11 m) c).arrAt_in 1 rfl _).trans (A_eq5 (X11 m) c 1))
  exact W12_of_ne m c r fun w => match w with
    | ⟨0, _⟩ => fun e => h0 e.symm
    | ⟨1, _⟩ => fun e => h1 e.symm
    | ⟨2, _⟩ => fun e => h e.symm

/-- Region 6 changes at most the result. -/
theorem W14_kept (c : Dev nD) (r : Ref sig .tc) (h : r ≠ main_v82) : W14 m c (Proc.devRef .tc r) = W13 m c (Proc.devRef .tc r) := by
  by_cases h0 : r = main_v80
  · subst h0; exact (W14_arr m c 0).trans (((dat6 (X13 m) c).arrAt_in 0 rfl _).trans (A_eq6 (X13 m) c 0))
  by_cases h1 : r = main_arg8
  · subst h1; exact (W14_arr m c 1).trans (((dat6 (X13 m) c).arrAt_in 1 rfl _).trans (A_eq6 (X13 m) c 1))
  by_cases h2 : r = main_v81
  · subst h2; exact (W14_arr m c 2).trans (((dat6 (X13 m) c).arrAt_in 2 rfl _).trans (A_eq6 (X13 m) c 2))
  exact W14_of_ne m c r fun w => match w with
    | ⟨0, _⟩ => fun e => h0 e.symm
    | ⟨1, _⟩ => fun e => h1 e.symm
    | ⟨2, _⟩ => fun e => h2 e.symm
    | ⟨3, _⟩ => fun e => h e.symm

/-- A buffer that no host stretch writes and that is no region's output array ends holding its launch contents: the
    fold walks back through all fourteen items. -/
theorem W14_launch (c : Dev nD) (r : Ref sig .tc)
    (h0 : r ∉ hostOps0_W) (h1 : r ∉ hostOps0_1_W) (h2 : r ∉ hostOps0_2_W) (h4 : r ∉ hostOps1_W) (h7 : r ∉ hostOps3_W)
    (h10 : r ∉ hostOps5_W) (h12 : r ∉ hostOps6_W)
    (n32 : r ≠ main_v32) (n47 : r ≠ main_v47) (n48 : r ≠ main_v48) (n63 : r ≠ main_v63) (n64 : r ≠ main_v64)
    (n79 : r ≠ main_v79) (n82 : r ≠ main_v82) :
    W14 m c (Proc.devRef .tc r) = m ((c : Thread nD τ).loc r) :=
  calc W14 m c (Proc.devRef .tc r)
    _ = W13 m c (Proc.devRef .tc r) := W14_kept m c r n82
    _ = W12 m c (Proc.devRef .tc r) := StableHlo.after_of_writes_sub hostOps6 _ hostOps6_writes h12
    _ = W11 m c (Proc.devRef .tc r) := W12_kept m c r n79
    _ = W10 m c (Proc.devRef .tc r) := StableHlo.after_of_writes_sub hostOps5 _ hostOps5_writes h10
    _ = W9 m c (Proc.devRef .tc r) := W10_kept m c r n64
    _ = W8 m c (Proc.devRef .tc r) := W9_kept m c r n63
    _ = W7 m c (Proc.devRef .tc r) := StableHlo.after_of_writes_sub hostOps3 _ hostOps3_writes h7
    _ = W6 m c (Proc.devRef .tc r) := W7_kept m c r n48
    _ = W5 m c (Proc.devRef .tc r) := W6_kept m c r n47
    _ = W4 m c (Proc.devRef .tc r) := StableHlo.after_of_writes_sub hostOps1 _ hostOps1_writes h4
    _ = W3 m c (Proc.devRef .tc r) := W4_kept m c r n32
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- Each argument array is written by no item. -/
theorem W14_main_arg0 (c : Dev nD) : W14 m c (Proc.devRef .tc main_arg0) = m ((c : Thread nD τ).loc main_arg0) :=
  W14_launch m c main_arg0 (by decide) (by decide) (by decide) (by decide) (by decide) (by decide) (by decide) (by decide) (by decide) (by decide) (by decide) (by decide) (by decide) (by decide)
theorem W14_main_arg1 (c : Dev nD) : W14 m c (Proc.devRef .tc main_arg1) = m ((c : Thread nD τ).loc main_arg1) :=
  W14_launch m c main_arg1 (by decide) (by decide) (by decide) (by decide) (by decide) (by decide) (by decide) (by decide) (by decide) (by decide) (by decide) (by decide) (by decide) (by decide)
theorem W14_main_arg2 (c : Dev nD) : W14 m c (Proc.devRef .tc main_arg2) = m ((c : Thread nD τ).loc main_arg2) :=
  W14_launch m c main_arg2 (by decide) (by decide) (by decide) (by decide) (by decide) (by decide) (by decide) (by decide) (by decide) (by decide) (by decide) (by decide) (by decide) (by decide)
theorem W14_main_arg3 (c : Dev nD) : W14 m c (Proc.devRef .tc main_arg3) = m ((c : Thread nD τ).loc main_arg3) :=
  W14_launch m c main_arg3 (by decide) (by decide) (by decide) (by decide) (by decide) (by decide) (by decide) (by decide) (by decide) (by decide) (by decide) (by decide) (by decide) (by decide)
theorem W14_main_arg4 (c : Dev nD) : W14 m c (Proc.devRef .tc main_arg4) = m ((c : Thread nD τ).loc main_arg4) :=
  W14_launch m c main_arg4 (by decide) (by decide) (by decide) (by decide) (by decide) (by decide) (by decide) (by decide) (by decide) (by decide) (by decide) (by decide) (by decide) (by decide)
theorem W14_main_arg5 (c : Dev nD) : W14 m c (Proc.devRef .tc main_arg5) = m ((c : Thread nD τ).loc main_arg5) :=
  W14_launch m c main_arg5 (by decide) (by decide) (by decide) (by decide) (by decide) (by decide) (by decide) (by decide) (by decide) (by decide) (by decide) (by decide) (by decide) (by decide)
theorem W14_main_arg6 (c : Dev nD) : W14 m c (Proc.devRef .tc main_arg6) = m ((c : Thread nD τ).loc main_arg6) :=
  W14_launch m c main_arg6 (by decide) (by decide) (by decide) (by decide) (by decide) (by decide) (by decide) (by decide) (by decide) (by decide) (by decide) (by decide) (by decide) (by decide)
theorem W14_main_arg7 (c : Dev nD) : W14 m c (Proc.devRef .tc main_arg7) = m ((c : Thread nD τ).loc main_arg7) :=
  W14_launch m c main_arg7 (by decide) (by decide) (by decide) (by decide) (by decide) (by decide) (by decide) (by decide) (by decide) (by decide) (by decide) (by decide) (by decide) (by decide)
theorem W14_main_arg8 (c : Dev nD) : W14 m c (Proc.devRef .tc main_arg8) = m ((c : Thread nD τ).loc main_arg8) :=
  W14_launch m c main_arg8 (by decide) (by decide) (by decide) (by decide) (by decide) (by decide) (by decide) (by decide) (by decide) (by decide) (by decide) (by decide) (by decide) (by decide)
theorem W14_main_arg9 (c : Dev nD) : W14 m c (Proc.devRef .tc main_arg9) = m ((c : Thread nD τ).loc main_arg9) :=
  W14_launch m c main_arg9 (by decide) (by decide) (by decide) (by decide) (by decide) (by decide) (by decide) (by decide) (by decide) (by decide) (by decide) (by decide) (by decide) (by decide)

/-! ## The proof data family and the thread state -/

/-- Every pipeline's proof data, each at its region's entry contents — a literal match on the pipeline's number. -/
def pdatsH : (p : Fin 7) → (c : Dev nD) → Dat τ (Elt F) Unit ℕ (UR sig nD τ) ℕ (Pipeline.pin (pcfgs (F := F)) adm p) c
  | ⟨0, _⟩ => fun c => dat0 (X3 m) c
  | ⟨1, _⟩ => fun c => dat1 (X5 m) c
  | ⟨2, _⟩ => fun c => dat2 (X6 m) c
  | ⟨3, _⟩ => fun c => dat3 (X8 m) c
  | ⟨4, _⟩ => fun c => dat4 (X9 m) c
  | ⟨5, _⟩ => fun c => dat5 (X11 m) c
  | ⟨6, _⟩ => fun c => dat6 (X13 m) c
abbrev noVar : Variants := Variants.none
/-- No core owes another anything: no level is assigned. -/
abbrev noLev : GSem nD τ sig → Finset Unit := fun _ => ∅
abbrev lev0 : GSem nD τ sig → Unit → ℕ := fun _ _ => 0
/-- What rides beside the buffers through every item: the core's generator register at some state and its dues, at
    nothing. -/
abbrev rest (c : Dev nD) : sProp 𝕄 := iprop((∃ r, prngReg c r) ∗ ∃ W, owes (c : Thread nD τ) (0 : CellTallies nD τ sig Unit) W)
/-- A host stretch as a segment over the unscoped references from the contents `W`, `rest` riding along; it ends
    with those references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev lastState (c : Dev nD) : sProp 𝕄 := iprop(StableHlo.held (c : Thread nD τ) (Pipeline.ucRefs τ sig) (W14 m c) ∗ ∃ r, prngReg c r)

/-! ## The regions as segments

Each region is entered from every unscoped buffer at its entry boundary's contents and left at the next boundary's.
Its arrays are split out of the unscoped buffers and put back at what the pipeline leaves; the generator register goes
into the pipeline's invariant and comes back; nothing is owed; the kernel has no semaphore of its own. -/

-- a library lemma stated over the pinned configuration unifies with the printed one only when unification may
-- unfold plain definitions in a metavariable's type
set_option backward.isDefEq.respectTransparency.types false in
/-- Region 0 (x · W0): entered at `W3`, left at `W4`. -/
def reg0 : Pipeline.RegionSeg (pcfgs (F := F)) adm (pdatsH m) () defs₀ noVar noLev lev0 0 where
  win := launch0.win.to₀
  block_pos := launch0.block_pos
  stage_whole := launch0.stage_whole
  K := PEmpty
  osem k := k.elim
  ho := Pipeline.OwnSemFacts.none _
  hbody c := (body_obligation0 (X3 m) c).loose
  hwaits := Pipeline.hwaits_of_owed_zero _ _ _ _ noLev lev0 0 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec0 c (X3 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (X3 m c) (X4 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (max(agg0 + b0, 0)): entered at `W5`, left at `W6`. -/
def reg1 : Pipeline.RegionSeg (pcfgs (F := F)) adm (pdatsH m) () defs₀ noVar noLev lev0 1 where
  win := launch1.win.to₀
  block_pos := launch1.block_pos
  stage_whole := launch1.stage_whole
  K := PEmpty
  osem k := k.elim
  ho := Pipeline.OwnSemFacts.none _
  hbody c := (body_obligation1 (X5 m) c).loose
  hwaits := Pipeline.hwaits_of_owed_zero _ _ _ _ noLev lev0 1 fun _ _ => rfl
  pre c := iprop(StableHlo.held (c : Thread nD τ) (Pipeline.ucRefs τ sig) (W5 m c) ∗ rest c)
  post c := iprop(StableHlo.held (c : Thread nD τ) (Pipeline.ucRefs τ sig) (W6 m c) ∗ rest c)
  X c := iprop(∃ r, prngReg c r)
  Y c := iprop(∃ r, prngReg c r)
  Z c := Pipeline.unscopedRest (Ix := Unit) (Name := ℕ) (U := UR sig nD τ) (Lvl := ℕ) spec1 c (X5 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (X5 m c) (X6 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (x1 · W1): entered at `W6`, left at `W7`. -/
def reg2 : Pipeline.RegionSeg (pcfgs (F := F)) adm (pdatsH m) () defs₀ noVar noLev lev0 2 where
  win := launch2.win.to₀
  block_pos := launch2.block_pos
  stage_whole := launch2.stage_whole
  K := PEmpty
  osem k := k.elim
  ho := Pipeline.OwnSemFacts.none _
  hbody c := (body_obligation2 (X6 m) c).loose
  hwaits := Pipeline.hwaits_of_owed_zero _ _ _ _ noLev lev0 2 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec2 c (X6 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (X6 m c) (X7 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (max(agg1 + b1, 0)): entered at `W8`, left at `W9`. -/
def reg3 : Pipeline.RegionSeg (pcfgs (F := F)) adm (pdatsH m) () defs₀ noVar noLev lev0 3 where
  win := launch3.win.to₀
  block_pos := launch3.block_pos
  stage_whole := launch3.stage_whole
  K := PEmpty
  osem k := k.elim
  ho := Pipeline.OwnSemFacts.none _
  hbody c := (body_obligation3 (X8 m) c).loose
  hwaits := Pipeline.hwaits_of_owed_zero _ _ _ _ noLev lev0 3 fun _ _ => rfl
  pre c := iprop(StableHlo.held (c : Thread nD τ) (Pipeline.ucRefs τ sig) (W8 m c) ∗ rest c)
  post c := iprop(StableHlo.held (c : Thread nD τ) (Pipeline.ucRefs τ sig) (W9 m c) ∗ rest c)
  X c := iprop(∃ r, prngReg c r)
  Y c := iprop(∃ r, prngReg c r)
  Z c := Pipeline.unscopedRest (Ix := Unit) (Name := ℕ) (U := UR sig nD τ) (Lvl := ℕ) spec3 c (X8 m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (X8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (X8 m c) (X9 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (x2 · W2): entered at `W9`, left at `W10`. -/
def reg4 : Pipeline.RegionSeg (pcfgs (F := F)) adm (pdatsH m) () defs₀ noVar noLev lev0 4 where
  win := launch4.win.to₀
  block_pos := launch4.block_pos
  stage_whole := launch4.stage_whole
  K := PEmpty
  osem k := k.elim
  ho := Pipeline.OwnSemFacts.none _
  hbody c := (body_obligation4 (X9 m) c).loose
  hwaits := Pipeline.hwaits_of_owed_zero _ _ _ _ noLev lev0 4 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec4 c (X9 m c)
  hentry c := by
    rw [Pipeline.ownSems0_none]
    have hsplit := Pipeline.arrays_of_unscopedBufs (p := 4) (pcfgs (F := F)) adm (pdatsH m) launch4.win launch4.arr_whole c
      ((pdatsH m 4 c).share_full fun _ => rfl) (X9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsH m) ((pdatsH m 4 c).share_full fun _ => rfl)
      (X9 m c) (X10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (max(agg2 + b2, 0)): entered at `W11`, left at `W12`. -/
def reg5 : Pipeline.RegionSeg (pcfgs (F := F)) adm (pdatsH m) () defs₀ noVar noLev lev0 5 where
  win := launch5.win.to₀
  block_pos := launch5.block_pos
  stage_whole := launch5.stage_whole
  K := PEmpty
  osem k := k.elim
  ho := Pipeline.OwnSemFacts.none _
  hbody c := (body_obligation5 (X11 m) c).loose
  hwaits := Pipeline.hwaits_of_owed_zero _ _ _ _ noLev lev0 5 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec5 c (X11 m c)
  hentry c := by
    rw [Pipeline.ownSems0_none]
    have hsplit := Pipeline.arrays_of_unscopedBufs (p := 5) (pcfgs (F := F)) adm (pdatsH m) launch5.win launch5.arr_whole c
      ((pdatsH m 5 c).share_full fun _ => rfl) (X11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdatsH m) ((pdatsH m 5 c).share_full fun _ => rfl)
      (X11 m c) (X12 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 ([x1 | x2 | x3] · Wout + bout): entered at `W13`, left at `W14`, the end of @main — so its exit state is
    the last thread state beside the core owing nothing. -/
def reg6 : Pipeline.RegionSeg (pcfgs (F := F)) adm (pdatsH m) () defs₀ noVar noLev lev0 6 where
  win := launch6.win.to₀
  block_pos := launch6.block_pos
  stage_whole := launch6.stage_whole
  K := PEmpty
  osem k := k.elim
  ho := Pipeline.OwnSemFacts.none _
  hbody c := (body_obligation6 (X13 m) c).loose
  hwaits := Pipeline.hwaits_of_owed_zero _ _ _ _ noLev lev0 6 fun _ _ => rfl
  pre c := iprop(StableHlo.held (c : Thread nD τ) (Pipeline.ucRefs τ sig) (W13 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (X13 m c)
  hentry c := by
    rw [Pipeline.ownSems0_none]
    have hsplit := Pipeline.arrays_of_unscopedBufs (p := 6) (pcfgs (F := F)) adm (pdatsH m) launch6.win launch6.arr_whole c
      ((pdatsH m 6 c).share_full fun _ => rfl) (X13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdatsH m) ((pdatsH m 6 c).share_full fun _ => rfl)
      (X13 m c) (X14 m c) ((pdatsH m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's fourteen items in order: a host segment per stretch from its boundary's contents, a region per kernel. -/
abbrev segsH : List (Pipeline.Seg (pcfgs (F := F)) adm (pdatsH m) () defs₀ noVar noLev lev0) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)),
    .region (reg5 m),
    .host (hseg hostOps6 hostOps6_sub hostOps6_fresh (W12 m)),
    .region (reg6 m) ]

/-- @main is the run of those segments. -/
theorem main_run (c : Dev nD) : main (F := F) c = Pipeline.Seg.run (segsH m) := (main_chain c).trans (by chain_rfl)

variable (ρ : Dev nD → PrngReg)

-- the launch theorem's implicit arguments are found by unifying its conclusion with this one, which takes unfolding plain
-- definitions in a metavariable's type
set_option backward.isDefEq.respectTransparency.types false in
/-- THE RUN. From any memory with zero counters, every weakly fair execution of @main on the TensorCores terminates,
    nothing faulting, and in every final state each unscoped buffer of each core holds the last boundary's contents
    `W14`: the library's launch theorem over the fourteen segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdatsH m) () cellOf_inj emb₁ defs₀ noVar noLev lev0 m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- THE FRAME at any float instance: @main runs to the end, nothing faults, and every argument array ends as
    launched — each read off the run by `W14_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c),
     (h c _ (mem_uc main_arg6 (by decide))).trans (W14_main_arg6 m c),
     (h c _ (mem_uc main_arg7 (by decide))).trans (W14_main_arg7 m c),
     (h c _ (mem_uc main_arg8 (by decide))).trans (W14_main_arg8 m c),
     (h c _ (mem_uc main_arg9 (by decide))).trans (W14_main_arg9 m c)⟩) (run_all m ρ)

end Cert.Kernel.Hand

end
-- ==== Proof.IdealRegion0.lean ====
/-
  Region 0: the first dense product, h0 = x · W0, tiled over the 50000 rows in 25 blocks of 2000.
  Window 0 is the 2000×256 row block of x at the grid point, window 1 the whole 256×128 weight (the same block at
  every point, so it is fetched once), window 2 the 2000×128 row block of the result, written back at every point.
  The body reads both input blocks whole, forms their product into a zero accumulator and overwrites the output
  block whole; so after the body the output block is one function of the two input blocks (`out0_2`), the inputs
  are as found, and nothing is carried from point to point. Everything is stated at a parameter `V`, the buffer
  contents at the region's entry, and at any float instance.
-/
import proofs.«164648_j74337293959433_1_alg».proof.Proof.Gen.KernelIdeal.Launch
import proofs.«164648_j74337293959433_1_alg».proof.Proof.Gen.KernelIdeal.Skeleton
import proofs.«164648_j74337293959433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight is in its staging buffer at every point: fetched at the first, and its block index never moves, so
    what the body left there (the block itself) is still this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rx0 : Rect S2000x256 := Rect.unit (s := S2000x256) ![0, 0] S2000x256.size inb_S2000x256_S2000x256_0_0
abbrev rw0 : Rect S256x128 := Rect.unit (s := S256x128) ![0, 0] S256x128.size inb_S256x128_S256x128_0_0
abbrev ro0 : Rect S2000x128 := Rect.unit (s := S2000x128) ![0, 0] S2000x128.size inb_S2000x128_S2000x128_0_0

/-! ## What the body leaves in the output block -/

/-- The output block after the body: its one whole store, of the product of the two input blocks. -/
def out0_2 (x0 : Vec F S2000x256 .f32) (x1 : Vec F S256x128 .f32) : Vec F S2000x128 .f32 :=
  View.canon [⟨ro0, k0_pay1 (View.ld x0 rx0) (View.ld x1 rw0)⟩]

/-- The one store is of the whole block, so it covers it. -/
theorem cover0_2 (p0 : Vec F S2000x128 .f32) (y : S2000x128.Idx) :
    ∃ pc ∈ ([⟨ro0, p0⟩] : List (View.Piece (Elt F) S2000x128 .f32)), y ∈ pc.1.set :=
  View.cover_of_tiled [⟨ro0, p0⟩] S2000x128.size (by rfl) y

/-! ## The body's triple -/

set_option maxHeartbeats 1000000 in
/-- The body on whole staging memrefs, the inputs' reading `x0`, `x1` and the output's anything, runs to the
    continuation with the inputs as they were and the output reading `out0_2 x0 x1`. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer at its block and the output's at the product of the two input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  Region 1: x1 = max(agg0 + b0, 0), tiled over the 50000 rows in 25 blocks of 2000.
  Window 0 is the 2000×128 row block of the aggregated features at the grid point, window 1 the bias kept as one
  1×128 row (the same block at every point, fetched once), window 2 the 2000×128 row block of the result, written
  back at every point. The body reads both input blocks whole, adds the bias row to every row, takes the maximum
  with zero and overwrites the output block whole; so the output block is one function of the two input blocks
  (`out1_2`), the inputs are as found, nothing is carried from point to point. Stated at a parameter `V`, the
  buffer contents at the region's entry, and at any float instance.
-/
import proofs.«164648_j74337293959433_1_alg».proof.Proof.Gen.KernelIdeal.Launch
import proofs.«164648_j74337293959433_1_alg».proof.Proof.Gen.KernelIdeal.Skeleton
import proofs.«164648_j74337293959433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the aggregated features is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row is in its staging buffer at every point: fetched at the first, its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rx1 : Rect S2000x128 := Rect.unit (s := S2000x128) ![0, 0] S2000x128.size inb_S2000x128_S2000x128_0_0
abbrev rb1 : Rect S1x128 := Rect.unit (s := S1x128) ![0, 0] S1x128.size inb_S1x128_S1x128_0_0
abbrev ro1 : Rect S2000x128 := Rect.unit (s := S2000x128) ![0, 0] S2000x128.size inb_S2000x128_S2000x128_0_0

/-! ## What the body leaves in the output block -/

/-- The output block after the body: its one whole store, of max(block + bias row, 0). -/
def out1_2 (x0 : Vec F S2000x128 .f32) (x1 : Vec F S1x128 .f32) : Vec F S2000x128 .f32 :=
  View.canon [⟨ro1, k1_pay1 (View.ld x0 rx1) (View.ld x1 rb1)⟩]

/-- The one store is of the whole block, so it covers it. -/
theorem cover1_2 (p0 : Vec F S2000x128 .f32) (y : S2000x128.Idx) :
    ∃ pc ∈ ([⟨ro1, p0⟩] : List (View.Piece (Elt F) S2000x128 .f32)), y ∈ pc.1.set :=
  View.cover_of_tiled [⟨ro1, p0⟩] S2000x128.size (by rfl) y

/-! ## The body's triple -/

set_option maxHeartbeats 1000000 in
/-- The body on whole staging memrefs, the inputs' reading `x0`, `x1` and the output's anything, runs to the
    continuation with the inputs as they were and the output reading `out1_2 x0 x1`. -/
theorem sound_kernel1 (c : Dev nD) (E : Set ℕ) (i : grid1.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer at its block and the output's at max(block + bias row, 0); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Region 2: the second dense product, h1 = x1 · W1, tiled over the 50000 rows in 25 blocks of 2000.
  Window 0 is the 2000×128 row block of x1 at the grid point, window 1 the whole 128×128 weight (the same block at
  every point, fetched once), window 2 the 2000×128 row block of the result, written back at every point. The body
  reads both input blocks whole, forms their product into a zero accumulator and overwrites the output block whole;
  so the output block is one function of the two input blocks (`out2_2`), the inputs are as found, nothing is
  carried from point to point. Stated at a parameter `V`, the buffer contents at the region's entry, and at any
  float instance.
-/
import proofs.«164648_j74337293959433_1_alg».proof.Proof.Gen.KernelIdeal.Launch
import proofs.«164648_j74337293959433_1_alg».proof.Proof.Gen.KernelIdeal.Skeleton
import proofs.«164648_j74337293959433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of x1 is in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight is in its staging buffer at every point: fetched at the first, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rx2 : Rect S2000x128 := Rect.unit (s := S2000x128) ![0, 0] S2000x128.size inb_S2000x128_S2000x128_0_0
abbrev rw2 : Rect S128x128 := Rect.unit (s := S128x128) ![0, 0] S128x128.size inb_S128x128_S128x128_0_0
abbrev ro2 : Rect S2000x128 := Rect.unit (s := S2000x128) ![0, 0] S2000x128.size inb_S2000x128_S2000x128_0_0

/-! ## What the body leaves in the output block -/

/-- The output block after the body: its one whole store, of the product of the two input blocks. -/
def out2_2 (x0 : Vec F S2000x128 .f32) (x1 : Vec F S128x128 .f32) : Vec F S2000x128 .f32 :=
  View.canon [⟨ro2, k2_pay1 (View.ld x0 rx2) (View.ld x1 rw2)⟩]

/-- The one store is of the whole block, so it covers it. -/
theorem cover2_2 (p0 : Vec F S2000x128 .f32) (y : S2000x128.Idx) :
    ∃ pc ∈ ([⟨ro2, p0⟩] : List (View.Piece (Elt F) S2000x128 .f32)), y ∈ pc.1.set :=
  View.cover_of_tiled [⟨ro2, p0⟩] S2000x128.size (by rfl) y

/-! ## The body's triple -/

set_option maxHeartbeats 1000000 in
/-- The body on whole staging memrefs, the inputs' reading `x0`, `x1` and the output's anything, runs to the
    continuation with the inputs as they were and the output reading `out2_2 x0 x1`. -/
theorem sound_kernel2 (c : Dev nD) (E : Set ℕ) (i : grid2.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input's buffer at its block and the output's at the product of the two input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRegion3.lean ====
/-
  Region 3: x2 = max(agg1 + b1, 0), tiled over the 50000 rows in 25 blocks of 2000.
  Window 0 is the 2000×128 row block of the aggregated features at the grid point, window 1 the bias kept as one
  1×128 row (the same block at every point, fetched once), window 2 the 2000×128 row block of the result, written
  back at every point. The body reads both input blocks whole, adds the bias row to every row, takes the maximum
  with zero and overwrites the output block whole; so the output block is one function of the two input blocks
  (`out3_2`), the inputs are as found, nothing is carried from point to point. Stated at a parameter `V`, the
  buffer contents at the region's entry, and at any float instance.
-/
import proofs.«164648_j74337293959433_1_alg».proof.Proof.Gen.KernelIdeal.Launch
import proofs.«164648_j74337293959433_1_alg».proof.Proof.Gen.KernelIdeal.Skeleton
import proofs.«164648_j74337293959433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the aggregated features is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The bias row is in its staging buffer at every point: fetched at the first, its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev rx3 : Rect S2000x128 := Rect.unit (s := S2000x128) ![0, 0] S2000x128.size inb_S2000x128_S2000x128_0_0
abbrev rb3 : Rect S1x128 := Rect.unit (s := S1x128) ![0, 0] S1x128.size inb_S1x128_S1x128_0_0
abbrev ro3 : Rect S2000x128 := Rect.unit (s := S2000x128) ![0, 0] S2000x128.size inb_S2000x128_S2000x128_0_0

/-! ## What the body leaves in the output block -/

/-- The output block after the body: its one whole store, of max(block + bias row, 0). -/
def out3_2 (x0 : Vec F S2000x128 .f32) (x1 : Vec F S1x128 .f32) : Vec F S2000x128 .f32 :=
  View.canon [⟨ro3, k3_pay1 (View.ld x0 rx3) (View.ld x1 rb3)⟩]

/-- The one store is of the whole block, so it covers it. -/
theorem cover3_2 (p0 : Vec F S2000x128 .f32) (y : S2000x128.Idx) :
    ∃ pc ∈ ([⟨ro3, p0⟩] : List (View.Piece (Elt F) S2000x128 .f32)), y ∈ pc.1.set :=
  View.cover_of_tiled [⟨ro3, p0⟩] S2000x128.size (by rfl) y

/-! ## The body's triple -/

set_option maxHeartbeats 1000000 in
/-- The body on whole staging memrefs, the inputs' reading `x0`, `x1` and the output's anything, runs to the
    continuation with the inputs as they were and the output reading `out3_2 x0 x1`. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this pipeline on core `c`: the arrays as the region finds them; after the body at point `t`
    each input's buffer at its block and the output's at max(block + bias row, 0); nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealRegion4.lean ====
/-
  Region 4: the third dense product, h2 = x2 · W2, tiled over the 50000 rows in 25 blocks of 2000.
  Window 0 is the 2000×128 row block of x2 at the grid point, window 1 the whole 128×128 weight (the same block at
  every point, fetched once), window 2 the 2000×128 row block of the result, written back at every point. The body
  reads both input blocks whole, forms their product into a zero accumulator and overwrites the output block whole;
  so the output block is one function of the two input blocks (`out4_2`), the inputs are as found, nothing is
  carried from point to point. Stated at a parameter `V`, the buffer contents at the region's entry, and at any
  float instance.
-/
import proofs.«164648_j74337293959433_1_alg».proof.Proof.Gen.KernelIdeal.Launch
import proofs.«164648_j74337293959433_1_alg».proof.Proof.Gen.KernelIdeal.Skeleton
import proofs.«164648_j74337293959433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block of x2 is in its staging buffer at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight is in its staging buffer at every point: fetched at the first, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev rx4 : Rect S2000x128 := Rect.unit (s := S2000x128) ![0, 0] S2000x128.size inb_S2000x128_S2000x128_0_0
abbrev rw4 : Rect S128x128 := Rect.unit (s := S128x128) ![0, 0] S128x128.size inb_S128x128_S128x128_0_0
abbrev ro4 : Rect S2000x128 := Rect.unit (s := S2000x128) ![0, 0] S2000x128.size inb_S2000x128_S2000x128_0_0

/-! ## What the body leaves in the output block -/

/-- The output block after the body: its one whole store, of the product of the two input blocks. -/
def out4_2 (x0 : Vec F S2000x128 .f32) (x1 : Vec F S128x128 .f32) : Vec F S2000x128 .f32 :=
  View.canon [⟨ro4, k4_pay1 (View.ld x0 rx4) (View.ld x1 rw4)⟩]

/-- The one store is of the whole block, so it covers it. -/
theorem cover4_2 (p0 : Vec F S2000x128 .f32) (y : S2000x128.Idx) :
    ∃ pc ∈ ([⟨ro4, p0⟩] : List (View.Piece (Elt F) S2000x128 .f32)), y ∈ pc.1.set :=
  View.cover_of_tiled [⟨ro4, p0⟩] S2000x128.size (by rfl) y

/-! ## The body's triple -/

set_option maxHeartbeats 1000000 in
/-- The body on whole staging memrefs, the inputs' reading `x0`, `x1` and the output's anything, runs to the
    continuation with the inputs as they were and the output reading `out4_2 x0 x1`. -/
theorem sound_kernel4 (c : Dev nD) (E : Set ℕ) (i : grid4.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t`
    each input's buffer at its block and the output's at the product of the two input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.IdealRegion5.lean ====
/-
  Region 5: x3 = max(agg2 + b2, 0), tiled over the 50000 rows in 25 blocks of 2000.
  Window 0 is the 2000×128 row block of the aggregated features at the grid point, window 1 the bias kept as one
  1×128 row (the same block at every point, fetched once), window 2 the 2000×128 row block of the result, written
  back at every point. The body reads both input blocks whole, adds the bias row to every row, takes the maximum
  with zero and overwrites the output block whole; so the output block is one function of the two input blocks
  (`out5_2`), the inputs are as found, nothing is carried from point to point. Stated at a parameter `V`, the
  buffer contents at the region's entry, and at any float instance.
-/
import proofs.«164648_j74337293959433_1_alg».proof.Proof.Gen.KernelIdeal.Launch
import proofs.«164648_j74337293959433_1_alg».proof.Proof.Gen.KernelIdeal.Skeleton
import proofs.«164648_j74337293959433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row block of the aggregated features is in its staging buffer at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The bias row is in its staging buffer at every point: fetched at the first, its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev rx5 : Rect S2000x128 := Rect.unit (s := S2000x128) ![0, 0] S2000x128.size inb_S2000x128_S2000x128_0_0
abbrev rb5 : Rect S1x128 := Rect.unit (s := S1x128) ![0, 0] S1x128.size inb_S1x128_S1x128_0_0
abbrev ro5 : Rect S2000x128 := Rect.unit (s := S2000x128) ![0, 0] S2000x128.size inb_S2000x128_S2000x128_0_0

/-! ## What the body leaves in the output block -/

/-- The output block after the body: its one whole store, of max(block + bias row, 0). -/
def out5_2 (x0 : Vec F S2000x128 .f32) (x1 : Vec F S1x128 .f32) : Vec F S2000x128 .f32 :=
  View.canon [⟨ro5, k5_pay1 (View.ld x0 rx5) (View.ld x1 rb5)⟩]

/-- The one store is of the whole block, so it covers it. -/
theorem cover5_2 (p0 : Vec F S2000x128 .f32) (y : S2000x128.Idx) :
    ∃ pc ∈ ([⟨ro5, p0⟩] : List (View.Piece (Elt F) S2000x128 .f32)), y ∈ pc.1.set :=
  View.cover_of_tiled [⟨ro5, p0⟩] S2000x128.size (by rfl) y

/-! ## The body's triple -/

set_option maxHeartbeats 1000000 in
/-- The body on whole staging memrefs, the inputs' reading `x0`, `x1` and the output's anything, runs to the
    continuation with the inputs as they were and the output reading `out5_2 x0 x1`. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_relu_kernel i arg1 harg1 arg2 harg2 arg3 harg3) K := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of this pipeline on core `c`: the arrays as the region finds them; after the body at point `t`
    each input's buffer at its block and the output's at max(block + bias row, 0); nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.IdealRegion6.lean ====
/-
  Region 6: the output layer, out = [x1 | x2 | x3] · Wout + bout, tiled over the 50000 rows in 25 blocks of 2000.
  Window 0 is the 2000×384 row block of the concatenated features at the grid point, window 1 the whole 384×40
  weight and window 2 the bias kept as one 1×40 row (each the same block at every point, fetched once), window 3 the
  2000×40 row block of the result, written back at every point. The body reads the three input blocks whole, forms
  the product into a zero accumulator, adds the bias row to every row and overwrites the output block whole; so the
  output block is one function of the three input blocks (`out6_3`), the inputs are as found, nothing is carried
  from point to point. Stated at a parameter `V`, the buffer contents at the region's entry, and at any float
  instance.
-/
import proofs.«164648_j74337293959433_1_alg».proof.Proof.Gen.KernelIdeal.Launch
import proofs.«164648_j74337293959433_1_alg».proof.Proof.Gen.KernelIdeal.Skeleton
import proofs.«164648_j74337293959433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle that is a whole 2000-row buffer: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter here, fixed by the run
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block of the concatenated features is in its staging buffer at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight is in its staging buffer at every point: fetched at the first, its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The bias row is in its staging buffer at every point: fetched at the first, its block index never moves. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer whole -/

abbrev rx6 : Rect S2000x384 := Rect.unit (s := S2000x384) ![0, 0] S2000x384.size inb_S2000x384_S2000x384_0_0
abbrev rw6 : Rect S384x40 := Rect.unit (s := S384x40) ![0, 0] S384x40.size inb_S384x40_S384x40_0_0
abbrev rb6 : Rect S1x40 := Rect.unit (s := S1x40) ![0, 0] S1x40.size inb_S1x40_S1x40_0_0
abbrev ro6 : Rect S2000x40 := Rect.unit (s := S2000x40) ![0, 0] S2000x40.size inb_S2000x40_S2000x40_0_0

/-! ## What the body leaves in the output block -/

/-- The output block after the body: its one whole store, of the product of the first two input blocks plus the
    bias row. -/
def out6_3 (x0 : Vec F S2000x384 .f32) (x1 : Vec F S384x40 .f32) (x2 : Vec F S1x40 .f32) : Vec F S2000x40 .f32 :=
  View.canon [⟨ro6, k6_pay1 (View.ld x0 rx6) (View.ld x1 rw6) (View.ld x2 rb6)⟩]

/-- The one store is of the whole block, so it covers it. -/
theorem cover6_3 (p0 : Vec F S2000x40 .f32) (y : S2000x40.Idx) :
    ∃ pc ∈ ([⟨ro6, p0⟩] : List (View.Piece (Elt F) S2000x40 .f32)), y ∈ pc.1.set :=
  View.cover_of_tiled [⟨ro6, p0⟩] S2000x40.size (by rfl) y

/-! ## The body's triple -/

set_option maxHeartbeats 1000000 in
/-- The body on whole staging memrefs, the inputs' reading `x0`, `x1`, `x2` and the output's anything, runs to the
    continuation with the inputs as they were and the output reading `out6_3 x0 x1 x2`. -/
theorem sound_kernel6 (c : Dev nD) (E : Set ℕ) (i : grid6.Coords) (arg1 : Memref sig .tc .vmem S2000x384 .f32) (harg1 : arg1.IsWhole) (arg2 : Memref sig .tc .vmem S384x40 .f32) (harg2 : arg2.IsWhole) (arg3 : Memref sig .tc .vmem S1x40 .f32) (harg3 : arg3.IsWhole) (arg4 : Memref sig .tc .vmem S2000x40 .f32) (harg4 : arg4.IsWhole)
    (x0 : Vec F S2000x384 .f32) (x1 : Vec F S384x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of this pipeline on core `c`: the arrays as the region finds them; after the body at point `t`
    each input's buffer at its block and the output's at the product plus the bias row; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.IdealRun.lean ====
/-
  The idealized kernel program's whole run: @main is fourteen items in order — three stretches of host operations
  (the edge lists with self loops appended, the degree vector and its inverse square root, the per-edge weight), then
  seven tiled kernel regions with host stretches between them (each layer: the dense product, then on the host the
  gather along the source index, the scaling by the edge weight and the scatter-add along the target index, then the
  bias-and-relu region; at the end the three layers' features side by side and the output layer's region).
  This module names the contents of every unscoped buffer at each of the fifteen boundaries as a fold from the launch
  memory — a host stretch applies its operations, a region leaves its input arrays as found and each output array at
  what its write-backs leave —, shows that a buffer no item writes still holds its launch contents at the end, states
  each region as a segment over those contents, and runs @main: every weakly fair execution terminates, nothing
  faults, and at the end every unscoped buffer holds the last boundary's contents. The frame claim and the value of
  the result are both read off that one run. At any float instance.
-/
import proofs.«164648_j74337293959433_1_alg».proof.Proof.IdealRegion0
import proofs.«164648_j74337293959433_1_alg».proof.Proof.IdealRegion1
import proofs.«164648_j74337293959433_1_alg».proof.Proof.IdealRegion2
import proofs.«164648_j74337293959433_1_alg».proof.Proof.IdealRegion3
import proofs.«164648_j74337293959433_1_alg».proof.Proof.IdealRegion4
import proofs.«164648_j74337293959433_1_alg».proof.Proof.IdealRegion5
import proofs.«164648_j74337293959433_1_alg».proof.Proof.IdealRegion6
import proofs.«164648_j74337293959433_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through @main

`WJ` is core `c`'s valuation of every buffer after J items; `XJ` is the same read at the TensorCore's references,
which is what a region's proof data take. -/

/-- At launch. -/
abbrev W0 : Dev nD → Valuation τ sig (Elt F) := fun c b => m (c, b)
/-- After the first host stretch (edge lists, degrees, inverse square roots). -/
abbrev W1 : Dev nD → Valuation τ sig (Elt F) := fun c => StableHlo.after hostOps0 (W0 m c)
/-- After the second host stretch (zero where the degree is zero). -/
abbrev W2 : Dev nD → Valuation τ sig (Elt F) := fun c => StableHlo.after hostOps0_1 (W1 m c)
/-- After the third host stretch (the per-edge weight): region 0's entry. -/
abbrev W3 : Dev nD → Valuation τ sig (Elt F) := fun c => StableHlo.after hostOps0_2 (W2 m c)
abbrev X3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (X3 m) c).arrAt w cfg0.N
theorem W4_arr (c : Dev nD) (w : Fin cfg0.W) :
    W4 m c (Proc.devRef .tc (Pipeline.arrRef spec0 w)) = (dat0 (X3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev X4 : (c : Dev nD) → (b : Ref sig .tc) → Buf (Elt F) ((c : Thread nD τ).loc b) := fun c b => W4 m c b
theorem hF0 (c : Dev nD) (w : Fin cfg0.W) : (dat0 (X3 m) c).arrAt w cfg0.N = X4 m c (Pipeline.arrRef spec0 w) :=
  (W4_arr m c w).symm
theorem hrest0 (c : Dev nD) : ∀ b, b ∉ Finset.univ.image (Pipeline.arrRef spec0) → X4 m c b = X3 m c b :=
  fun b hb => W4_of_ne m c b fun w e => hb (Finset.mem_image.mpr ⟨w, Finset.mem_univ _, e⟩)

/-- After the first layer's gather, scaling and scatter-add: region 1's entry. -/
abbrev W5 : Dev nD → Valuation τ sig (Elt F) := fun c => StableHlo.after hostOps1 (W4 m c)
abbrev X5 : (c : Dev nD) → (b : Ref sig .tc) → Buf (Elt F) ((c : Thread nD τ).loc b) := fun c b => W5 m c b
/-- At region 1's exit (which is region 2's entry). -/
def W6 (c : Dev nD) : Valuation τ sig (Elt F) :=
  Pipeline.withArrays spec1 c (W5 m c) fun w => (dat1 (X5 m) c).arrAt w cfg1.N
theorem W6_arr (c : Dev nD) (w : Fin cfg1.W) :
    W6 m c (Proc.devRef .tc (Pipeline.arrRef spec1 w)) = (dat1 (X5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev X6 : (c : Dev nD) → (b : Ref sig .tc) → Buf (Elt F) ((c : Thread nD τ).loc b) := fun c b => W6 m c b
theorem hF1 (c : Dev nD) (w : Fin cfg1.W) : (dat1 (X5 m) c).arrAt w cfg1.N = X6 m c (Pipeline.arrRef spec1 w) :=
  (W6_arr m c w).symm
theorem hrest1 (c : Dev nD) : ∀ b, b ∉ Finset.univ.image (Pipeline.arrRef spec1) → X6 m c b = X5 m c b :=
  fun b hb => W6_of_ne m c b fun w e => hb (Finset.mem_image.mpr ⟨w, Finset.mem_univ _, e⟩)

/-- At region 2's exit. -/
def W7 (c : Dev nD) : Valuation τ sig (Elt F) :=
  Pipeline.withArrays spec2 c (W6 m c) fun w => (dat2 (X6 m) c).arrAt w cfg2.N
theorem W7_arr (c : Dev nD) (w : Fin cfg2.W) :
    W7 m c (Proc.devRef .tc (Pipeline.arrRef spec2 w)) = (dat2 (X6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev X7 : (c : Dev nD) → (b : Ref sig .tc) → Buf (Elt F) ((c : Thread nD τ).loc b) := fun c b => W7 m c b
theorem hF2 (c : Dev nD) (w : Fin cfg2.W) : (dat2 (X6 m) c).arrAt w cfg2.N = X7 m c (Pipeline.arrRef spec2 w) :=
  (W7_arr m c w).symm
theorem hrest2 (c : Dev nD) : ∀ b, b ∉ Finset.univ.image (Pipeline.arrRef spec2) → X7 m c b = X6 m c b :=
  fun b hb => W7_of_ne m c b fun w e => hb (Finset.mem_image.mpr ⟨w, Finset.mem_univ _, e⟩)

/-- After the second layer's gather, scaling and scatter-add: region 3's entry. -/
abbrev W8 : Dev nD → Valuation τ sig (Elt F) := fun c => StableHlo.after hostOps3 (W7 m c)
abbrev X8 : (c : Dev nD) → (b : Ref sig .tc) → Buf (Elt F) ((c : Thread nD τ).loc b) := fun c b => W8 m c b
/-- At region 3's exit (which is region 4's entry). -/
def W9 (c : Dev nD) : Valuation τ sig (Elt F) :=
  Pipeline.withArrays spec3 c (W8 m c) fun w => (dat3 (X8 m) c).arrAt w cfg3.N
theorem W9_arr (c : Dev nD) (w : Fin cfg3.W) :
    W9 m c (Proc.devRef .tc (Pipeline.arrRef spec3 w)) = (dat3 (X8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev X9 : (c : Dev nD) → (b : Ref sig .tc) → Buf (Elt F) ((c : Thread nD τ).loc b) := fun c b => W9 m c b
theorem hF3 (c : Dev nD) (w : Fin cfg3.W) : (dat3 (X8 m) c).arrAt w cfg3.N = X9 m c (Pipeline.arrRef spec3 w) :=
  (W9_arr m c w).symm
theorem hrest3 (c : Dev nD) : ∀ b, b ∉ Finset.univ.image (Pipeline.arrRef spec3) → X9 m c b = X8 m c b :=
  fun b hb => W9_of_ne m c b fun w e => hb (Finset.mem_image.mpr ⟨w, Finset.mem_univ _, e⟩)

/-- At region 4's exit. -/
def W10 (c : Dev nD) : Valuation τ sig (Elt F) :=
  Pipeline.withArrays spec4 c (W9 m c) fun w => (dat4 (X9 m) c).arrAt w cfg4.N
theorem W10_arr (c : Dev nD) (w : Fin cfg4.W) :
    W10 m c (Proc.devRef .tc (Pipeline.arrRef spec4 w)) = (dat4 (X9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev X10 : (c : Dev nD) → (b : Ref sig .tc) → Buf (Elt F) ((c : Thread nD τ).loc b) := fun c b => W10 m c b
theorem hF4 (c : Dev nD) (w : Fin cfg4.W) : (dat4 (X9 m) c).arrAt w cfg4.N = X10 m c (Pipeline.arrRef spec4 w) :=
  (W10_arr m c w).symm
theorem hrest4 (c : Dev nD) : ∀ b, b ∉ Finset.univ.image (Pipeline.arrRef spec4) → X10 m c b = X9 m c b :=
  fun b hb => W10_of_ne m c b fun w e => hb (Finset.mem_image.mpr ⟨w, Finset.mem_univ _, e⟩)

/-- After the third layer's gather, scaling and scatter-add: region 5's entry. -/
abbrev W11 : Dev nD → Valuation τ sig (Elt F) := fun c => StableHlo.after hostOps5 (W10 m c)
abbrev X11 : (c : Dev nD) → (b : Ref sig .tc) → Buf (Elt F) ((c : Thread nD τ).loc b) := fun c b => W11 m c b
/-- At region 5's exit. -/
def W12 (c : Dev nD) : Valuation τ sig (Elt F) :=
  Pipeline.withArrays spec5 c (W11 m c) fun w => (dat5 (X11 m) c).arrAt w cfg5.N
theorem W12_arr (c : Dev nD) (w : Fin cfg5.W) :
    W12 m c (Proc.devRef .tc (Pipeline.arrRef spec5 w)) = (dat5 (X11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev X12 : (c : Dev nD) → (b : Ref sig .tc) → Buf (Elt F) ((c : Thread nD τ).loc b) := fun c b => W12 m c b
theorem hF5 (c : Dev nD) (w : Fin cfg5.W) : (dat5 (X11 m) c).arrAt w cfg5.N = X12 m c (Pipeline.arrRef spec5 w) :=
  (W12_arr m c w).symm
theorem hrest5 (c : Dev nD) : ∀ b, b ∉ Finset.univ.image (Pipeline.arrRef spec5) → X12 m c b = X11 m c b :=
  fun b hb => W12_of_ne m c b fun w e => hb (Finset.mem_image.mpr ⟨w, Finset.mem_univ _, e⟩)

/-- After the three layers' features are put side by side: region 6's entry. -/
abbrev W13 : Dev nD → Valuation τ sig (Elt F) := fun c => StableHlo.after hostOps6 (W12 m c)
abbrev X13 : (c : Dev nD) → (b : Ref sig .tc) → Buf (Elt F) ((c : Thread nD τ).loc b) := fun c b => W13 m c b
/-- At region 6's exit: the end of @main. -/
def W14 (c : Dev nD) : Valuation τ sig (Elt F) :=
  Pipeline.withArrays spec6 c (W13 m c) fun w => (dat6 (X13 m) c).arrAt w cfg6.N
theorem W14_arr (c : Dev nD) (w : Fin cfg6.W) :
    W14 m c (Proc.devRef .tc (Pipeline.arrRef spec6 w)) = (dat6 (X13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev X14 : (c : Dev nD) → (b : Ref sig .tc) → Buf (Elt F) ((c : Thread nD τ).loc b) := fun c b => W14 m c b
theorem hF6 (c : Dev nD) (w : Fin cfg6.W) : (dat6 (X13 m) c).arrAt w cfg6.N = X14 m c (Pipeline.arrRef spec6 w) :=
  (W14_arr m c w).symm
theorem hrest6 (c : Dev nD) : ∀ b, b ∉ Finset.univ.image (Pipeline.arrRef spec6) → X14 m c b = X13 m c b :=
  fun b hb => W14_of_ne m c b fun w e => hb (Finset.mem_image.mpr ⟨w, Finset.mem_univ _, e⟩)

/-! ## What no item writes ends as launched

A host stretch changes only the buffers its operations write. A region changes only its output array: an input
array it reads through a window is left as found, and a buffer that is none of its arrays is untouched. -/

/-- Region 0 changes at most the product's array. -/
theorem W4_kept (c : Dev nD) (r : Ref sig .tc) (h : r ≠ main_v32) : W4 m c (Proc.devRef .tc r) = W3 m c (Proc.devRef .tc r) := by
  by_cases h0 : r = main_arg0
  · subst h0; exact (W4_arr m c 0).trans (((dat0 (X3 m) c).arrAt_in 0 rfl _).trans (A_eq0 (X3 m) c 0))
  by_cases h1 : r = main_arg2
  · subst h1; exact (W4_arr m c 1).trans (((dat0 (X3 m) c).arrAt_in 1 rfl _).trans (A_eq0 (X3 m) c 1))
  exact W4_of_ne m c r fun w => match w with
    | ⟨0, _⟩ => fun e => h0 e.symm
    | ⟨1, _⟩ => fun e => h1 e.symm
    | ⟨2, _⟩ => fun e => h e.symm

/-- Region 1 changes at most the first layer's features. -/
theorem W6_kept (c : Dev nD) (r : Ref sig .tc) (h : r ≠ main_v47) : W6 m c (Proc.devRef .tc r) = W5 m c (Proc.devRef .tc r) := by
  by_cases h0 : r = main_v45
  · subst h0; exact (W6_arr m c 0).trans (((dat1 (X5 m) c).arrAt_in 0 rfl _).trans (A_eq1 (X5 m) c 0))
  by_cases h1 : r = main_v46
  · subst h1; exact (W6_arr m c 1).trans (((dat1 (X5 m) c).arrAt_in 1 rfl _).trans (A_eq1 (X5 m) c 1))
  exact W6_of_ne m c r fun w => match w with
    | ⟨0, _⟩ => fun e => h0 e.symm
    | ⟨1, _⟩ => fun e => h1 e.symm
    | ⟨2, _⟩ => fun e => h e.symm

/-- Region 2 changes at most the second product's array. -/
theorem W7_kept (c : Dev nD) (r : Ref sig .tc) (h : r ≠ main_v48) : W7 m c (Proc.devRef .tc r) = W6 m c (Proc.devRef .tc r) := by
  by_cases h0 : r = main_v47
  · subst h0; exact (W7_arr m c 0).trans (((dat2 (X6 m) c).arrAt_in 0 rfl _).trans (A_eq2 (X6 m) c 0))
  by_cases h1 : r = main_arg4
  · subst h1; exact (W7_arr m c 1).trans (((dat2 (X6 m) c).arrAt_in 1 rfl _).trans (A_eq2 (X6 m) c 1))
  exact W7_of_ne m c r fun w => match w with
    | ⟨0, _⟩ => fun e => h0 e.symm
    | ⟨1, _⟩ => fun e => h1 e.symm
    | ⟨2, _⟩ => fun e => h e.symm

/-- Region 3 changes at most the second layer's features. -/
theorem W9_kept (c : Dev nD) (r : Ref sig .tc) (h : r ≠ main_v63) : W9 m c (Proc.devRef .tc r) = W8 m c (Proc.devRef .tc r) := by
  by_cases h0 : r = main_v61
  · subst h0; exact (W9_arr m c 0).trans (((dat3 (X8 m) c).arrAt_in 0 rfl _).trans (A_eq3 (X8 m) c 0))
  by_cases h1 : r = main_v62
  · subst h1; exact (W9_arr m c 1).trans (((dat3 (X8 m) c).arrAt_in 1 rfl _).trans (A_eq3 (X8 m) c 1))
  exact W9_of_ne m c r fun w => match w with
    | ⟨0, _⟩ => fun e => h0 e.symm
    | ⟨1, _⟩ => fun e => h1 e.symm
    | ⟨2, _⟩ => fun e => h e.symm

/-- Region 4 changes at most the third product's array. -/
theorem W10_kept (c : Dev nD) (r : Ref sig .tc) (h : r ≠ main_v64) : W10 m c (Proc.devRef .tc r) = W9 m c (Proc.devRef .tc r) := by
  by_cases h0 : r = main_v63
  · subst h0; exact (W10_arr m c 0).trans (((dat4 (X9 m) c).arrAt_in 0 rfl _).trans (A_eq4 (X9 m) c 0))
  by_cases h1 : r = main_arg6
  · subst h1; exact (W10_arr m c 1).trans (((dat4 (X9 m) c).arrAt_in 1 rfl _).trans (A_eq4 (X9 m) c 1))
  exact W10_of_ne m c r fun w => match w with
    | ⟨0, _⟩ => fun e => h0 e.symm
    | ⟨1, _⟩ => fun e => h1 e.symm
    | ⟨2, _⟩ => fun e => h e.symm

/-- Region 5 changes at most the third layer's features. -/
theorem W12_kept (c : Dev nD) (r : Ref sig .tc) (h : r ≠ main_v79) : W12 m c (Proc.devRef .tc r) = W11 m c (Proc.devRef .tc r) := by
  by_cases h0 : r = main_v77
  · subst h0; exact (W12_arr m c 0).trans (((dat5 (X11 m) c).arrAt_in 0 rfl _).trans (A_eq5 (X11 m) c 0))
  by_cases h1 : r = main_v78
  · subst h1; exact (W12_arr m c 1).trans (((dat5 (X11 m) c).arrAt_in 1 rfl _).trans (A_eq5 (X11 m) c 1))
  exact W12_of_ne m c r fun w => match w with
    | ⟨0, _⟩ => fun e => h0 e.symm
    | ⟨1, _⟩ => fun e => h1 e.symm
    | ⟨2, _⟩ => fun e => h e.symm

/-- Region 6 changes at most the result. -/
theorem W14_kept (c : Dev nD) (r : Ref sig .tc) (h : r ≠ main_v82) : W14 m c (Proc.devRef .tc r) = W13 m c (Proc.devRef .tc r) := by
  by_cases h0 : r = main_v80
  · subst h0; exact (W14_arr m c 0).trans (((dat6 (X13 m) c).arrAt_in 0 rfl _).trans (A_eq6 (X13 m) c 0))
  by_cases h1 : r = main_arg8
  · subst h1; exact (W14_arr m c 1).trans (((dat6 (X13 m) c).arrAt_in 1 rfl _).trans (A_eq6 (X13 m) c 1))
  by_cases h2 : r = main_v81
  · subst h2; exact (W14_arr m c 2).trans (((dat6 (X13 m) c).arrAt_in 2 rfl _).trans (A_eq6 (X13 m) c 2))
  exact W14_of_ne m c r fun w => match w with
    | ⟨0, _⟩ => fun e => h0 e.symm
    | ⟨1, _⟩ => fun e => h1 e.symm
    | ⟨2, _⟩ => fun e => h2 e.symm
    | ⟨3, _⟩ => fun e => h e.symm

/-- A buffer that no host stretch writes and that is no region's output array ends holding its launch contents: the
    fold walks back through all fourteen items. -/
theorem W14_launch (c : Dev nD) (r : Ref sig .tc)
    (h0 : r ∉ hostOps0_W) (h1 : r ∉ hostOps0_1_W) (h2 : r ∉ hostOps0_2_W) (h4 : r ∉ hostOps1_W) (h7 : r ∉ hostOps3_W)
    (h10 : r ∉ hostOps5_W) (h12 : r ∉ hostOps6_W)
    (n32 : r ≠ main_v32) (n47 : r ≠ main_v47) (n48 : r ≠ main_v48) (n63 : r ≠ main_v63) (n64 : r ≠ main_v64)
    (n79 : r ≠ main_v79) (n82 : r ≠ main_v82) :
    W14 m c (Proc.devRef .tc r) = m ((c : Thread nD τ).loc r) :=
  calc W14 m c (Proc.devRef .tc r)
    _ = W13 m c (Proc.devRef .tc r) := W14_kept m c r n82
    _ = W12 m c (Proc.devRef .tc r) := StableHlo.after_of_writes_sub hostOps6 _ hostOps6_writes h12
    _ = W11 m c (Proc.devRef .tc r) := W12_kept m c r n79
    _ = W10 m c (Proc.devRef .tc r) := StableHlo.after_of_writes_sub hostOps5 _ hostOps5_writes h10
    _ = W9 m c (Proc.devRef .tc r) := W10_kept m c r n64
    _ = W8 m c (Proc.devRef .tc r) := W9_kept m c r n63
    _ = W7 m c (Proc.devRef .tc r) := StableHlo.after_of_writes_sub hostOps3 _ hostOps3_writes h7
    _ = W6 m c (Proc.devRef .tc r) := W7_kept m c r n48
    _ = W5 m c (Proc.devRef .tc r) := W6_kept m c r n47
    _ = W4 m c (Proc.devRef .tc r) := StableHlo.after_of_writes_sub hostOps1 _ hostOps1_writes h4
    _ = W3 m c (Proc.devRef .tc r) := W4_kept m c r n32
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- Each argument array is written by no item. -/
theorem W14_main_arg0 (c : Dev nD) : W14 m c (Proc.devRef .tc main_arg0) = m ((c : Thread nD τ).loc main_arg0) :=
  W14_launch m c main_arg0 (by decide) (by decide) (by decide) (by decide) (by decide) (by decide) (by decide) (by decide) (by decide) (by decide) (by decide) (by decide) (by decide) (by decide)
theorem W14_main_arg1 (c : Dev nD) : W14 m c (Proc.devRef .tc main_arg1) = m ((c : Thread nD τ).loc main_arg1) :=
  W14_launch m c main_arg1 (by decide) (by decide) (by decide) (by decide) (by decide) (by decide) (by decide) (by decide) (by decide) (by decide) (by decide) (by decide) (by decide) (by decide)
theorem W14_main_arg2 (c : Dev nD) : W14 m c (Proc.devRef .tc main_arg2) = m ((c : Thread nD τ).loc main_arg2) :=
  W14_launch m c main_arg2 (by decide) (by decide) (by decide) (by decide) (by decide) (by decide) (by decide) (by decide) (by decide) (by decide) (by decide) (by decide) (by decide) (by decide)
theorem W14_main_arg3 (c : Dev nD) : W14 m c (Proc.devRef .tc main_arg3) = m ((c : Thread nD τ).loc main_arg3) :=
  W14_launch m c main_arg3 (by decide) (by decide) (by decide) (by decide) (by decide) (by decide) (by decide) (by decide) (by decide) (by decide) (by decide) (by decide) (by decide) (by decide)
theorem W14_main_arg4 (c : Dev nD) : W14 m c (Proc.devRef .tc main_arg4) = m ((c : Thread nD τ).loc main_arg4) :=
  W14_launch m c main_arg4 (by decide) (by decide) (by decide) (by decide) (by decide) (by decide) (by decide) (by decide) (by decide) (by decide) (by decide) (by decide) (by decide) (by decide)
theorem W14_main_arg5 (c : Dev nD) : W14 m c (Proc.devRef .tc main_arg5) = m ((c : Thread nD τ).loc main_arg5) :=
  W14_launch m c main_arg5 (by decide) (by decide) (by decide) (by decide) (by decide) (by decide) (by decide) (by decide) (by decide) (by decide) (by decide) (by decide) (by decide) (by decide)
theorem W14_main_arg6 (c : Dev nD) : W14 m c (Proc.devRef .tc main_arg6) = m ((c : Thread nD τ).loc main_arg6) :=
  W14_launch m c main_arg6 (by decide) (by decide) (by decide) (by decide) (by decide) (by decide) (by decide) (by decide) (by decide) (by decide) (by decide) (by decide) (by decide) (by decide)
theorem W14_main_arg7 (c : Dev nD) : W14 m c (Proc.devRef .tc main_arg7) = m ((c : Thread nD τ).loc main_arg7) :=
  W14_launch m c main_arg7 (by decide) (by decide) (by decide) (by decide) (by decide) (by decide) (by decide) (by decide) (by decide) (by decide) (by decide) (by decide) (by decide) (by decide)
theorem W14_main_arg8 (c : Dev nD) : W14 m c (Proc.devRef .tc main_arg8) = m ((c : Thread nD τ).loc main_arg8) :=
  W14_launch m c main_arg8 (by decide) (by decide) (by decide) (by decide) (by decide) (by decide) (by decide) (by decide) (by decide) (by decide) (by decide) (by decide) (by decide) (by decide)
theorem W14_main_arg9 (c : Dev nD) : W14 m c (Proc.devRef .tc main_arg9) = m ((c : Thread nD τ).loc main_arg9) :=
  W14_launch m c main_arg9 (by decide) (by decide) (by decide) (by decide) (by decide) (by decide) (by decide) (by decide) (by decide) (by decide) (by decide) (by decide) (by decide) (by decide)

/-! ## The proof data family and the thread state -/

/-- Every pipeline's proof data, each at its region's entry contents — a literal match on the pipeline's number. -/
def pdatsH : (p : Fin 7) → (c : Dev nD) → Dat τ (Elt F) Unit ℕ (UR sig nD τ) ℕ (Pipeline.pin (pcfgs (F := F)) adm p) c
  | ⟨0, _⟩ => fun c => dat0 (X3 m) c
  | ⟨1, _⟩ => fun c => dat1 (X5 m) c
  | ⟨2, _⟩ => fun c => dat2 (X6 m) c
  | ⟨3, _⟩ => fun c => dat3 (X8 m) c
  | ⟨4, _⟩ => fun c => dat4 (X9 m) c
  | ⟨5, _⟩ => fun c => dat5 (X11 m) c
  | ⟨6, _⟩ => fun c => dat6 (X13 m) c
abbrev noVar : Variants := Variants.none
/-- No core owes another anything: no level is assigned. -/
abbrev noLev : GSem nD τ sig → Finset Unit := fun _ => ∅
abbrev lev0 : GSem nD τ sig → Unit → ℕ := fun _ _ => 0
/-- What rides beside the buffers through every item: the core's generator register at some state and its dues, at
    nothing. -/
abbrev rest (c : Dev nD) : sProp 𝕄 := iprop((∃ r, prngReg c r) ∗ ∃ W, owes (c : Thread nD τ) (0 : CellTallies nD τ sig Unit) W)
/-- A host stretch as a segment over the unscoped references from the contents `W`, `rest` riding along; it ends
    with those references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev lastState (c : Dev nD) : sProp 𝕄 := iprop(StableHlo.held (c : Thread nD τ) (Pipeline.ucRefs τ sig) (W14 m c) ∗ ∃ r, prngReg c r)

/-! ## The regions as segments

Each region is entered from every unscoped buffer at its entry boundary's contents and left at the next boundary's.
Its arrays are split out of the unscoped buffers and put back at what the pipeline leaves; the generator register goes
into the pipeline's invariant and comes back; nothing is owed; the kernel has no semaphore of its own. -/

-- a library lemma stated over the pinned configuration unifies with the printed one only when unification may
-- unfold plain definitions in a metavariable's type
set_option backward.isDefEq.respectTransparency.types false in
/-- Region 0 (x · W0): entered at `W3`, left at `W4`. -/
def reg0 : Pipeline.RegionSeg (pcfgs (F := F)) adm (pdatsH m) () defs₀ noVar noLev lev0 0 where
  win := launch0.win.to₀
  block_pos := launch0.block_pos
  stage_whole := launch0.stage_whole
  K := PEmpty
  osem k := k.elim
  ho := Pipeline.OwnSemFacts.none _
  hbody c := (body_obligation0 (X3 m) c).loose
  hwaits := Pipeline.hwaits_of_owed_zero _ _ _ _ noLev lev0 0 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec0 c (X3 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (X3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (X3 m c) (X4 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (max(agg0 + b0, 0)): entered at `W5`, left at `W6`. -/
def reg1 : Pipeline.RegionSeg (pcfgs (F := F)) adm (pdatsH m) () defs₀ noVar noLev lev0 1 where
  win := launch1.win.to₀
  block_pos := launch1.block_pos
  stage_whole := launch1.stage_whole
  K := PEmpty
  osem k := k.elim
  ho := Pipeline.OwnSemFacts.none _
  hbody c := (body_obligation1 (X5 m) c).loose
  hwaits := Pipeline.hwaits_of_owed_zero _ _ _ _ noLev lev0 1 fun _ _ => rfl
  pre c := iprop(StableHlo.held (c : Thread nD τ) (Pipeline.ucRefs τ sig) (W5 m c) ∗ rest c)
  post c := iprop(StableHlo.held (c : Thread nD τ) (Pipeline.ucRefs τ sig) (W6 m c) ∗ rest c)
  X c := iprop(∃ r, prngReg c r)
  Y c := iprop(∃ r, prngReg c r)
  Z c := Pipeline.unscopedRest (Ix := Unit) (Name := ℕ) (U := UR sig nD τ) (Lvl := ℕ) spec1 c (X5 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (X5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (X5 m c) (X6 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (x1 · W1): entered at `W6`, left at `W7`. -/
def reg2 : Pipeline.RegionSeg (pcfgs (F := F)) adm (pdatsH m) () defs₀ noVar noLev lev0 2 where
  win := launch2.win.to₀
  block_pos := launch2.block_pos
  stage_whole := launch2.stage_whole
  K := PEmpty
  osem k := k.elim
  ho := Pipeline.OwnSemFacts.none _
  hbody c := (body_obligation2 (X6 m) c).loose
  hwaits := Pipeline.hwaits_of_owed_zero _ _ _ _ noLev lev0 2 fun _ _ => rfl
  pre c := iprop(StableHlo.held (c : Thread nD τ) (Pipeline.ucRefs τ sig) (W6 m c) ∗ rest c)
  post c := iprop(StableHlo.held (c : Thread nD τ) (Pipeline.ucRefs τ sig) (W7 m c) ∗ rest c)
  X c := iprop(∃ r, prngReg c r)
  Y c := iprop(∃ r, prngReg c r)
  Z c := Pipeline.unscopedRest (Ix := Unit) (Name := ℕ) (U := UR sig nD τ) (Lvl := ℕ) spec2 c (X6 m c)
  hentry c := by
    rw [Pipeline.ownSems0_none]
    have hsplit := Pipeline.arrays_of_unscopedBufs (p := 2) (pcfgs (F := F)) adm (pdatsH m) launch2.win launch2.arr_whole c
      ((pdatsH m 2 c).share_full fun _ => rfl) (X6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsH m) ((pdatsH m 2 c).share_full fun _ => rfl)
      (X6 m c) (X7 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (max(agg1 + b1, 0)): entered at `W8`, left at `W9`. -/
def reg3 : Pipeline.RegionSeg (pcfgs (F := F)) adm (pdatsH m) () defs₀ noVar noLev lev0 3 where
  win := launch3.win.to₀
  block_pos := launch3.block_pos
  stage_whole := launch3.stage_whole
  K := PEmpty
  osem k := k.elim
  ho := Pipeline.OwnSemFacts.none _
  hbody c := (body_obligation3 (X8 m) c).loose
  hwaits := Pipeline.hwaits_of_owed_zero _ _ _ _ noLev lev0 3 fun _ _ => rfl
  pre c := iprop(StableHlo.held (c : Thread nD τ) (Pipeline.ucRefs τ sig) (W8 m c) ∗ rest c)
  post c := iprop(StableHlo.held (c : Thread nD τ) (Pipeline.ucRefs τ sig) (W9 m c) ∗ rest c)
  X c := iprop(∃ r, prngReg c r)
  Y c := iprop(∃ r, prngReg c r)
  Z c := Pipeline.unscopedRest (Ix := Unit) (Name := ℕ) (U := UR sig nD τ) (Lvl := ℕ) spec3 c (X8 m c)
  hentry c := by
    rw [Pipeline.ownSems0_none]
    have hsplit := Pipeline.arrays_of_unscopedBufs (p := 3) (pcfgs (F := F)) adm (pdatsH m) launch3.win launch3.arr_whole c
      ((pdatsH m 3 c).share_full fun _ => rfl) (X8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsH m) ((pdatsH m 3 c).share_full fun _ => rfl)
      (X8 m c) (X9 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (x2 · W2): entered at `W9`, left at `W10`. -/
def reg4 : Pipeline.RegionSeg (pcfgs (F := F)) adm (pdatsH m) () defs₀ noVar noLev lev0 4 where
  win := launch4.win.to₀
  block_pos := launch4.block_pos
  stage_whole := launch4.stage_whole
  K := PEmpty
  osem k := k.elim
  ho := Pipeline.OwnSemFacts.none _
  hbody c := (body_obligation4 (X9 m) c).loose
  hwaits := Pipeline.hwaits_of_owed_zero _ _ _ _ noLev lev0 4 fun _ _ => rfl
  pre c := iprop(StableHlo.held (c : Thread nD τ) (Pipeline.ucRefs τ sig) (W9 m c) ∗ rest c)
  post c := iprop(StableHlo.held (c : Thread nD τ) (Pipeline.ucRefs τ sig) (W10 m c) ∗ rest c)
  X c := iprop(∃ r, prngReg c r)
  Y c := iprop(∃ r, prngReg c r)
  Z c := Pipeline.unscopedRest (Ix := Unit) (Name := ℕ) (U := UR sig nD τ) (Lvl := ℕ) spec4 c (X9 m c)
  hentry c := by
    rw [Pipeline.ownSems0_none]
    have hsplit := Pipeline.arrays_of_unscopedBufs (p := 4) (pcfgs (F := F)) adm (pdatsH m) launch4.win launch4.arr_whole c
      ((pdatsH m 4 c).share_full fun _ => rfl) (X9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdatsH m) ((pdatsH m 4 c).share_full fun _ => rfl)
      (X9 m c) (X10 m c) ((pdatsH m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (max(agg2 + b2, 0)): entered at `W11`, left at `W12`. -/
def reg5 : Pipeline.RegionSeg (pcfgs (F := F)) adm (pdatsH m) () defs₀ noVar noLev lev0 5 where
  win := launch5.win.to₀
  block_pos := launch5.block_pos
  stage_whole := launch5.stage_whole
  K := PEmpty
  osem k := k.elim
  ho := Pipeline.OwnSemFacts.none _
  hbody c := (body_obligation5 (X11 m) c).loose
  hwaits := Pipeline.hwaits_of_owed_zero _ _ _ _ noLev lev0 5 fun _ _ => rfl
  pre c := iprop(StableHlo.held (c : Thread nD τ) (Pipeline.ucRefs τ sig) (W11 m c) ∗ rest c)
  post c := iprop(StableHlo.held (c : Thread nD τ) (Pipeline.ucRefs τ sig) (W12 m c) ∗ rest c)
  X c := iprop(∃ r, prngReg c r)
  Y c := iprop(∃ r, prngReg c r)
  Z c := Pipeline.unscopedRest (Ix := Unit) (Name := ℕ) (U := UR sig nD τ) (Lvl := ℕ) spec5 c (X11 m c)
  hentry c := by
    rw [Pipeline.ownSems0_none]
    have hsplit := Pipeline.arrays_of_unscopedBufs (p := 5) (pcfgs (F := F)) adm (pdatsH m) launch5.win launch5.arr_whole c
      ((pdatsH m 5 c).share_full fun _ => rfl) (X11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdatsH m) ((pdatsH m 5 c).share_full fun _ => rfl)
      (X11 m c) (X12 m c) ((pdatsH m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 ([x1 | x2 | x3] · Wout + bout): entered at `W13`, left at `W14`, the end of @main — so its exit state is
    the last thread state beside the core owing nothing. -/
def reg6 : Pipeline.RegionSeg (pcfgs (F := F)) adm (pdatsH m) () defs₀ noVar noLev lev0 6 where
  win := launch6.win.to₀
  block_pos := launch6.block_pos
  stage_whole := launch6.stage_whole
  K := PEmpty
  osem k := k.elim
  ho := Pipeline.OwnSemFacts.none _
  hbody c := (body_obligation6 (X13 m) c).loose
  hwaits := Pipeline.hwaits_of_owed_zero _ _ _ _ noLev lev0 6 fun _ _ => rfl
  pre c := iprop(StableHlo.held (c : Thread nD τ) (Pipeline.ucRefs τ sig) (W13 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (X13 m c)
  hentry c := by
    rw [Pipeline.ownSems0_none]
    have hsplit := Pipeline.arrays_of_unscopedBufs (p := 6) (pcfgs (F := F)) adm (pdatsH m) launch6.win launch6.arr_whole c
      ((pdatsH m 6 c).share_full fun _ => rfl) (X13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdatsH m) ((pdatsH m 6 c).share_full fun _ => rfl)
      (X13 m c) (X14 m c) ((pdatsH m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's fourteen items in order: a host segment per stretch from its boundary's contents, a region per kernel. -/
abbrev segsH : List (Pipeline.Seg (pcfgs (F := F)) adm (pdatsH m) () defs₀ noVar noLev lev0) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)),
    .region (reg5 m),
    .host (hseg hostOps6 hostOps6_sub hostOps6_fresh (W12 m)),
    .region (reg6 m) ]

/-- @main is the run of those segments. -/
theorem main_run (c : Dev nD) : main (F := F) c = Pipeline.Seg.run (segsH m) := (main_chain c).trans (by chain_rfl)

variable (ρ : Dev nD → PrngReg)

-- the launch theorem's implicit arguments are found by unifying its conclusion with this one, which takes unfolding plain
-- definitions in a metavariable's type
set_option backward.isDefEq.respectTransparency.types false in
/-- THE RUN. From any memory with zero counters, every weakly fair execution of @main on the TensorCores terminates,
    nothing faulting, and in every final state each unscoped buffer of each core holds the last boundary's contents
    `W14`: the library's launch theorem over the fourteen segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdatsH m) () cellOf_inj emb₁ defs₀ noVar noLev lev0 m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c)) (Tₙ := lastState m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- THE FRAME at any float instance: @main runs to the end, nothing faults, and every argument array ends as
    launched — each read off the run by `W14_main_argK`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c),
     (h c _ (mem_uc main_arg6 (by decide))).trans (W14_main_arg6 m c),
     (h c _ (mem_uc main_arg7 (by decide))).trans (W14_main_arg7 m c),
     (h c _ (mem_uc main_arg8 (by decide))).trans (W14_main_arg8 m c),
     (h c _ (mem_uc main_arg9 (by decide))).trans (W14_main_arg9 m c)⟩) (run_all m ρ)

end Cert.KernelIdeal.Hand

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.IdealValue0.lean ====
/-
  Region 0 as one array operation, at the extended reals: after its 25 grid points the result array is the
  product of the 50000×256 argument by the 256×128 weight, as the region finds them. Point t's output block is
  rows 2000·t … 2000·t + 1999 of that product: entry (r, q) of the block product is the sum over k of
  x(2000·t + r, k) · w(k, q), the narrowing of the operands being the identity on extended reals, and that is entry
  (2000·t + r, q) of the whole product. The 25 row blocks cover the array: row i lies in block i / 2000.
-/
import proofs.«164648_j74337293959433_1_alg».proof.Proof.IdealRegion0
import proofs.«164648_j74337293959433_1_alg».proof.Proof.LibDotIx2
import proofs.«164648_j74337293959433_1_alg».proof.ReferenceIdeal
import proofs.«164648_j74337293959433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hzv0 : (![0, 0] : Fin 2 → Nat) = fun _ => 0 := funext fun a => by fin_cases a <;> rfl

/-! ## The two products read at a row and a column -/

/-- The block product's dimension numbers are those of a plain 2000×256 by 256×128 product. -/
theorem plainBlk0 : PlainDot dot_S2000x256_S256x128_S2000x128_1_0_0_1_n_n where
  rank := rfl
  size := rfl
  l0 := fun _ _ => rfl
  l1 := fun _ _ => rfl
  r0 := fun _ _ => rfl
  r1 := fun _ _ => rfl

/-- The whole product's dimension numbers are those of a plain 50000×256 by 256×128 product. -/
theorem plainArr0 : PlainDot Cert.ReferenceIdeal.dot_S50000x256_S256x128_S50000x128_1_0_0_1_n_n where
  rank := rfl
  size := rfl
  l0 := fun _ _ => rfl
  l1 := fun _ _ => rfl
  r0 := fun _ _ => rfl
  r1 := fun _ _ => rfl

/-- The body's payload at (r, q): the sum over the 256 inner positions. -/
theorem pay0_apply (x0 : Vec Ideal S2000x256 .f32) (x1 : Vec Ideal S256x128 .f32) (r : Fin 2000) (q : Fin 128) :
    k0_pay1 x0 x1 (ix2 r q) = ∑ k : Fin 256, (x0 (ix2 r k) : EReal) * (x1 (ix2 k q) : EReal) := by
  unfold k0_pay1
  exact matmul_zero_ix2_any plainBlk0 none (truncf .bf16 x0 bitsLt_bf16_f32) (truncf .bf16 x1 bitsLt_bf16_f32) r q

/-- The whole-array product at (p, q): the same sum. -/
theorem dotArr0_apply (A : FVec Ideal S50000x256 .f32) (B : FVec Ideal S256x128 .f32) (p : Fin 50000) (q : Fin 128) :
    Host.dotGeneral (F := Ideal) Cert.ReferenceIdeal.dot_S50000x256_S256x128_S50000x128_1_0_0_1_n_n none A B (ix2 p q)
      = ∑ k : Fin 256, (A (ix2 p k) : EReal) * (B (ix2 k q) : EReal) :=
  dotGeneral_ix2_any plainArr0 none .single A B p q

/-! ## The windows' blocks -/

/-- The index maps over the grid: the row windows' block row is the point, their block column 0; the weight's block is (0, 0). -/
theorem idxv0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An index of the result array is in point t's block iff each coordinate is in the block's range on its axis. -/
theorem mem_blkv0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every index of the result array is in some point's block: row i is in block i / 2000. -/
theorem coverv0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  refine ⟨⟨(i 0).val / 2000, ht⟩, flush0_2 _, ?_⟩
  rw [mem_blkv0]
  obtain ⟨-, -, -, -, e4, e5⟩ := idxv0 ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- Entry (r, q) of point t's output block sits at (2000·t + r, q) of the result array. -/
theorem embv0 (t : Fin cfg0.N) (r : Fin 2000) (q : Fin 128) (p : Fin 50000) (hp : p.val = 2000 * t.val + r.val) :
    ((cfg0.win 2).blk t).view.emb (ix2 r q : S2000x128.Idx) = (ix2 p q : S50000x128.Idx) := by
  obtain ⟨-, -, -, -, e4, e5⟩ := idxv0 t
  funext a; apply Fin.ext
  match a with
  | ⟨0, _⟩ => show win0_2.index t (0 : Fin 2) * 2000 + 1 * r.val = p.val; rw [e4, hp]; omega
  | ⟨1, _⟩ => show win0_2.index t (1 : Fin 2) * 128 + 1 * q.val = q.val; rw [e5]; omega

/-- Entry (r, k) of point t's block of x is entry (2000·t + r, k) of x. -/
theorem iblk0_0_apply (c : Dev nD) (t : Fin cfg0.N) (r : Fin 2000) (k : Fin 256) (p : Fin 50000) (hp : p.val = 2000 * t.val + r.val) :
    (iblk0 V c 0 t : Vec Ideal S2000x256 .f32) (ix2 r k) = (V c main_arg0 : FVec Ideal S50000x256 .f32) (ix2 p k) := by
  obtain ⟨e0, e1, -⟩ := idxv0 t
  unfold iblk0
  rw [View.read_apply]
  show V c main_arg0 _ = V c main_arg0 _
  congr 1
  funext a
  apply Fin.ext
  match a with
  | ⟨0, _⟩ => show win0_0.index t (0 : Fin 2) * 2000 + 1 * r.val = p.val; rw [e0, hp]; omega
  | ⟨1, _⟩ => show win0_0.index t (1 : Fin 2) * 256 + 1 * k.val = k.val; rw [e1]; omega

/-- The weight's block at every point is the weight. -/
theorem iblk0_1_apply (c : Dev nD) (t : Fin cfg0.N) (k : Fin 256) (q : Fin 128) :
    (iblk0 V c 1 t : Vec Ideal S256x128 .f32) (ix2 k q) = (V c main_arg2 : FVec Ideal S256x128 .f32) (ix2 k q) := by
  obtain ⟨-, -, e2, e3, -⟩ := idxv0 t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-! ## The result array -/

/-- The whole-array product of the two arguments as the region finds them. -/
abbrev Gv0 (c : Dev nD) : FVec Ideal S50000x128 .f32 :=
  Host.dotGeneral (F := Ideal) (φ₁ := .f32) (φ₂ := .f32) Cert.ReferenceIdeal.dot_S50000x256_S256x128_S50000x128_1_0_0_1_n_n none (V c main_arg0) (V c main_arg2)

/-- What the body leaves in the output block at point t is block t of the whole product. -/
theorem blkv0_eq (c : Dev nD) (t : Fin cfg0.N) :
    (cfg0.win 2).cut (grid0.coords t) (out0_2 (iblk0 V c 0 t) (iblk0 V c 1 t)) = ((cfg0.win 2).blk t).view.read (Elt Ideal) (Gv0 V c) := by
  unfold out0_2
  rw [View.canon_unit_zero hzv0]
  simp only [View.ld_unit_zero (S := S2000x256) hzv0, View.ld_unit_zero (S := S256x128) hzv0]
  refine funext fun (j : S2000x128.Idx) => ?_
  obtain ⟨r, q, rfl⟩ : ∃ (r : Fin 2000) (q : Fin 128), j = ix2 r q := ⟨j 0, j 1, eq_ix2 j⟩
  have hN : cfg0.N = 25 := N_0
  have hp : 2000 * t.val + r.val < 50000 := by have := t.isLt; omega
  show k0_pay1 (iblk0 V c 0 t) (iblk0 V c 1 t) (ix2 r q) = Gv0 V c (((cfg0.win 2).blk t).view.emb (ix2 r q : S2000x128.Idx))
  rw [embv0 t r q ⟨2000 * t.val + r.val, hp⟩ rfl]
  refine (pay0_apply (iblk0 V c 0 t) (iblk0 V c 1 t) r q).trans ?_
  refine Eq.trans ?_ (dotArr0_apply (V c main_arg0) (V c main_arg2) ⟨2000 * t.val + r.val, hp⟩ q).symm
  refine Finset.sum_congr rfl fun k _ => ?_
  rw [iblk0_0_apply V c t r k ⟨2000 * t.val + r.val, hp⟩ rfl, iblk0_1_apply V c t k q]

/-- What point t writes back is block t of the whole product. -/
theorem flushedv0_eq (c : Dev nD) (t : Fin cfg0.N) :
    (dat0 (F := Ideal) V c).flushed 2 t = ((cfg0.win 2).blk t).view.read (Elt Ideal) (Gv0 V c) := by
  show (cfg0.win 2).cut (grid0.coords t) ((dat0 (F := Ideal) V c).after 2 t) = _
  rw [after0_2]
  exact blkv0_eq V c t

/-- The result array after the 25 points: the product of the two arguments as the region finds them. -/
theorem arr0 (c : Dev nD) : (dat0 (F := Ideal) V c).arrAt 2 cfg0.N
    = Host.dotGeneral (F := Ideal) (φ₁ := .f32) (φ₂ := .f32) Cert.ReferenceIdeal.dot_S50000x256_S256x128_S50000x128_1_0_0_1_n_n none (V c main_arg0) (V c main_arg2) :=
  (dat0 (F := Ideal) V c).arrAt_eq_of_cover 2 (Gv0 V c) (fun t _ => flushedv0_eq V c t) coverv0

end Cert.KernelIdeal.Hand

end
-- ==== Proof.IdealValue1.lean ====
/-
  Region 1 as one array operation, at the extended reals: after its 25 grid points the result array is
  max(a + b, 0), a the 50000×128 argument and b the 1×128 row broadcast over the rows, as the region finds them.
  Point t's output block is rows 2000·t … 2000·t + 1999 of that array: entry (r, q) of the block is
  max(a(2000·t + r, q) + b(0, q), 0), the body's two shape casts changing nothing and its row broadcast reading the
  one row. The 25 row blocks cover the array: row i lies in block i / 2000.
-/
import proofs.«164648_j74337293959433_1_alg».proof.Proof.IdealRegion1
import proofs.«164648_j74337293959433_1_alg».proof.ReferenceIdeal
import proofs.«164648_j74337293959433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hzv1 : (![0, 0] : Fin 2 → Nat) = fun _ => 0 := funext fun a => by fin_cases a <;> rfl

/-! ## The block operation and the array operation read at a row and a column -/

/-- The body's payload at (r, q): the larger of x(r, q) + b(0, q) and zero. -/
theorem pay1_apply (x0 : Vec Ideal S2000x128 .f32) (x1 : Vec Ideal S1x128 .f32) (r : Fin 2000) (q : Fin 128) :
    k1_pay1 x0 x1 (ix2 r q) = max ((x0 (ix2 r q) : EReal) + (x1 (ix2 (0 : Fin 1) q) : EReal)) (Ideal.ofBits .f32 0x00000000#32) := by
  unfold k1_pay1
  simp only [shapeCast_self]
  rw [maximumf_apply, addf_apply, broadcastTo_1b_ab_apply]
  rfl

/-- A 1×128 row broadcast over 50000 rows reads, at (p, q), the row at q. -/
theorem bcastRow1_apply (B : FVec Ideal S1x128 .f32) (p : Fin 50000) (q : Fin 128) :
    broadcastInDim S50000x128 ![0, 1] Cert.ReferenceIdeal.Facts₀.bcast_S1x128_S50000x128_0_1 B (ix2 p q) = B (ix2 (0 : Fin 1) q) := by
  refine broadcastInDim_apply ![0, 1] Cert.ReferenceIdeal.Facts₀.bcast_S1x128_S50000x128_0_1 B (ix2 p q) (ix2 (0 : Fin 1) q) fun ax => ?_
  match ax with
  | ⟨0, _⟩ => rfl
  | ⟨1, _⟩ => rfl

/-- A scalar broadcast over the array reads the scalar everywhere. -/
theorem bcastZero1_apply (z : FVec Ideal S_ .f32) (j : S50000x128.Idx) :
    broadcastInDim S50000x128 ![] Cert.ReferenceIdeal.Facts₀.bcast_S_S50000x128 z j = z ix0 :=
  broadcastInDim_apply ![] Cert.ReferenceIdeal.Facts₀.bcast_S_S50000x128 z j ix0 fun a => a.elim0

/-- The whole-array operation at (p, q): the larger of a(p, q) + b(0, q) and zero. -/
theorem reluArr1_apply (A : FVec Ideal S50000x128 .f32) (B : FVec Ideal S1x128 .f32) (p : Fin 50000) (q : Fin 128) :
    maximumf (addf A (broadcastInDim S50000x128 ![0, 1] Cert.ReferenceIdeal.Facts₀.bcast_S1x128_S50000x128_0_1 B))
      (broadcastInDim S50000x128 ![] Cert.ReferenceIdeal.Facts₀.bcast_S_S50000x128 (constant (F := Ideal) S_ .f32 0x00000000#32)) (ix2 p q)
    = max ((A (ix2 p q) : EReal) + (B (ix2 (0 : Fin 1) q) : EReal)) (Ideal.ofBits .f32 0x00000000#32) := by
  rw [maximumf_apply, addf_apply, bcastRow1_apply, bcastZero1_apply]
  rfl

/-! ## The windows' blocks -/

/-- The index maps over the grid: the row windows' block row is the point, their block column 0; the bias row's block is (0, 0). -/
theorem idxv1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An index of the result array is in point t's block iff each coordinate is in the block's range on its axis. -/
theorem mem_blkv1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Every index of the result array is in some point's block: row i is in block i / 2000. -/
theorem coverv1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_2 _, ?_⟩
  rw [mem_blkv1]
  obtain ⟨-, -, -, -, e4, e5⟩ := idxv1 ⟨(i 0).val / 2000, ht⟩
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 128 ≤ (i 1).val ∧ (i 1).val < win1_2.index ⟨(i 0).val / 2000, ht⟩ (1 : Fin 2) * 128 + 128
    rw [e5]; omega

/-- Entry (r, q) of point t's output block sits at (2000·t + r, q) of the result array. -/
theorem embv1 (t : Fin cfg1.N) (r : Fin 2000) (q : Fin 128) (p : Fin 50000) (hp : p.val = 2000 * t.val + r.val) :
    ((cfg1.win 2).blk t).view.emb (ix2 r q : S2000x128.Idx) = (ix2 p q : S50000x128.Idx) := by
  obtain ⟨-, -, -, -, e4, e5⟩ := idxv1 t
  funext a; apply Fin.ext
  match a with
  | ⟨0, _⟩ => show win1_2.index t (0 : Fin 2) * 2000 + 1 * r.val = p.val; rw [e4, hp]; omega
  | ⟨1, _⟩ => show win1_2.index t (1 : Fin 2) * 128 + 1 * q.val = q.val; rw [e5]; omega

/-- Entry (r, q) of point t's block of a is entry (2000·t + r, q) of a. -/
theorem iblk1_0_apply (c : Dev nD) (t : Fin cfg1.N) (r : Fin 2000) (q : Fin 128) (p : Fin 50000) (hp : p.val = 2000 * t.val + r.val) :
    (iblk1 V c 0 t : Vec Ideal S2000x128 .f32) (ix2 r q) = (V c main_v45 : FVec Ideal S50000x128 .f32) (ix2 p q) := by
  obtain ⟨e0, e1, -⟩ := idxv1 t
  unfold iblk1
  rw [View.read_apply]
  show V c main_v45 _ = V c main_v45 _
  congr 1
  funext a
  apply Fin.ext
  match a with
  | ⟨0, _⟩ => show win1_0.index t (0 : Fin 2) * 2000 + 1 * r.val = p.val; rw [e0, hp]; omega
  | ⟨1, _⟩ => show win1_0.index t (1 : Fin 2) * 128 + 1 * q.val = q.val; rw [e1]; omega

/-- The bias row's block at every point is the bias row. -/
theorem iblk1_1_apply (c : Dev nD) (t : Fin cfg1.N) (u : Fin 1) (q : Fin 128) :
    (iblk1 V c 1 t : Vec Ideal S1x128 .f32) (ix2 u q) = (V c main_v46 : FVec Ideal S1x128 .f32) (ix2 u q) := by
  obtain ⟨-, -, e2, e3, -⟩ := idxv1 t
  unfold iblk1
  rw [View.read_apply]
  show V c main_v46 _ = V c main_v46 _
  congr 1
  funext a
  apply Fin.ext
  match a with
  | ⟨0, _⟩ => show win1_1.index t (0 : Fin 2) * 1 + 1 * u.val = u.val; rw [e2]; omega
  | ⟨1, _⟩ => show win1_1.index t (1 : Fin 2) * 128 + 1 * q.val = q.val; rw [e3]; omega

/-! ## The result array -/

/-- The whole-array operation of the two arguments as the region finds them. -/
abbrev Gv1 (c : Dev nD) : FVec Ideal S50000x128 .f32 :=
  maximumf (addf (V c main_v45) (broadcastInDim S50000x128 ![0, 1] Cert.ReferenceIdeal.Facts₀.bcast_S1x128_S50000x128_0_1 (V c main_v46)))
    (broadcastInDim S50000x128 ![] Cert.ReferenceIdeal.Facts₀.bcast_S_S50000x128 (constant (F := Ideal) S_ .f32 0x00000000#32))

/-- What the body leaves in the output block at point t is block t of the whole-array operation. -/
theorem blkv1_eq (c : Dev nD) (t : Fin cfg1.N) :
    (cfg1.win 2).cut (grid1.coords t) (out1_2 (iblk1 V c 0 t) (iblk1 V c 1 t)) = ((cfg1.win 2).blk t).view.read (Elt Ideal) (Gv1 V c) := by
  unfold out1_2
  rw [View.canon_unit_zero hzv1]
  simp only [View.ld_unit_zero (S := S2000x128) hzv1, View.ld_unit_zero (S := S1x128) hzv1]
  refine funext fun (j : S2000x128.Idx) => ?_
  obtain ⟨r, q, rfl⟩ : ∃ (r : Fin 2000) (q : Fin 128), j = ix2 r q := ⟨j 0, j 1, eq_ix2 j⟩
  have hN : cfg1.N = 25 := N_1
  have hp : 2000 * t.val + r.val < 50000 := by have := t.isLt; omega
  show k1_pay1 (iblk1 V c 0 t) (iblk1 V c 1 t) (ix2 r q) = Gv1 V c (((cfg1.win 2).blk t).view.emb (ix2 r q : S2000x128.Idx))
  rw [embv1 t r q ⟨2000 * t.val + r.val, hp⟩ rfl]
  refine (pay1_apply (iblk1 V c 0 t) (iblk1 V c 1 t) r q).trans ?_
  refine Eq.trans ?_ (reluArr1_apply (V c main_v45) (V c main_v46) ⟨2000 * t.val + r.val, hp⟩ q).symm
  rw [iblk1_0_apply V c t r q ⟨2000 * t.val + r.val, hp⟩ rfl, iblk1_1_apply V c t 0 q]

/-- What point t writes back is block t of the whole-array operation. -/
theorem flushedv1_eq (c : Dev nD) (t : Fin cfg1.N) :
    (dat1 (F := Ideal) V c).flushed 2 t = ((cfg1.win 2).blk t).view.read (Elt Ideal) (Gv1 V c) := by
  show (cfg1.win 2).cut (grid1.coords t) ((dat1 (F := Ideal) V c).after 2 t) = _
  rw [after1_2]
  exact blkv1_eq V c t

/-- The result array after the 25 points: max(a + b, 0) of the two arguments as the region finds them. -/
theorem arr1 (c : Dev nD) : (dat1 (F := Ideal) V c).arrAt 2 cfg1.N
    = maximumf (addf (V c main_v45) (broadcastInDim S50000x128 ![0, 1] Cert.ReferenceIdeal.Facts₀.bcast_S1x128_S50000x128_0_1 (V c main_v46)))
        (broadcastInDim S50000x128 ![] Cert.ReferenceIdeal.Facts₀.bcast_S_S50000x128 (constant (F := Ideal) S_ .f32 0x00000000#32)) :=
  (dat1 (F := Ideal) V c).arrAt_eq_of_cover 2 (Gv1 V c) (fun t _ => flushedv1_eq V c t) coverv1

end Cert.KernelIdeal.Hand

end
-- ==== Proof.IdealValue2.lean ====
/-
  Region 2 as one array operation, at the extended reals: after its 25 grid points the result array is the
  product of the 50000×128 argument by the 128×128 weight, as the region finds them. Point t's output block is
  rows 2000·t … 2000·t + 1999 of that product: entry (r, q) of the block product is the sum over k of
  x(2000·t + r, k) · w(k, q), the body's shape cast changing nothing and the narrowing of the operands being the
  identity on extended reals, and that is entry (2000·t + r, q) of the whole product. The 25 row blocks cover the
  array: row i lies in block i / 2000.
-/
import proofs.«164648_j74337293959433_1_alg».proof.Proof.IdealRegion2
import proofs.«164648_j74337293959433_1_alg».proof.Proof.LibDotIx2
import proofs.«164648_j74337293959433_1_alg».proof.ReferenceIdeal
import proofs.«164648_j74337293959433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hzv2 : (![0, 0] : Fin 2 → Nat) = fun _ => 0 := funext fun a => by fin_cases a <;> rfl

/-! ## The two products read at a row and a column -/

/-- The block product's dimension numbers are those of a plain 2000×128 by 128×128 product. -/
theorem plainBlk2 : PlainDot dot_S2000x128_S128x128_S2000x128_1_0_0_1_n_n where
  rank := rfl
  size := rfl
  l0 := fun _ _ => rfl
  l1 := fun _ _ => rfl
  r0 := fun _ _ => rfl
  r1 := fun _ _ => rfl

/-- The whole product's dimension numbers are those of a plain 50000×128 by 128×128 product. -/
theorem plainArr2 : PlainDot Cert.ReferenceIdeal.dot_S50000x128_S128x128_S50000x128_1_0_0_1_n_n where
  rank := rfl
  size := rfl
  l0 := fun _ _ => rfl
  l1 := fun _ _ => rfl
  r0 := fun _ _ => rfl
  r1 := fun _ _ => rfl

/-- The body's payload at (r, q): the sum over the 128 inner positions. -/
theorem pay2_apply (x0 : Vec Ideal S2000x128 .f32) (x1 : Vec Ideal S128x128 .f32) (r : Fin 2000) (q : Fin 128) :
    k2_pay1 x0 x1 (ix2 r q) = ∑ k : Fin 128, (x0 (ix2 r k) : EReal) * (x1 (ix2 k q) : EReal) := by
  unfold k2_pay1
  simp only [shapeCast_self]
  exact matmul_zero_ix2_any plainBlk2 none (truncf .bf16 x0 bitsLt_bf16_f32) (truncf .bf16 x1 bitsLt_bf16_f32) r q

/-- The whole-array product at (p, q): the same sum. -/
theorem dotArr2_apply (A : FVec Ideal S50000x128 .f32) (B : FVec Ideal S128x128 .f32) (p : Fin 50000) (q : Fin 128) :
    Host.dotGeneral (F := Ideal) Cert.ReferenceIdeal.dot_S50000x128_S128x128_S50000x128_1_0_0_1_n_n none A B (ix2 p q)
      = ∑ k : Fin 128, (A (ix2 p k) : EReal) * (B (ix2 k q) : EReal) :=
  dotGeneral_ix2_any plainArr2 none .single A B p q

/-! ## The windows' blocks -/

/-- The index maps over the grid: the row windows' block row is the point, their block column 0; the weight's block is (0, 0). -/
theorem idxv2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An index of the result array is in point t's block iff each coordinate is in the block's range on its axis. -/
theorem mem_blkv2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Every index of the result array is in some point's block: row i is in block i / 2000. -/
theorem coverv2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have ht : (i 0).val / 2000 < cfg2.N := by rw [hN]; omega
  refine ⟨⟨(i 0).val / 2000, ht⟩, flush2_2 _, ?_⟩
  rw [mem_blkv2]
  obtain ⟨-, -, -, -, e4, e5⟩ := idxv2 ⟨(i 0).val / 2000, ht⟩
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e5]; omega

/-- Entry (r, q) of point t's output block sits at (2000·t + r, q) of the result array. -/
theorem embv2 (t : Fin cfg2.N) (r : Fin 2000) (q : Fin 128) (p : Fin 50000) (hp : p.val = 2000 * t.val + r.val) :
    ((cfg2.win 2).blk t).view.emb (ix2 r q : S2000x128.Idx) = (ix2 p q : S50000x128.Idx) := by
  obtain ⟨-, -, -, -, e4, e5⟩ := idxv2 t
  funext a; apply Fin.ext
  match a with
  | ⟨0, _⟩ => show win2_2.index t (0 : Fin 2) * 2000 + 1 * r.val = p.val; rw [e4, hp]; omega
  | ⟨1, _⟩ => show win2_2.index t (1 : Fin 2) * 128 + 1 * q.val = q.val; rw [e5]; omega

/-- Entry (r, k) of point t's block of x is entry (2000·t + r, k) of x. -/
theorem iblk2_0_apply (c : Dev nD) (t : Fin cfg2.N) (r : Fin 2000) (k : Fin 128) (p : Fin 50000) (hp : p.val = 2000 * t.val + r.val) :
    (iblk2 V c 0 t : Vec Ideal S2000x128 .f32) (ix2 r k) = (V c main_v47 : FVec Ideal S50000x128 .f32) (ix2 p k) := by
  obtain ⟨e0, e1, -⟩ := idxv2 t
  unfold iblk2
  rw [View.read_apply]
  show V c main_v47 _ = V c main_v47 _
  congr 1
  funext a
  apply Fin.ext
  match a with
  | ⟨0, _⟩ => show win2_0.index t (0 : Fin 2) * 2000 + 1 * r.val = p.val; rw [e0, hp]; omega
  | ⟨1, _⟩ => show win2_0.index t (1 : Fin 2) * 128 + 1 * k.val = k.val; rw [e1]; omega

/-- The weight's block at every point is the weight. -/
theorem iblk2_1_apply (c : Dev nD) (t : Fin cfg2.N) (k : Fin 128) (q : Fin 128) :
    (iblk2 V c 1 t : Vec Ideal S128x128 .f32) (ix2 k q) = (V c main_arg4 : FVec Ideal S128x128 .f32) (ix2 k q) := by
  obtain ⟨-, -, e2, e3, -⟩ := idxv2 t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-! ## The result array -/

/-- The whole-array product of the two arguments as the region finds them. -/
abbrev Gv2 (c : Dev nD) : FVec Ideal S50000x128 .f32 :=
  Host.dotGeneral (F := Ideal) (φ₁ := .f32) (φ₂ := .f32) Cert.ReferenceIdeal.dot_S50000x128_S128x128_S50000x128_1_0_0_1_n_n none (V c main_v47) (V c main_arg4)

/-- What the body leaves in the output block at point t is block t of the whole product. -/
theorem blkv2_eq (c : Dev nD) (t : Fin cfg2.N) :
    (cfg2.win 2).cut (grid2.coords t) (out2_2 (iblk2 V c 0 t) (iblk2 V c 1 t)) = ((cfg2.win 2).blk t).view.read (Elt Ideal) (Gv2 V c) := by
  unfold out2_2
  rw [View.canon_unit_zero hzv2]
  simp only [View.ld_unit_zero (S := S2000x128) hzv2, View.ld_unit_zero (S := S128x128) hzv2]
  refine funext fun (j : S2000x128.Idx) => ?_
  obtain ⟨r, q, rfl⟩ : ∃ (r : Fin 2000) (q : Fin 128), j = ix2 r q := ⟨j 0, j 1, eq_ix2 j⟩
  have hN : cfg2.N = 25 := N_2
  have hp : 2000 * t.val + r.val < 50000 := by have := t.isLt; omega
  show k2_pay1 (iblk2 V c 0 t) (iblk2 V c 1 t) (ix2 r q) = Gv2 V c (((cfg2.win 2).blk t).view.emb (ix2 r q : S2000x128.Idx))
  rw [embv2 t r q ⟨2000 * t.val + r.val, hp⟩ rfl]
  refine (pay2_apply (iblk2 V c 0 t) (iblk2 V c 1 t) r q).trans ?_
  refine Eq.trans ?_ (dotArr2_apply (V c main_v47) (V c main_arg4) ⟨2000 * t.val + r.val, hp⟩ q).symm
  refine Finset.sum_congr rfl fun k _ => ?_
  rw [iblk2_0_apply V c t r k ⟨2000 * t.val + r.val, hp⟩ rfl, iblk2_1_apply V c t k q]

/-- What point t writes back is block t of the whole product. -/
theorem flushedv2_eq (c : Dev nD) (t : Fin cfg2.N) :
    (dat2 (F := Ideal) V c).flushed 2 t = ((cfg2.win 2).blk t).view.read (Elt Ideal) (Gv2 V c) := by
  show (cfg2.win 2).cut (grid2.coords t) ((dat2 (F := Ideal) V c).after 2 t) = _
  rw [after2_2]
  exact blkv2_eq V c t

/-- The result array after the 25 points: the product of the two arguments as the region finds them. -/
theorem arr2 (c : Dev nD) : (dat2 (F := Ideal) V c).arrAt 2 cfg2.N
    = Host.dotGeneral (F := Ideal) (φ₁ := .f32) (φ₂ := .f32) Cert.ReferenceIdeal.dot_S50000x128_S128x128_S50000x128_1_0_0_1_n_n none (V c main_v47) (V c main_arg4) :=
  (dat2 (F := Ideal) V c).arrAt_eq_of_cover 2 (Gv2 V c) (fun t _ => flushedv2_eq V c t) coverv2

end Cert.KernelIdeal.Hand

end
-- ==== Proof.IdealValue3.lean ====
/-
  Region 3 as one array operation, at the extended reals: after its 25 grid points the result array is
  max(a + b, 0), a the 50000×128 argument and b the 1×128 row broadcast over the rows, as the region finds them.
  Point t's output block is rows 2000·t … 2000·t + 1999 of that array: entry (r, q) of the block is
  max(a(2000·t + r, q) + b(0, q), 0), the body's two shape casts changing nothing and its row broadcast reading the
  one row. The 25 row blocks cover the array: row i lies in block i / 2000.
-/
import proofs.«164648_j74337293959433_1_alg».proof.Proof.IdealRegion3
import proofs.«164648_j74337293959433_1_alg».proof.ReferenceIdeal
import proofs.«164648_j74337293959433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hzv3 : (![0, 0] : Fin 2 → Nat) = fun _ => 0 := funext fun a => by fin_cases a <;> rfl

/-! ## The block operation and the array operation read at a row and a column -/

/-- The body's payload at (r, q): the larger of x(r, q) + b(0, q) and zero. -/
theorem pay3_apply (x0 : Vec Ideal S2000x128 .f32) (x1 : Vec Ideal S1x128 .f32) (r : Fin 2000) (q : Fin 128) :
    k3_pay1 x0 x1 (ix2 r q) = max ((x0 (ix2 r q) : EReal) + (x1 (ix2 (0 : Fin 1) q) : EReal)) (Ideal.ofBits .f32 0x00000000#32) := by
  unfold k3_pay1
  simp only [shapeCast_self]
  rw [maximumf_apply, addf_apply, broadcastTo_1b_ab_apply]
  rfl

/-- A 1×128 row broadcast over 50000 rows reads, at (p, q), the row at q. -/
theorem bcastRow3_apply (B : FVec Ideal S1x128 .f32) (p : Fin 50000) (q : Fin 128) :
    broadcastInDim S50000x128 ![0, 1] Cert.ReferenceIdeal.Facts₀.bcast_S1x128_S50000x128_0_1 B (ix2 p q) = B (ix2 (0 : Fin 1) q) := by
  refine broadcastInDim_apply ![0, 1] Cert.ReferenceIdeal.Facts₀.bcast_S1x128_S50000x128_0_1 B (ix2 p q) (ix2 (0 : Fin 1) q) fun ax => ?_
  match ax with
  | ⟨0, _⟩ => rfl
  | ⟨1, _⟩ => rfl

/-- A scalar broadcast over the array reads the scalar everywhere. -/
theorem bcastZero3_apply (z : FVec Ideal S_ .f32) (j : S50000x128.Idx) :
    broadcastInDim S50000x128 ![] Cert.ReferenceIdeal.Facts₀.bcast_S_S50000x128 z j = z ix0 :=
  broadcastInDim_apply ![] Cert.ReferenceIdeal.Facts₀.bcast_S_S50000x128 z j ix0 fun a => a.elim0

/-- The whole-array operation at (p, q): the larger of a(p, q) + b(0, q) and zero. -/
theorem reluArr3_apply (A : FVec Ideal S50000x128 .f32) (B : FVec Ideal S1x128 .f32) (p : Fin 50000) (q : Fin 128) :
    maximumf (addf A (broadcastInDim S50000x128 ![0, 1] Cert.ReferenceIdeal.Facts₀.bcast_S1x128_S50000x128_0_1 B))
      (broadcastInDim S50000x128 ![] Cert.ReferenceIdeal.Facts₀.bcast_S_S50000x128 (constant (F := Ideal) S_ .f32 0x00000000#32)) (ix2 p q)
    = max ((A (ix2 p q) : EReal) + (B (ix2 (0 : Fin 1) q) : EReal)) (Ideal.ofBits .f32 0x00000000#32) := by
  rw [maximumf_apply, addf_apply, bcastRow3_apply, bcastZero3_apply]
  rfl

/-! ## The windows' blocks -/

/-- The index maps over the grid: the row windows' block row is the point, their block column 0; the bias row's block is (0, 0). -/
theorem idxv3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An index of the result array is in point t's block iff each coordinate is in the block's range on its axis. -/
theorem mem_blkv3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v63).slice (win3_2.rect t)).set ↔ _
  rw [View.set_slice_whole, Rect.mem_set_unit]
  exact Iff.rfl

/-- Every index of the result array is in some point's block: row i is in block i / 2000. -/
theorem coverv3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  have ht : (i 0).val / 2000 < cfg3.N := by rw [hN]; omega
  refine ⟨⟨(i 0).val / 2000, ht⟩, flush3_2 _, ?_⟩
  rw [mem_blkv3]
  obtain ⟨-, -, -, -, e4, e5⟩ := idxv3 ⟨(i 0).val / 2000, ht⟩
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 128 ≤ (i 1).val ∧ (i 1).val < win3_2.index ⟨(i 0).val / 2000, ht⟩ (1 : Fin 2) * 128 + 128
    rw [e5]; omega

/-- Entry (r, q) of point t's output block sits at (2000·t + r, q) of the result array. -/
theorem embv3 (t : Fin cfg3.N) (r : Fin 2000) (q : Fin 128) (p : Fin 50000) (hp : p.val = 2000 * t.val + r.val) :
    ((cfg3.win 2).blk t).view.emb (ix2 r q : S2000x128.Idx) = (ix2 p q : S50000x128.Idx) := by
  obtain ⟨-, -, -, -, e4, e5⟩ := idxv3 t
  funext a; apply Fin.ext
  match a with
  | ⟨0, _⟩ => show win3_2.index t (0 : Fin 2) * 2000 + 1 * r.val = p.val; rw [e4, hp]; omega
  | ⟨1, _⟩ => show win3_2.index t (1 : Fin 2) * 128 + 1 * q.val = q.val; rw [e5]; omega

/-- Entry (r, q) of point t's block of a is entry (2000·t + r, q) of a. -/
theorem iblk3_0_apply (c : Dev nD) (t : Fin cfg3.N) (r : Fin 2000) (q : Fin 128) (p : Fin 50000) (hp : p.val = 2000 * t.val + r.val) :
    (iblk3 V c 0 t : Vec Ideal S2000x128 .f32) (ix2 r q) = (V c main_v61 : FVec Ideal S50000x128 .f32) (ix2 p q) := by
  obtain ⟨e0, e1, -⟩ := idxv3 t
  unfold iblk3
  rw [View.read_apply]
  show V c main_v61 _ = V c main_v61 _
  congr 1
  funext a
  apply Fin.ext
  match a with
  | ⟨0, _⟩ => show win3_0.index t (0 : Fin 2) * 2000 + 1 * r.val = p.val; rw [e0, hp]; omega
  | ⟨1, _⟩ => show win3_0.index t (1 : Fin 2) * 128 + 1 * q.val = q.val; rw [e1]; omega

/-- The bias row's block at every point is the bias row. -/
theorem iblk3_1_apply (c : Dev nD) (t : Fin cfg3.N) (u : Fin 1) (q : Fin 128) :
    (iblk3 V c 1 t : Vec Ideal S1x128 .f32) (ix2 u q) = (V c main_v62 : FVec Ideal S1x128 .f32) (ix2 u q) := by
  obtain ⟨-, -, e2, e3, -⟩ := idxv3 t
  unfold iblk3
  rw [View.read_apply]
  show V c main_v62 _ = V c main_v62 _
  congr 1
  funext a
  apply Fin.ext
  match a with
  | ⟨0, _⟩ => show win3_1.index t (0 : Fin 2) * 1 + 1 * u.val = u.val; rw [e2]; omega
  | ⟨1, _⟩ => show win3_1.index t (1 : Fin 2) * 128 + 1 * q.val = q.val; rw [e3]; omega

/-! ## The result array -/

/-- The whole-array operation of the two arguments as the region finds them. -/
abbrev Gv3 (c : Dev nD) : FVec Ideal S50000x128 .f32 :=
  maximumf (addf (V c main_v61) (broadcastInDim S50000x128 ![0, 1] Cert.ReferenceIdeal.Facts₀.bcast_S1x128_S50000x128_0_1 (V c main_v62)))
    (broadcastInDim S50000x128 ![] Cert.ReferenceIdeal.Facts₀.bcast_S_S50000x128 (constant (F := Ideal) S_ .f32 0x00000000#32))

/-- What the body leaves in the output block at point t is block t of the whole-array operation. -/
theorem blkv3_eq (c : Dev nD) (t : Fin cfg3.N) :
    (cfg3.win 2).cut (grid3.coords t) (out3_2 (iblk3 V c 0 t) (iblk3 V c 1 t)) = ((cfg3.win 2).blk t).view.read (Elt Ideal) (Gv3 V c) := by
  unfold out3_2
  rw [View.canon_unit_zero hzv3]
  simp only [View.ld_unit_zero (S := S2000x128) hzv3, View.ld_unit_zero (S := S1x128) hzv3]
  refine funext fun (j : S2000x128.Idx) => ?_
  obtain ⟨r, q, rfl⟩ : ∃ (r : Fin 2000) (q : Fin 128), j = ix2 r q := ⟨j 0, j 1, eq_ix2 j⟩
  have hN : cfg3.N = 25 := N_3
  have hp : 2000 * t.val + r.val < 50000 := by have := t.isLt; omega
  show k3_pay1 (iblk3 V c 0 t) (iblk3 V c 1 t) (ix2 r q) = Gv3 V c (((cfg3.win 2).blk t).view.emb (ix2 r q : S2000x128.Idx))
  rw [embv3 t r q ⟨2000 * t.val + r.val, hp⟩ rfl]
  refine (pay3_apply (iblk3 V c 0 t) (iblk3 V c 1 t) r q).trans ?_
  refine Eq.trans ?_ (reluArr3_apply (V c main_v61) (V c main_v62) ⟨2000 * t.val + r.val, hp⟩ q).symm
  rw [iblk3_0_apply V c t r q ⟨2000 * t.val + r.val, hp⟩ rfl, iblk3_1_apply V c t 0 q]

/-- What point t writes back is block t of the whole-array operation. -/
theorem flushedv3_eq (c : Dev nD) (t : Fin cfg3.N) :
    (dat3 (F := Ideal) V c).flushed 2 t = ((cfg3.win 2).blk t).view.read (Elt Ideal) (Gv3 V c) := by
  show (cfg3.win 2).cut (grid3.coords t) ((dat3 (F := Ideal) V c).after 2 t) = _
  rw [after3_2]
  exact blkv3_eq V c t

/-- The result array after the 25 points: max(a + b, 0) of the two arguments as the region finds them. -/
theorem arr3 (c : Dev nD) : (dat3 (F := Ideal) V c).arrAt 2 cfg3.N
    = maximumf (addf (V c main_v61) (broadcastInDim S50000x128 ![0, 1] Cert.ReferenceIdeal.Facts₀.bcast_S1x128_S50000x128_0_1 (V c main_v62)))
        (broadcastInDim S50000x128 ![] Cert.ReferenceIdeal.Facts₀.bcast_S_S50000x128 (constant (F := Ideal) S_ .f32 0x00000000#32)) :=
  (dat3 (F := Ideal) V c).arrAt_eq_of_cover 2 (Gv3 V c) (fun t _ => flushedv3_eq V c t) coverv3

end Cert.KernelIdeal.Hand

end
-- ==== Proof.IdealValue4.lean ====
/-
  Region 4 as one array operation, at the extended reals: after its 25 grid points the result array is the
  product of the 50000×128 argument by the 128×128 weight, as the region finds them. Point t's output block is
  rows 2000·t … 2000·t + 1999 of that product: entry (r, q) of the block product is the sum over k of
  x(2000·t + r, k) · w(k, q), the body's shape cast changing nothing and the narrowing of the operands being the
  identity on extended reals, and that is entry (2000·t + r, q) of the whole product. The 25 row blocks cover the
  array: row i lies in block i / 2000.
-/
import proofs.«164648_j74337293959433_1_alg».proof.Proof.IdealRegion4
import proofs.«164648_j74337293959433_1_alg».proof.Proof.LibDotIx2
import proofs.«164648_j74337293959433_1_alg».proof.ReferenceIdeal
import proofs.«164648_j74337293959433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hzv4 : (![0, 0] : Fin 2 → Nat) = fun _ => 0 := funext fun a => by fin_cases a <;> rfl

/-! ## The two products read at a row and a column -/

/-- The block product's dimension numbers are those of a plain 2000×128 by 128×128 product. -/
theorem plainBlk4 : PlainDot dot_S2000x128_S128x128_S2000x128_1_0_0_1_n_n where
  rank := rfl
  size := rfl
  l0 := fun _ _ => rfl
  l1 := fun _ _ => rfl
  r0 := fun _ _ => rfl
  r1 := fun _ _ => rfl

/-- The whole product's dimension numbers are those of a plain 50000×128 by 128×128 product. -/
theorem plainArr4 : PlainDot Cert.ReferenceIdeal.dot_S50000x128_S128x128_S50000x128_1_0_0_1_n_n where
  rank := rfl
  size := rfl
  l0 := fun _ _ => rfl
  l1 := fun _ _ => rfl
  r0 := fun _ _ => rfl
  r1 := fun _ _ => rfl

/-- The body's payload at (r, q): the sum over the 128 inner positions. -/
theorem pay4_apply (x0 : Vec Ideal S2000x128 .f32) (x1 : Vec Ideal S128x128 .f32) (r : Fin 2000) (q : Fin 128) :
    k4_pay1 x0 x1 (ix2 r q) = ∑ k : Fin 128, (x0 (ix2 r k) : EReal) * (x1 (ix2 k q) : EReal) := by
  unfold k4_pay1
  simp only [shapeCast_self]
  exact matmul_zero_ix2_any plainBlk4 none (truncf .bf16 x0 bitsLt_bf16_f32) (truncf .bf16 x1 bitsLt_bf16_f32) r q

/-- The whole-array product at (p, q): the same sum. -/
theorem dotArr4_apply (A : FVec Ideal S50000x128 .f32) (B : FVec Ideal S128x128 .f32) (p : Fin 50000) (q : Fin 128) :
    Host.dotGeneral (F := Ideal) Cert.ReferenceIdeal.dot_S50000x128_S128x128_S50000x128_1_0_0_1_n_n none A B (ix2 p q)
      = ∑ k : Fin 128, (A (ix2 p k) : EReal) * (B (ix2 k q) : EReal) :=
  dotGeneral_ix2_any plainArr4 none .single A B p q

/-! ## The windows' blocks -/

/-- The index maps over the grid: the row windows' block row is the point, their block column 0; the weight's block is (0, 0). -/
theorem idxv4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- An index of the result array is in point t's block iff each coordinate is in the block's range on its axis. -/
theorem mem_blkv4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v64).slice (win4_2.rect t)).set ↔ _
  rw [View.set_slice_whole, Rect.mem_set_unit]
  exact Iff.rfl

/-- Every index of the result array is in some point's block: row i is in block i / 2000. -/
theorem coverv4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  have ht : (i 0).val / 2000 < cfg4.N := by rw [hN]; omega
  refine ⟨⟨(i 0).val / 2000, ht⟩, flush4_2 _, ?_⟩
  rw [mem_blkv4]
  obtain ⟨-, -, -, -, e4, e5⟩ := idxv4 ⟨(i 0).val / 2000, ht⟩
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, ht⟩ (1 : Fin 2) * 128 ≤ (i 1).val ∧ (i 1).val < win4_2.index ⟨(i 0).val / 2000, ht⟩ (1 : Fin 2) * 128 + 128
    rw [e5]; omega

/-- Entry (r, q) of point t's output block sits at (2000·t + r, q) of the result array. -/
theorem embv4 (t : Fin cfg4.N) (r : Fin 2000) (q : Fin 128) (p : Fin 50000) (hp : p.val = 2000 * t.val + r.val) :
    ((cfg4.win 2).blk t).view.emb (ix2 r q : S2000x128.Idx) = (ix2 p q : S50000x128.Idx) := by
  obtain ⟨-, -, -, -, e4, e5⟩ := idxv4 t
  funext a; apply Fin.ext
  match a with
  | ⟨0, _⟩ => show win4_2.index t (0 : Fin 2) * 2000 + 1 * r.val = p.val; rw [e4, hp]; omega
  | ⟨1, _⟩ => show win4_2.index t (1 : Fin 2) * 128 + 1 * q.val = q.val; rw [e5]; omega

/-- Entry (r, k) of point t's block of x is entry (2000·t + r, k) of x. -/
theorem iblk4_0_apply (c : Dev nD) (t : Fin cfg4.N) (r : Fin 2000) (k : Fin 128) (p : Fin 50000) (hp : p.val = 2000 * t.val + r.val) :
    (iblk4 V c 0 t : Vec Ideal S2000x128 .f32) (ix2 r k) = (V c main_v63 : FVec Ideal S50000x128 .f32) (ix2 p k) := by
  obtain ⟨e0, e1, -⟩ := idxv4 t
  unfold iblk4
  rw [View.read_apply]
  show V c main_v63 _ = V c main_v63 _
  congr 1
  funext a
  apply Fin.ext
  match a with
  | ⟨0, _⟩ => show win4_0.index t (0 : Fin 2) * 2000 + 1 * r.val = p.val; rw [e0, hp]; omega
  | ⟨1, _⟩ => show win4_0.index t (1 : Fin 2) * 128 + 1 * k.val = k.val; rw [e1]; omega

/-- The weight's block at every point is the weight. -/
theorem iblk4_1_apply (c : Dev nD) (t : Fin cfg4.N) (k : Fin 128) (q : Fin 128) :
    (iblk4 V c 1 t : Vec Ideal S128x128 .f32) (ix2 k q) = (V c main_arg6 : FVec Ideal S128x128 .f32) (ix2 k q) := by
  obtain ⟨-, -, e2, e3, -⟩ := idxv4 t
  unfold iblk4
  rw [View.read_apply]
  show V c main_arg6 _ = V c main_arg6 _
  congr 1
  funext a
  apply Fin.ext
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-! ## The result array -/

/-- The whole-array product of the two arguments as the region finds them. -/
abbrev Gv4 (c : Dev nD) : FVec Ideal S50000x128 .f32 :=
  Host.dotGeneral (F := Ideal) (φ₁ := .f32) (φ₂ := .f32) Cert.ReferenceIdeal.dot_S50000x128_S128x128_S50000x128_1_0_0_1_n_n none (V c main_v63) (V c main_arg6)

/-- What the body leaves in the output block at point t is block t of the whole product. -/
theorem blkv4_eq (c : Dev nD) (t : Fin cfg4.N) :
    (cfg4.win 2).cut (grid4.coords t) (out4_2 (iblk4 V c 0 t) (iblk4 V c 1 t)) = ((cfg4.win 2).blk t).view.read (Elt Ideal) (Gv4 V c) := by
  unfold out4_2
  rw [View.canon_unit_zero hzv4]
  simp only [View.ld_unit_zero (S := S2000x128) hzv4, View.ld_unit_zero (S := S128x128) hzv4]
  refine funext fun (j : S2000x128.Idx) => ?_
  obtain ⟨r, q, rfl⟩ : ∃ (r : Fin 2000) (q : Fin 128), j = ix2 r q := ⟨j 0, j 1, eq_ix2 j⟩
  have hN : cfg4.N = 25 := N_4
  have hp : 2000 * t.val + r.val < 50000 := by have := t.isLt; omega
  show k4_pay1 (iblk4 V c 0 t) (iblk4 V c 1 t) (ix2 r q) = Gv4 V c (((cfg4.win 2).blk t).view.emb (ix2 r q : S2000x128.Idx))
  rw [embv4 t r q ⟨2000 * t.val + r.val, hp⟩ rfl]
  refine (pay4_apply (iblk4 V c 0 t) (iblk4 V c 1 t) r q).trans ?_
  refine Eq.trans ?_ (dotArr4_apply (V c main_v63) (V c main_arg6) ⟨2000 * t.val + r.val, hp⟩ q).symm
  refine Finset.sum_congr rfl fun k _ => ?_
  rw [iblk4_0_apply V c t r k ⟨2000 * t.val + r.val, hp⟩ rfl, iblk4_1_apply V c t k q]

/-- What point t writes back is block t of the whole product. -/
theorem flushedv4_eq (c : Dev nD) (t : Fin cfg4.N) :
    (dat4 (F := Ideal) V c).flushed 2 t = ((cfg4.win 2).blk t).view.read (Elt Ideal) (Gv4 V c) := by
  show (cfg4.win 2).cut (grid4.coords t) ((dat4 (F := Ideal) V c).after 2 t) = _
  rw [after4_2]
  exact blkv4_eq V c t

/-- The result array after the 25 points: the product of the two arguments as the region finds them. -/
theorem arr4 (c : Dev nD) : (dat4 (F := Ideal) V c).arrAt 2 cfg4.N
    = Host.dotGeneral (F := Ideal) (φ₁ := .f32) (φ₂ := .f32) Cert.ReferenceIdeal.dot_S50000x128_S128x128_S50000x128_1_0_0_1_n_n none (V c main_v63) (V c main_arg6) :=
  (dat4 (F := Ideal) V c).arrAt_eq_of_cover 2 (Gv4 V c) (fun t _ => flushedv4_eq V c t) coverv4

end Cert.KernelIdeal.Hand

end
-- ==== Proof.IdealValue5.lean ====
/-
  Region 5 as one array operation, at the extended reals: after its 25 grid points the result array is
  max(a + b, 0), a the 50000×128 argument and b the 1×128 row broadcast over the rows, as the region finds them.
  Point t's output block is rows 2000·t … 2000·t + 1999 of that array: entry (r, q) of the block is
  max(a(2000·t + r, q) + b(0, q), 0), the body's two shape casts changing nothing and its row broadcast reading the
  one row. The 25 row blocks cover the array: row i lies in block i / 2000.
-/
import proofs.«164648_j74337293959433_1_alg».proof.Proof.IdealRegion5
import proofs.«164648_j74337293959433_1_alg».proof.ReferenceIdeal
import proofs.«164648_j74337293959433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hzv5 : (![0, 0] : Fin 2 → Nat) = fun _ => 0 := funext fun a => by fin_cases a <;> rfl

/-! ## The block operation and the array operation read at a row and a column -/

/-- The body's payload at (r, q): the larger of x(r, q) + b(0, q) and zero. -/
theorem pay5_apply (x0 : Vec Ideal S2000x128 .f32) (x1 : Vec Ideal S1x128 .f32) (r : Fin 2000) (q : Fin 128) :
    k5_pay1 x0 x1 (ix2 r q) = max ((x0 (ix2 r q) : EReal) + (x1 (ix2 (0 : Fin 1) q) : EReal)) (Ideal.ofBits .f32 0x00000000#32) := by
  unfold k5_pay1
  simp only [shapeCast_self]
  rw [maximumf_apply, addf_apply, broadcastTo_1b_ab_apply]
  rfl

/-- A 1×128 row broadcast over 50000 rows reads, at (p, q), the row at q. -/
theorem bcastRow5_apply (B : FVec Ideal S1x128 .f32) (p : Fin 50000) (q : Fin 128) :
    broadcastInDim S50000x128 ![0, 1] Cert.ReferenceIdeal.Facts₀.bcast_S1x128_S50000x128_0_1 B (ix2 p q) = B (ix2 (0 : Fin 1) q) := by
  refine broadcastInDim_apply ![0, 1] Cert.ReferenceIdeal.Facts₀.bcast_S1x128_S50000x128_0_1 B (ix2 p q) (ix2 (0 : Fin 1) q) fun ax => ?_
  match ax with
  | ⟨0, _⟩ => rfl
  | ⟨1, _⟩ => rfl

/-- A scalar broadcast over the array reads the scalar everywhere. -/
theorem bcastZero5_apply (z : FVec Ideal S_ .f32) (j : S50000x128.Idx) :
    broadcastInDim S50000x128 ![] Cert.ReferenceIdeal.Facts₀.bcast_S_S50000x128 z j = z ix0 :=
  broadcastInDim_apply ![] Cert.ReferenceIdeal.Facts₀.bcast_S_S50000x128 z j ix0 fun a => a.elim0

/-- The whole-array operation at (p, q): the larger of a(p, q) + b(0, q) and zero. -/
theorem reluArr5_apply (A : FVec Ideal S50000x128 .f32) (B : FVec Ideal S1x128 .f32) (p : Fin 50000) (q : Fin 128) :
    maximumf (addf A (broadcastInDim S50000x128 ![0, 1] Cert.ReferenceIdeal.Facts₀.bcast_S1x128_S50000x128_0_1 B))
      (broadcastInDim S50000x128 ![] Cert.ReferenceIdeal.Facts₀.bcast_S_S50000x128 (constant (F := Ideal) S_ .f32 0x00000000#32)) (ix2 p q)
    = max ((A (ix2 p q) : EReal) + (B (ix2 (0 : Fin 1) q) : EReal)) (Ideal.ofBits .f32 0x00000000#32) := by
  rw [maximumf_apply, addf_apply, bcastRow5_apply, bcastZero5_apply]
  rfl

/-! ## The windows' blocks -/

/-- The index maps over the grid: the row windows' block row is the point, their block column 0; the bias row's block is (0, 0). -/
theorem idxv5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- An index of the result array is in point t's block iff each coordinate is in the block's range on its axis. -/
theorem mem_blkv5 (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v79).slice (win5_2.rect t)).set ↔ _
  rw [View.set_slice_whole, Rect.mem_set_unit]
  exact Iff.rfl

/-- Every index of the result array is in some point's block: row i is in block i / 2000. -/
theorem coverv5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 25 := N_5
  have ht : (i 0).val / 2000 < cfg5.N := by rw [hN]; omega
  refine ⟨⟨(i 0).val / 2000, ht⟩, flush5_2 _, ?_⟩
  rw [mem_blkv5]
  obtain ⟨-, -, -, -, e4, e5⟩ := idxv5 ⟨(i 0).val / 2000, ht⟩
  intro a
  match a with
  | ⟨0, _⟩ =>
    show win5_2.index ⟨(i 0).val / 2000, ht⟩ (0 : Fin 2) * 2000 ≤ (i 0).val ∧ (i 0).val < win5_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win5_2.index ⟨(i 0).val / 2000, ht⟩ (1 : Fin 2) * 128 ≤ (i 1).val ∧ (i 1).val < win5_2.index ⟨(i 0).val / 2000, ht⟩ (1 : Fin 2) * 128 + 128
    rw [e5]; omega

/-- Entry (r, q) of point t's output block sits at (2000·t + r, q) of the result array. -/
theorem embv5 (t : Fin cfg5.N) (r : Fin 2000) (q : Fin 128) (p : Fin 50000) (hp : p.val = 2000 * t.val + r.val) :
    ((cfg5.win 2).blk t).view.emb (ix2 r q : S2000x128.Idx) = (ix2 p q : S50000x128.Idx) := by
  obtain ⟨-, -, -, -, e4, e5⟩ := idxv5 t
  funext a; apply Fin.ext
  match a with
  | ⟨0, _⟩ => show win5_2.index t (0 : Fin 2) * 2000 + 1 * r.val = p.val; rw [e4, hp]; omega
  | ⟨1, _⟩ => show win5_2.index t (1 : Fin 2) * 128 + 1 * q.val = q.val; rw [e5]; omega

/-- Entry (r, q) of point t's block of a is entry (2000·t + r, q) of a. -/
theorem iblk5_0_apply (c : Dev nD) (t : Fin cfg5.N) (r : Fin 2000) (q : Fin 128) (p : Fin 50000) (hp : p.val = 2000 * t.val + r.val) :
    (iblk5 V c 0 t : Vec Ideal S2000x128 .f32) (ix2 r q) = (V c main_v77 : FVec Ideal S50000x128 .f32) (ix2 p q) := by
  obtain ⟨e0, e1, -⟩ := idxv5 t
  unfold iblk5
  rw [View.read_apply]
  show V c main_v77 _ = V c main_v77 _
  congr 1
  funext a
  apply Fin.ext
  match a with
  | ⟨0, _⟩ => show win5_0.index t (0 : Fin 2) * 2000 + 1 * r.val = p.val; rw [e0, hp]; omega
  | ⟨1, _⟩ => show win5_0.index t (1 : Fin 2) * 128 + 1 * q.val = q.val; rw [e1]; omega

/-- The bias row's block at every point is the bias row. -/
theorem iblk5_1_apply (c : Dev nD) (t : Fin cfg5.N) (u : Fin 1) (q : Fin 128) :
    (iblk5 V c 1 t : Vec Ideal S1x128 .f32) (ix2 u q) = (V c main_v78 : FVec Ideal S1x128 .f32) (ix2 u q) := by
  obtain ⟨-, -, e2, e3, -⟩ := idxv5 t
  unfold iblk5
  rw [View.read_apply]
  show V c main_v78 _ = V c main_v78 _
  congr 1
  funext a
  apply Fin.ext
  match a with
  | ⟨0, _⟩ => show win5_1.index t (0 : Fin 2) * 1 + 1 * u.val = u.val; rw [e2]; omega
  | ⟨1, _⟩ => show win5_1.index t (1 : Fin 2) * 128 + 1 * q.val = q.val; rw [e3]; omega

/-! ## The result array -/

/-- The whole-array operation of the two arguments as the region finds them. -/
abbrev Gv5 (c : Dev nD) : FVec Ideal S50000x128 .f32 :=
  maximumf (addf (V c main_v77) (broadcastInDim S50000x128 ![0, 1] Cert.ReferenceIdeal.Facts₀.bcast_S1x128_S50000x128_0_1 (V c main_v78)))
    (broadcastInDim S50000x128 ![] Cert.ReferenceIdeal.Facts₀.bcast_S_S50000x128 (constant (F := Ideal) S_ .f32 0x00000000#32))

/-- What the body leaves in the output block at point t is block t of the whole-array operation. -/
theorem blkv5_eq (c : Dev nD) (t : Fin cfg5.N) :
    (cfg5.win 2).cut (grid5.coords t) (out5_2 (iblk5 V c 0 t) (iblk5 V c 1 t)) = ((cfg5.win 2).blk t).view.read (Elt Ideal) (Gv5 V c) := by
  unfold out5_2
  rw [View.canon_unit_zero hzv5]
  simp only [View.ld_unit_zero (S := S2000x128) hzv5, View.ld_unit_zero (S := S1x128) hzv5]
  refine funext fun (j : S2000x128.Idx) => ?_
  obtain ⟨r, q, rfl⟩ : ∃ (r : Fin 2000) (q : Fin 128), j = ix2 r q := ⟨j 0, j 1, eq_ix2 j⟩
  have hN : cfg5.N = 25 := N_5
  have hp : 2000 * t.val + r.val < 50000 := by have := t.isLt; omega
  show k5_pay1 (iblk5 V c 0 t) (iblk5 V c 1 t) (ix2 r q) = Gv5 V c (((cfg5.win 2).blk t).view.emb (ix2 r q : S2000x128.Idx))
  rw [embv5 t r q ⟨2000 * t.val + r.val, hp⟩ rfl]
  refine (pay5_apply (iblk5 V c 0 t) (iblk5 V c 1 t) r q).trans ?_
  refine Eq.trans ?_ (reluArr5_apply (V c main_v77) (V c main_v78) ⟨2000 * t.val + r.val, hp⟩ q).symm
  rw [iblk5_0_apply V c t r q ⟨2000 * t.val + r.val, hp⟩ rfl, iblk5_1_apply V c t 0 q]

/-- What point t writes back is block t of the whole-array operation. -/
theorem flushedv5_eq (c : Dev nD) (t : Fin cfg5.N) :
    (dat5 (F := Ideal) V c).flushed 2 t = ((cfg5.win 2).blk t).view.read (Elt Ideal) (Gv5 V c) := by
  show (cfg5.win 2).cut (grid5.coords t) ((dat5 (F := Ideal) V c).after 2 t) = _
  rw [after5_2]
  exact blkv5_eq V c t

/-- The result array after the 25 points: max(a + b, 0) of the two arguments as the region finds them. -/
theorem arr5 (c : Dev nD) : (dat5 (F := Ideal) V c).arrAt 2 cfg5.N
    = maximumf (addf (V c main_v77) (broadcastInDim S50000x128 ![0, 1] Cert.ReferenceIdeal.Facts₀.bcast_S1x128_S50000x128_0_1 (V c main_v78)))
        (broadcastInDim S50000x128 ![] Cert.ReferenceIdeal.Facts₀.bcast_S_S50000x128 (constant (F := Ideal) S_ .f32 0x00000000#32)) :=
  (dat5 (F := Ideal) V c).arrAt_eq_of_cover 2 (Gv5 V c) (fun t _ => flushedv5_eq V c t) coverv5

end Cert.KernelIdeal.Hand

end
-- ==== Proof.IdealValue6.lean ====
/-
  Region 6 as one array operation, at the extended reals: after its 25 grid points the result array is the
  product of the 50000×384 argument by the 384×40 weight plus the 1×40 row broadcast over the rows, as the region
  finds them. Point t's output block is rows 2000·t … 2000·t + 1999 of that array: entry (r, q) of the block is the
  sum over k of x(2000·t + r, k) · w(k, q), plus b(0, q) — the body's shape casts changing nothing, the narrowing of
  the operands being the identity on extended reals, its row broadcast reading the one row — and that is entry
  (2000·t + r, q) of the whole-array operation. The 25 row blocks cover the array: row i lies in block i / 2000.
-/
import proofs.«164648_j74337293959433_1_alg».proof.Proof.IdealRegion6
import proofs.«164648_j74337293959433_1_alg».proof.Proof.LibDotIx2
import proofs.«164648_j74337293959433_1_alg».proof.ReferenceIdeal
import proofs.«164648_j74337293959433_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem hzv6 : (![0, 0] : Fin 2 → Nat) = fun _ => 0 := funext fun a => by fin_cases a <;> rfl

/-! ## The block operation and the array operation read at a row and a column -/

/-- The block product's dimension numbers are those of a plain 2000×384 by 384×40 product. -/
theorem plainBlk6 : PlainDot dot_S2000x384_S384x40_S2000x40_1_0_0_1_n_n where
  rank := rfl
  size := rfl
  l0 := fun _ _ => rfl
  l1 := fun _ _ => rfl
  r0 := fun _ _ => rfl
  r1 := fun _ _ => rfl

/-- The whole product's dimension numbers are those of a plain 50000×384 by 384×40 product. -/
theorem plainArr6 : PlainDot Cert.ReferenceIdeal.dot_S50000x384_S384x40_S50000x40_1_0_0_1_n_n where
  rank := rfl
  size := rfl
  l0 := fun _ _ => rfl
  l1 := fun _ _ => rfl
  r0 := fun _ _ => rfl
  r1 := fun _ _ => rfl

/-- The body's payload at (r, q): the sum over the 384 inner positions, plus the bias row at q. -/
theorem pay6_apply (x0 : Vec Ideal S2000x384 .f32) (x1 : Vec Ideal S384x40 .f32) (x2 : Vec Ideal S1x40 .f32) (r : Fin 2000) (q : Fin 40) :
    k6_pay1 x0 x1 x2 (ix2 r q) = (∑ k : Fin 384, (x0 (ix2 r k) : EReal) * (x1 (ix2 k q) : EReal)) + (x2 (ix2 (0 : Fin 1) q) : EReal) := by
  unfold k6_pay1
  simp only [shapeCast_self]
  rw [addf_apply, broadcastTo_1b_ab_apply]
  exact congrArg (· + (x2 (ix2 (0 : Fin 1) q) : EReal)) (matmul_zero_ix2_any plainBlk6 none (truncf .bf16 x0 bitsLt_bf16_f32) (truncf .bf16 x1 bitsLt_bf16_f32) r q)

/-- A 1×40 row broadcast over 50000 rows reads, at (p, q), the row at q. -/
theorem bcastRow6_apply (B : FVec Ideal S1x40 .f32) (p : Fin 50000) (q : Fin 40) :
    broadcastInDim S50000x40 ![0, 1] Cert.ReferenceIdeal.Facts₀.bcast_S1x40_S50000x40_0_1 B (ix2 p q) = B (ix2 (0 : Fin 1) q) := by
  refine broadcastInDim_apply ![0, 1] Cert.ReferenceIdeal.Facts₀.bcast_S1x40_S50000x40_0_1 B (ix2 p q) (ix2 (0 : Fin 1) q) fun ax => ?_
  match ax with
  | ⟨0, _⟩ => rfl
  | ⟨1, _⟩ => rfl

/-- The whole-array operation at (p, q): the same sum, plus the bias row at q. -/
theorem dotArr6_apply (A : FVec Ideal S50000x384 .f32) (B : FVec Ideal S384x40 .f32) (C : FVec Ideal S1x40 .f32) (p : Fin 50000) (q : Fin 40) :
    addf (Host.dotGeneral (F := Ideal) Cert.ReferenceIdeal.dot_S50000x384_S384x40_S50000x40_1_0_0_1_n_n none A B)
      (broadcastInDim S50000x40 ![0, 1] Cert.ReferenceIdeal.Facts₀.bcast_S1x40_S50000x40_0_1 C) (ix2 p q)
      = (∑ k : Fin 384, (A (ix2 p k) : EReal) * (B (ix2 k q) : EReal)) + (C (ix2 (0 : Fin 1) q) : EReal) := by
  rw [addf_apply, bcastRow6_apply]
  exact congrArg (· + (C (ix2 (0 : Fin 1) q) : EReal)) (dotGeneral_ix2_any plainArr6 none .single A B p q)

/-! ## The windows' blocks -/

/-- The index maps over the grid: the row windows' block row is the point, their block column 0; the weight's and the
    bias row's blocks are (0, 0). -/
theorem idxv6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- An index of the result array is in point t's block iff each coordinate is in the block's range on its axis. -/
theorem mem_blkv6 (t : Fin cfg6.N) (i : S50000x40.Idx) :
    i ∈ ((cfg6.win 3).blk t).view.set ↔ ∀ a : Fin 2, win6_3.index t a * S2000x40.size a ≤ (i a).val ∧ (i a).val < win6_3.index t a * S2000x40.size a + S2000x40.size a := by
  show i ∈ ((View.whole main_v82).slice (win6_3.rect t)).set ↔ _
  rw [View.set_slice_whole, Rect.mem_set_unit]
  exact Iff.rfl

/-- Every index of the result array is in some point's block: row i is in block i / 2000. -/
theorem coverv6 (i : S50000x40.Idx) : ∃ t : Fin cfg6.N, (cfg6.win 3).flush t = true ∧ i ∈ ((cfg6.win 3).blk t).view.set := by
  have hi0 : (i 0).val < 50000 := (i 0).isLt
  have hi1 : (i 1).val < 40 := (i 1).isLt
  have hN : cfg6.N = 25 := N_6
  have ht : (i 0).val / 2000 < cfg6.N := by rw [hN]; omega
  refine ⟨⟨(i 0).val / 2000, ht⟩, flush6_3 _, ?_⟩
  rw [mem_blkv6]
  obtain ⟨-, -, -, -, -, -, e6, e7⟩ := idxv6 ⟨(i 0).val / 2000, ht⟩
  intro a
  match a with
  | ⟨0, _⟩ =>
    show win6_3.index ⟨(i 0).val / 2000, ht⟩ (0 : Fin 2) * 2000 ≤ (i 0).val ∧ (i 0).val < win6_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win6_3.index ⟨(i 0).val / 2000, ht⟩ (1 : Fin 2) * 40 ≤ (i 1).val ∧ (i 1).val < win6_3.index ⟨(i 0).val / 2000, ht⟩ (1 : Fin 2) * 40 + 40
    rw [e7]; omega

/-- Entry (r, q) of point t's output block sits at (2000·t + r, q) of the result array. -/
theorem embv6 (t : Fin cfg6.N) (r : Fin 2000) (q : Fin 40) (p : Fin 50000) (hp : p.val = 2000 * t.val + r.val) :
    ((cfg6.win 3).blk t).view.emb (ix2 r q : S2000x40.Idx) = (ix2 p q : S50000x40.Idx) := by
  obtain ⟨-, -, -, -, -, -, e6, e7⟩ := idxv6 t
  funext a; apply Fin.ext
  match a with
  | ⟨0, _⟩ => show win6_3.index t (0 : Fin 2) * 2000 + 1 * r.val = p.val; rw [e6, hp]; omega
  | ⟨1, _⟩ => show win6_3.index t (1 : Fin 2) * 40 + 1 * q.val = q.val; rw [e7]; omega

/-- Entry (r, k) of point t's block of x is entry (2000·t + r, k) of x. -/
theorem iblk6_0_apply (c : Dev nD) (t : Fin cfg6.N) (r : Fin 2000) (k : Fin 384) (p : Fin 50000) (hp : p.val = 2000 * t.val + r.val) :
    (iblk6 V c 0 t : Vec Ideal S2000x384 .f32) (ix2 r k) = (V c main_v80 : FVec Ideal S50000x384 .f32) (ix2 p k) := by
  obtain ⟨e0, e1, -⟩ := idxv6 t
  unfold iblk6
  rw [View.read_apply]
  show V c main_v80 _ = V c main_v80 _
  congr 1
  funext a
  apply Fin.ext
  match a with
  | ⟨0, _⟩ => show win6_0.index t (0 : Fin 2) * 2000 + 1 * r.val = p.val; rw [e0, hp]; omega
  | ⟨1, _⟩ => show win6_0.index t (1 : Fin 2) * 384 + 1 * k.val = k.val; rw [e1]; omega

/-- The weight's block at every point is the weight. -/
theorem iblk6_1_apply (c : Dev nD) (t : Fin cfg6.N) (k : Fin 384) (q : Fin 40) :
    (iblk6 V c 1 t : Vec Ideal S384x40 .f32) (ix2 k q) = (V c main_arg8 : FVec Ideal S384x40 .f32) (ix2 k q) := by
  obtain ⟨-, -, e2, e3, -⟩ := idxv6 t
  unfold iblk6
  rw [View.read_apply]
  show V c main_arg8 _ = V c main_arg8 _
  congr 1
  funext a
  apply Fin.ext
  match a with
  | ⟨0, _⟩ => show win6_1.index t (0 : Fin 2) * 384 + 1 * k.val = k.val; rw [e2]; omega
  | ⟨1, _⟩ => show win6_1.index t (1 : Fin 2) * 40 + 1 * q.val = q.val; rw [e3]; omega

/-- The bias row's block at every point is the bias row. -/
theorem iblk6_2_apply (c : Dev nD) (t : Fin cfg6.N) (u : Fin 1) (q : Fin 40) :
    (iblk6 V c 2 t : Vec Ideal S1x40 .f32) (ix2 u q) = (V c main_v81 : FVec Ideal S1x40 .f32) (ix2 u q) := by
  obtain ⟨-, -, -, -, e4, e5, -⟩ := idxv6 t
  unfold iblk6
  rw [View.read_apply]
  show V c main_v81 _ = V c main_v81 _
  congr 1
  funext a
  apply Fin.ext
  match a with
  | ⟨0, _⟩ => show win6_2.index t (0 : Fin 2) * 1 + 1 * u.val = u.val; rw [e4]; omega
  | ⟨1, _⟩ => show win6_2.index t (1 : Fin 2) * 40 + 1 * q.val = q.val; rw [e5]; omega

/-! ## The result array -/

/-- The whole-array operation of the three arguments as the region finds them. -/
abbrev Gv6 (c : Dev nD) : FVec Ideal S50000x40 .f32 :=
  addf (Host.dotGeneral (F := Ideal) (φ₁ := .f32) (φ₂ := .f32) Cert.ReferenceIdeal.dot_S50000x384_S384x40_S50000x40_1_0_0_1_n_n none (V c main_v80) (V c main_arg8))
    (broadcastInDim S50000x40 ![0, 1] Cert.ReferenceIdeal.Facts₀.bcast_S1x40_S50000x40_0_1 (V c main_v81))

/-- What the body leaves in the output block at point t is block t of the whole-array operation. -/
theorem blkv6_eq (c : Dev nD) (t : Fin cfg6.N) :
    (cfg6.win 3).cut (grid6.coords t) (out6_3 (iblk6 V c 0 t) (iblk6 V c 1 t) (iblk6 V c 2 t)) = ((cfg6.win 3).blk t).view.read (Elt Ideal) (Gv6 V c) := by
  unfold out6_3
  rw [View.canon_unit_zero hzv6]
  simp only [View.ld_unit_zero (S := S2000x384) hzv6, View.ld_unit_zero (S := S384x40) hzv6, View.ld_unit_zero (S := S1x40) hzv6]
  refine funext fun (j : S2000x40.Idx) => ?_
  obtain ⟨r, q, rfl⟩ : ∃ (r : Fin 2000) (q : Fin 40), j = ix2 r q := ⟨j 0, j 1, eq_ix2 j⟩
  have hN : cfg6.N = 25 := N_6
  have hp : 2000 * t.val + r.val < 50000 := by have := t.isLt; omega
  show k6_pay1 (iblk6 V c 0 t) (iblk6 V c 1 t) (iblk6 V c 2 t) (ix2 r q) = Gv6 V c (((cfg6.win 3).blk t).view.emb (ix2 r q : S2000x40.Idx))
  rw [embv6 t r q ⟨2000 * t.val + r.val, hp⟩ rfl]
  refine (pay6_apply (iblk6 V c 0 t) (iblk6 V c 1 t) (iblk6 V c 2 t) r q).trans ?_
  refine Eq.trans ?_ (dotArr6_apply (V c main_v80) (V c main_arg8) (V c main_v81) ⟨2000 * t.val + r.val, hp⟩ q).symm
  rw [iblk6_2_apply V c t 0 q]
  congr 1
  refine Finset.sum_congr rfl fun k _ => ?_
  rw [iblk6_0_apply V c t r k ⟨2000 * t.val + r.val, hp⟩ rfl, iblk6_1_apply V c t k q]

/-- What point t writes back is block t of the whole-array operation. -/
theorem flushedv6_eq (c : Dev nD) (t : Fin cfg6.N) :
    (dat6 (F := Ideal) V c).flushed 3 t = ((cfg6.win 3).blk t).view.read (Elt Ideal) (Gv6 V c) := by
  show (cfg6.win 3).cut (grid6.coords t) ((dat6 (F := Ideal) V c).after 3 t) = _
  rw [after6_3]
  exact blkv6_eq V c t

/-- The result array after the 25 points: the product plus the broadcast bias row, of the three arguments as the region finds them. -/
theorem arr6 (c : Dev nD) : (dat6 (F := Ideal) V c).arrAt 3 cfg6.N
    = addf (Host.dotGeneral (F := Ideal) (φ₁ := .f32) (φ₂ := .f32) Cert.ReferenceIdeal.dot_S50000x384_S384x40_S50000x40_1_0_0_1_n_n none (V c main_v80) (V c main_arg8))
        (broadcastInDim S50000x40 ![0, 1] Cert.ReferenceIdeal.Facts₀.bcast_S1x40_S50000x40_0_1 (V c main_v81)) :=
  (dat6 (F := Ideal) V c).arrAt_eq_of_cover 3 (Gv6 V c) (fun t _ => flushedv6_eq V c t) coverv6

end Cert.KernelIdeal.Hand

end
-- ==== Proof.IdealStretchTypes.lean ====
/-
  Names for the types of the ten argument arrays as the reference's stages take them: plain contents at the extended
  reals over the reference program's shapes (the same literal shapes as the kernel program's).
-/
import proofs.«164648_j74337293959433_1_alg».proof.Proof.RefReadQ
import Idealize.ShloMosaic.PureOps.Ideal

noncomputable section

namespace Cert.KernelIdeal.Hand

open Idealize.ShloMosaic

abbrev RA0 := (⟨Cert.ReferenceIdeal.S50000x256, .f32⟩ : BufTy).Contents (Elt Ideal)
abbrev RA1 := (⟨Cert.ReferenceIdeal.S2x800000, .i32⟩ : BufTy).Contents (Elt Ideal)
abbrev RA2 := (⟨Cert.ReferenceIdeal.S256x128, .f32⟩ : BufTy).Contents (Elt Ideal)
abbrev RA3 := (⟨Cert.ReferenceIdeal.S128, .f32⟩ : BufTy).Contents (Elt Ideal)
abbrev RA4 := (⟨Cert.ReferenceIdeal.S128x128, .f32⟩ : BufTy).Contents (Elt Ideal)
abbrev RA8 := (⟨Cert.ReferenceIdeal.S384x40, .f32⟩ : BufTy).Contents (Elt Ideal)
abbrev RA9 := (⟨Cert.ReferenceIdeal.S40, .f32⟩ : BufTy).Contents (Elt Ideal)

end Cert.KernelIdeal.Hand

end
-- ==== Proof.LibRowOfVector.lean ====
/-
  A vector of length n laid out as a 1 × n row in two ways — by a reshape, and by a broadcast_in_dim that sends the
  vector's one axis to the row's second axis — is the same array: both read the vector at the row index's second
  coordinate. (The reshape keeps the row-major position; the broadcast drops the unit axis.)
-/
import Idealize.ShloMosaic.Lib.Pipeline.Value
import Idealize.ShloMosaic.Lib.ValueIdx

noncomputable section

namespace Idealize.ShloMosaic.ValueIdx

open Idealize.ShloMosaic

/-- A reshape [n] → [1, n] equals the broadcast_in_dim [n] → [1, n] with dims = [1], for n ≠ 1. -/
theorem shapeCast_row_eq_broadcastInDim {α : Type} {n : ℕ} (hn : n ≠ 1) (x : (⟨1, ![n]⟩ : Shape).Idx → α)
    (h : (⟨1, ![n]⟩ : Shape).ShapeCasts ⟨1 + 1, Matrix.vecCons 1 ![n]⟩)
    (h' : (⟨1, ![n]⟩ : Shape).BroadcastsInDim ⟨1 + 1, Matrix.vecCons 1 ![n]⟩ ![1]) :
    shapeCast ⟨1 + 1, Matrix.vecCons 1 ![n]⟩ x h = broadcastInDim ⟨1 + 1, Matrix.vecCons 1 ![n]⟩ ![1] h' x := by
  funext j
  refine (shapeCast_addUnit_apply ![n] x h j).trans (broadcastInDim_apply ![1] h' x j (fun a => j a.succ) fun a => ?_).symm
  match a with
  | ⟨0, _⟩ =>
    show (j (Fin.succ 0)).val = if n = 1 then 0 else (j ((![1] : Fin 1 → Fin 2) 0)).val
    rw [if_neg hn]; rfl

end Idealize.ShloMosaic.ValueIdx

end
-- ==== Proof.IdealStretchA.lean ====
/-
  The three opening stretches of host operations, read against the reference's stages. From the edge list x1 they
  compute: the source and target index vectors with the 50000 self loops appended (row, col); the degree of every
  node as a scatter-add of ones along col; its inverse square root where the degree is positive and zero elsewhere;
  and the weight of every edge, the product of that vector gathered at row and gathered at col. Each stretch is
  evaluated over an arbitrary valuation of the buffers, the values it reads named by hypotheses; what it leaves in the
  buffers read later is the reference's stage of the same name, because both programs apply the same operations.
-/
import proofs.«164648_j74337293959433_1_alg».proof.Proof.Gen.KernelIdeal.Launch
import proofs.«164648_j74337293959433_1_alg».proof.Proof.Gen.KernelIdeal.Regions
import proofs.«164648_j74337293959433_1_alg».proof.Proof.IdealStretchTypes
import proofs.«164648_j74337293959433_1_alg».proof.Proof.LibRowOfVector
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-! ## The first stretch: row, col, the degrees' sign test and inverse square root -/

set_option maxHeartbeats 2000000 in
theorem open_row (V : Valuation τ sig (Elt F)) (x1 : (⟨Cert.ReferenceIdeal.S2x800000, .i32⟩ : BufTy).Contents (Elt F)) (h1 : V (Proc.devRef .tc main_arg1) = x1) :
    StableHlo.after hostOps0 V (Proc.devRef .tc main_v5) = Cert.ReferenceIdeal.ReadQ.val_main_v5 (F := F) x1 := by
  after_results
  rw [h1]
  rfl

set_option maxHeartbeats 2000000 in
theorem open_col (V : Valuation τ sig (Elt F)) (x1 : (⟨Cert.ReferenceIdeal.S2x800000, .i32⟩ : BufTy).Contents (Elt F)) (h1 : V (Proc.devRef .tc main_arg1) = x1) :
    StableHlo.after hostOps0 V (Proc.devRef .tc main_v6) = Cert.ReferenceIdeal.ReadQ.val_main_v6 (F := F) x1 := by
  after_results
  rw [h1]
  rfl

set_option maxHeartbeats 2000000 in
theorem open_pos (V : Valuation τ sig (Elt F)) (x1 : (⟨Cert.ReferenceIdeal.S2x800000, .i32⟩ : BufTy).Contents (Elt F)) (h1 : V (Proc.devRef .tc main_arg1) = x1) :
    StableHlo.after hostOps0 V (Proc.devRef .tc main_v12) = Cert.ReferenceIdeal.ReadQ.val_main_v12 (F := F) x1 := by
  after_results
  rw [h1]
  rfl

set_option maxHeartbeats 2000000 in
theorem open_rsqrt (V : Valuation τ sig (Elt F)) (x1 : (⟨Cert.ReferenceIdeal.S2x800000, .i32⟩ : BufTy).Contents (Elt F)) (h1 : V (Proc.devRef .tc main_arg1) = x1) :
    StableHlo.after hostOps0 V (Proc.devRef .tc main_v15) = Cert.ReferenceIdeal.ReadQ.val_main_v15 (F := F) x1 := by
  after_results
  rw [h1]
  rfl

set_option maxHeartbeats 2000000 in
theorem open_zero (V : Valuation τ sig (Elt F)) :
    StableHlo.after hostOps0 V (Proc.devRef .tc main_cst_3) = Cert.ReferenceIdeal.ReadQ.val_main_cst_3 (F := F) := by
  after_results
  rfl

/-! ## The second stretch: zero where the degree is zero -/

set_option maxHeartbeats 2000000 in
theorem where_dinv (V : Valuation τ sig (Elt F)) (x1 : (⟨Cert.ReferenceIdeal.S2x800000, .i32⟩ : BufTy).Contents (Elt F))
    (h12 : V (Proc.devRef .tc main_v12) = Cert.ReferenceIdeal.ReadQ.val_main_v12 (F := F) x1)
    (h15 : V (Proc.devRef .tc main_v15) = Cert.ReferenceIdeal.ReadQ.val_main_v15 (F := F) x1)
    (hc : V (Proc.devRef .tc main_cst_3) = Cert.ReferenceIdeal.ReadQ.val_main_cst_3 (F := F)) :
    StableHlo.after hostOps0_1 V (Proc.devRef .tc main_v16) = Cert.ReferenceIdeal.ReadQ.val_main_v16 (F := F) x1 := by
  after_results
  rw [h12, h15, hc]
  rfl

/-! ## The third stretch: the weight of every edge -/

set_option maxHeartbeats 2000000 in
theorem edge_weight (V : Valuation τ sig (Elt F)) (x1 : (⟨Cert.ReferenceIdeal.S2x800000, .i32⟩ : BufTy).Contents (Elt F))
    (h5 : V (Proc.devRef .tc main_v5) = Cert.ReferenceIdeal.ReadQ.val_main_v5 (F := F) x1)
    (h6 : V (Proc.devRef .tc main_v6) = Cert.ReferenceIdeal.ReadQ.val_main_v6 (F := F) x1)
    (h16 : V (Proc.devRef .tc main_v16) = Cert.ReferenceIdeal.ReadQ.val_main_v16 (F := F) x1) :
    StableHlo.after hostOps0_2 V (Proc.devRef .tc main_v31) = Cert.ReferenceIdeal.ReadQ.val_main_v31 (F := F) x1 := by
  after_results
  rw [h5, h6, h16]
  rfl

end Cert.KernelIdeal.Hand

end
-- ==== Proof.IdealStretchB.lean ====
/-
  The host stretches between the regions of the first two layers, read against the reference's stages. Each takes the
  layer's dense product h, wraps a negative source index by adding 50000, gathers the rows of h at the source indices,
  scales every gathered row by its edge's weight, and scatter-adds the rows into a zero array along the target
  indices; and it lays the layer's bias vector out as one 1×128 row, by a reshape where the reference uses a
  broadcast of the vector's axis to the row's second axis — the same array. Evaluated over an arbitrary valuation of
  the buffers, the values read named by hypotheses.
-/
import proofs.«164648_j74337293959433_1_alg».proof.Proof.Gen.KernelIdeal.Launch
import proofs.«164648_j74337293959433_1_alg».proof.Proof.Gen.KernelIdeal.Regions
import proofs.«164648_j74337293959433_1_alg».proof.Proof.IdealStretchTypes
import proofs.«164648_j74337293959433_1_alg».proof.Proof.LibRowOfVector
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-! ## After region 0: the first layer's aggregation and bias row -/

set_option maxHeartbeats 2000000 in
theorem agg1_stage (V : Valuation τ sig (Elt Ideal)) (x0 : RA0) (x1 : RA1) (x2 : RA2)
    (h32 : V (Proc.devRef .tc main_v32) = Cert.ReferenceIdeal.ReadQ.val_main_v32 (F := Ideal) x0 x2)
    (h5 : V (Proc.devRef .tc main_v5) = Cert.ReferenceIdeal.ReadQ.val_main_v5 (F := Ideal) x1)
    (h6 : V (Proc.devRef .tc main_v6) = Cert.ReferenceIdeal.ReadQ.val_main_v6 (F := Ideal) x1)
    (h31 : V (Proc.devRef .tc main_v31) = Cert.ReferenceIdeal.ReadQ.val_main_v31 (F := Ideal) x1) :
    StableHlo.after hostOps1 V (Proc.devRef .tc main_v45) = Cert.ReferenceIdeal.ReadQ.val_main_v45 (F := Ideal) x0 x1 x2 := by
  after_results
  rw [h32, h5, h6, h31]
  rfl

set_option maxHeartbeats 2000000 in
theorem bias1_row (V : Valuation τ sig (Elt Ideal)) (x3 : RA3) (h3 : V (Proc.devRef .tc main_arg3) = x3) :
    StableHlo.after hostOps1 V (Proc.devRef .tc main_v46) = Cert.ReferenceIdeal.ReadQ.val_main_v46 (F := Ideal) x3 := by
  after_results
  rw [h3]
  unfold Cert.ReferenceIdeal.ReadQ.val_main_v46
  funext i
  exact congrFun (ValueIdx.shapeCast_row_eq_broadcastInDim (n := 128) (by decide) x3 _ _) i

/-! ## After region 2: the second layer's aggregation and bias row -/

set_option maxHeartbeats 2000000 in
theorem agg2_stage (V : Valuation τ sig (Elt Ideal)) (x0 : RA0) (x1 : RA1) (x2 : RA2) (x3 : RA3) (x4 : RA4)
    (h48 : V (Proc.devRef .tc main_v48) = Cert.ReferenceIdeal.ReadQ.val_main_v50 (F := Ideal) x0 x1 x2 x3 x4)
    (h5 : V (Proc.devRef .tc main_v5) = Cert.ReferenceIdeal.ReadQ.val_main_v5 (F := Ideal) x1)
    (h6 : V (Proc.devRef .tc main_v6) = Cert.ReferenceIdeal.ReadQ.val_main_v6 (F := Ideal) x1)
    (h31 : V (Proc.devRef .tc main_v31) = Cert.ReferenceIdeal.ReadQ.val_main_v31 (F := Ideal) x1) :
    StableHlo.after hostOps3 V (Proc.devRef .tc main_v61) = Cert.ReferenceIdeal.ReadQ.val_main_v63 (F := Ideal) x0 x1 x2 x3 x4 := by
  after_results
  rw [h48, h5, h6, h31]
  rfl

set_option maxHeartbeats 2000000 in
theorem bias2_row (V : Valuation τ sig (Elt Ideal)) (x5 : RA3) (h5 : V (Proc.devRef .tc main_arg5) = x5) :
    StableHlo.after hostOps3 V (Proc.devRef .tc main_v62) = Cert.ReferenceIdeal.ReadQ.val_main_v64 (F := Ideal) x5 := by
  after_results
  rw [h5]
  unfold Cert.ReferenceIdeal.ReadQ.val_main_v64
  funext i
  exact congrFun (ValueIdx.shapeCast_row_eq_broadcastInDim (n := 128) (by decide) x5 _ _) i

end Cert.KernelIdeal.Hand

end
-- ==== Proof.IdealStretchC.lean ====
/-
  The host stretches of the third layer and of the output layer, read against the reference's stages: the third
  layer's gather / scale / scatter-add and its bias row; then the three layers' features put side by side along the
  feature axis, and the output bias laid out as one 1×40 row (a reshape where the reference broadcasts the vector's axis
  to the row's second axis — the same array). Evaluated over an arbitrary valuation of the buffers, the values read
  named by hypotheses.
-/
import proofs.«164648_j74337293959433_1_alg».proof.Proof.Gen.KernelIdeal.Launch
import proofs.«164648_j74337293959433_1_alg».proof.Proof.Gen.KernelIdeal.Regions
import proofs.«164648_j74337293959433_1_alg».proof.Proof.IdealStretchTypes
import proofs.«164648_j74337293959433_1_alg».proof.Proof.LibRowOfVector
import Idealize.ShloMosaic.Lib.StableHlo.Run
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-! ## After region 4: the third layer's aggregation and bias row -/

set_option maxHeartbeats 2000000 in
theorem agg3_stage (V : Valuation τ sig (Elt Ideal)) (x0 : RA0) (x1 : RA1) (x2 : RA2) (x3 : RA3) (x4 : RA4) (x5 : RA3) (x6 : RA4)
    (h64 : V (Proc.devRef .tc main_v64) = Cert.ReferenceIdeal.ReadQ.val_main_v68 (F := Ideal) x0 x1 x2 x3 x4 x5 x6)
    (h5 : V (Proc.devRef .tc main_v5) = Cert.ReferenceIdeal.ReadQ.val_main_v5 (F := Ideal) x1)
    (h6 : V (Proc.devRef .tc main_v6) = Cert.ReferenceIdeal.ReadQ.val_main_v6 (F := Ideal) x1)
    (h31 : V (Proc.devRef .tc main_v31) = Cert.ReferenceIdeal.ReadQ.val_main_v31 (F := Ideal) x1) :
    StableHlo.after hostOps5 V (Proc.devRef .tc main_v77) = Cert.ReferenceIdeal.ReadQ.val_main_v81 (F := Ideal) x0 x1 x2 x3 x4 x5 x6 := by
  after_results
  rw [h64, h5, h6, h31]
  rfl

set_option maxHeartbeats 2000000 in
theorem bias3_row (V : Valuation τ sig (Elt Ideal)) (x7 : RA3) (h7 : V (Proc.devRef .tc main_arg7) = x7) :
    StableHlo.after hostOps5 V (Proc.devRef .tc main_v78) = Cert.ReferenceIdeal.ReadQ.val_main_v82 (F := Ideal) x7 := by
  after_results
  rw [h7]
  unfold Cert.ReferenceIdeal.ReadQ.val_main_v82
  funext i
  exact congrFun (ValueIdx.shapeCast_row_eq_broadcastInDim (n := 128) (by decide) x7 _ _) i

/-! ## After region 5: the three layers' features side by side, and the output bias row -/

set_option maxHeartbeats 2000000 in
/-- The concatenate, evaluated with its three operands named: the list of operands is part of the operation's own
    evidence, so the operands are put in by substitution rather than by rewriting. -/
theorem cat_eval (V : Valuation τ sig (Elt Ideal)) (y1 y2 y3 : S50000x128.Idx → Elt Ideal .f32)
    (h1 : V (Proc.devRef .tc main_v47) = y1) (h2 : V (Proc.devRef .tc main_v63) = y2) (h3 : V (Proc.devRef .tc main_v79) = y3) :
    StableHlo.after hostOps6 V (Proc.devRef .tc main_v80)
      = concatenate S50000x384 1 [⟨S50000x128, y1⟩, ⟨S50000x128, y2⟩, ⟨S50000x128, y3⟩] concatenates_S50000x128_S50000x128_S50000x128_S50000x384_d1 := by
  subst h1 h2 h3
  after_results
  rfl

theorem cat_stage (V : Valuation τ sig (Elt Ideal)) (x0 : RA0) (x1 : RA1) (x2 : RA2) (x3 : RA3) (x4 : RA4) (x5 : RA3) (x6 : RA4) (x7 : RA3)
    (h47 : V (Proc.devRef .tc main_v47) = Cert.ReferenceIdeal.ReadQ.val_main_v49 (F := Ideal) x0 x1 x2 x3)
    (h63 : V (Proc.devRef .tc main_v63) = Cert.ReferenceIdeal.ReadQ.val_main_v67 (F := Ideal) x0 x1 x2 x3 x4 x5)
    (h79 : V (Proc.devRef .tc main_v79) = Cert.ReferenceIdeal.ReadQ.val_main_v85 (F := Ideal) x0 x1 x2 x3 x4 x5 x6 x7) :
    StableHlo.after hostOps6 V (Proc.devRef .tc main_v80) = Cert.ReferenceIdeal.ReadQ.val_main_v86 (F := Ideal) x0 x1 x2 x3 x4 x5 x6 x7 :=
  (cat_eval V _ _ _ h47 h63 h79).trans rfl

set_option maxHeartbeats 2000000 in
theorem biasOut_row (V : Valuation τ sig (Elt Ideal)) (x9 : RA9) (h9 : V (Proc.devRef .tc main_arg9) = x9) :
    StableHlo.after hostOps6 V (Proc.devRef .tc main_v81) = Cert.ReferenceIdeal.ReadQ.val_main_v88 (F := Ideal) x9 := by
  after_results
  rw [h9]
  unfold Cert.ReferenceIdeal.ReadQ.val_main_v88
  funext i
  exact congrFun (ValueIdx.shapeCast_row_eq_broadcastInDim (n := 40) (by decide) x9 _ _) i

end Cert.KernelIdeal.Hand

end
-- ==== Proof.IdealBridge.lean ====
/-
  The idealized kernel program's result is the reference's last stage, at the extended reals.
  Boundary by boundary through @main's fourteen items: the three opening host stretches leave the index vectors row and
  col and the edge weights at the reference's stages of the same operations; region 0's array is the dense product
  x · W0, which is the reference's dot_general; the first layer's host stretch gathers, scales and scatter-adds exactly
  as the reference does, and lays the bias out as a row; region 1's array is max(agg + bias row, 0), the reference's
  add and relu; and so on through the second and third layers; the three layers' features are put side by side as
  in the reference; and region 6's array is their product with Wout plus the bias row, the reference's last
  dot_general and add. What a later item reads of an earlier boundary is carried there unchanged, because the items
  between write other buffers.
-/
import proofs.«164648_j74337293959433_1_alg».proof.Proof.IdealRun
import proofs.«164648_j74337293959433_1_alg».proof.Proof.IdealValue0
import proofs.«164648_j74337293959433_1_alg».proof.Proof.IdealValue1
import proofs.«164648_j74337293959433_1_alg».proof.Proof.IdealValue2
import proofs.«164648_j74337293959433_1_alg».proof.Proof.IdealValue3
import proofs.«164648_j74337293959433_1_alg».proof.Proof.IdealValue4
import proofs.«164648_j74337293959433_1_alg».proof.Proof.IdealValue5
import proofs.«164648_j74337293959433_1_alg».proof.Proof.IdealValue6
import proofs.«164648_j74337293959433_1_alg».proof.Proof.IdealStretchA
import proofs.«164648_j74337293959433_1_alg».proof.Proof.IdealStretchB
import proofs.«164648_j74337293959433_1_alg».proof.Proof.IdealStretchC

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- The launch contents of a buffer on core `c` (used at the ten arguments). -/
abbrev launchAt (r : Ref sig .tc) : Buf (Elt Ideal) ((c : Thread nD τ).loc r) := m ((c : Thread nD τ).loc r)

/-! ## What the items between two boundaries do not write is carried unchanged -/

theorem W3_launch (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
    (StableHlo.after_of_writes_sub hostOps0_1 _ hostOps0_1_writes h1).trans <|
      (StableHlo.after_of_writes_sub hostOps0 _ hostOps0_writes h0)

theorem W5_of_W3 (r : Ref sig .tc) (n32 : r ≠ main_v32) (h4 : r ∉ hostOps1_W) :
    W5 m c (Proc.devRef .tc r) = W3 m c (Proc.devRef .tc r) :=
  (StableHlo.after_of_writes_sub hostOps1 _ hostOps1_writes h4).trans (W4_kept m c r n32)

theorem W7_of_W5 (r : Ref sig .tc) (n47 : r ≠ main_v47) (n48 : r ≠ main_v48) :
    W7 m c (Proc.devRef .tc r) = W5 m c (Proc.devRef .tc r) :=
  (W7_kept m c r n48).trans (W6_kept m c r n47)

theorem W8_of_W7 (r : Ref sig .tc) (h7 : r ∉ hostOps3_W) : W8 m c (Proc.devRef .tc r) = W7 m c (Proc.devRef .tc r) :=
  StableHlo.after_of_writes_sub hostOps3 _ hostOps3_writes h7

theorem W10_of_W8 (r : Ref sig .tc) (n63 : r ≠ main_v63) (n64 : r ≠ main_v64) :
    W10 m c (Proc.devRef .tc r) = W8 m c (Proc.devRef .tc r) :=
  (W10_kept m c r n64).trans (W9_kept m c r n63)

theorem W11_of_W10 (r : Ref sig .tc) (h10 : r ∉ hostOps5_W) : W11 m c (Proc.devRef .tc r) = W10 m c (Proc.devRef .tc r) :=
  StableHlo.after_of_writes_sub hostOps5 _ hostOps5_writes h10

theorem W13_of_W12 (r : Ref sig .tc) (h12 : r ∉ hostOps6_W) : W13 m c (Proc.devRef .tc r) = W12 m c (Proc.devRef .tc r) :=
  StableHlo.after_of_writes_sub hostOps6 _ hostOps6_writes h12

/-- From region 0's entry to region 2's exit. -/
theorem W7_of_W3 (r : Ref sig .tc) (n32 : r ≠ main_v32) (h4 : r ∉ hostOps1_W) (n47 : r ≠ main_v47) (n48 : r ≠ main_v48) :
    W7 m c (Proc.devRef .tc r) = W3 m c (Proc.devRef .tc r) :=
  (W7_of_W5 m c r n47 n48).trans (W5_of_W3 m c r n32 h4)

/-- From region 0's entry to region 4's exit. -/
theorem W10_of_W3 (r : Ref sig .tc) (n32 : r ≠ main_v32) (h4 : r ∉ hostOps1_W) (n47 : r ≠ main_v47) (n48 : r ≠ main_v48)
    (h7 : r ∉ hostOps3_W) (n63 : r ≠ main_v63) (n64 : r ≠ main_v64) :
    W10 m c (Proc.devRef .tc r) = W3 m c (Proc.devRef .tc r) :=
  (W10_of_W8 m c r n63 n64).trans ((W8_of_W7 m c r h7).trans (W7_of_W3 m c r n32 h4 n47 n48))

/-- From region 0's entry to region 5's exit. -/
theorem W12_of_W3 (r : Ref sig .tc) (n32 : r ≠ main_v32) (h4 : r ∉ hostOps1_W) (n47 : r ≠ main_v47) (n48 : r ≠ main_v48)
    (h7 : r ∉ hostOps3_W) (n63 : r ≠ main_v63) (n64 : r ≠ main_v64) (h10 : r ∉ hostOps5_W) (n79 : r ≠ main_v79) :
    W12 m c (Proc.devRef .tc r) = W3 m c (Proc.devRef .tc r) :=
  (W12_kept m c r n79).trans ((W11_of_W10 m c r h10).trans (W10_of_W3 m c r n32 h4 n47 n48 h7 n63 n64))

/-! ## The opening stretches: row, col and the edge weights -/

theorem F3_row : W3 m c (Proc.devRef .tc main_v5) = Cert.ReferenceIdeal.ReadQ.val_main_v5 (F := Ideal) (launchAt m c main_arg1) :=
  (StableHlo.after_of_writes_sub hostOps0_2 _ hostOps0_2_writes (by decide)).trans <|
    (StableHlo.after_of_writes_sub hostOps0_1 _ hostOps0_1_writes (by decide)).trans <|
      open_row (W0 m c) (launchAt m c main_arg1) rfl

theorem F3_col : W3 m c (Proc.devRef .tc main_v6) = Cert.ReferenceIdeal.ReadQ.val_main_v6 (F := Ideal) (launchAt m c main_arg1) :=
  (StableHlo.after_of_writes_sub hostOps0_2 _ hostOps0_2_writes (by decide)).trans <|
    (StableHlo.after_of_writes_sub hostOps0_1 _ hostOps0_1_writes (by decide)).trans <|
      open_col (W0 m c) (launchAt m c main_arg1) rfl

theorem F2_dinv : W2 m c (Proc.devRef .tc main_v16) = Cert.ReferenceIdeal.ReadQ.val_main_v16 (F := Ideal) (launchAt m c main_arg1) :=
  where_dinv (W1 m c) (launchAt m c main_arg1) (open_pos (W0 m c) (launchAt m c main_arg1) rfl) (open_rsqrt (W0 m c) (launchAt m c main_arg1) rfl) (open_zero (W0 m c))

theorem F3_weight : W3 m c (Proc.devRef .tc main_v31) = Cert.ReferenceIdeal.ReadQ.val_main_v31 (F := Ideal) (launchAt m c main_arg1) :=
  edge_weight (W2 m c) (launchAt m c main_arg1)
    ((StableHlo.after_of_writes_sub hostOps0_1 _ hostOps0_1_writes (by decide)).trans (open_row (W0 m c) (launchAt m c main_arg1) rfl))
    ((StableHlo.after_of_writes_sub hostOps0_1 _ hostOps0_1_writes (by decide)).trans (open_col (W0 m c) (launchAt m c main_arg1) rfl))
    (F2_dinv m c)

/-! ## The first layer -/

theorem F4_h : W4 m c (Proc.devRef .tc main_v32) = Cert.ReferenceIdeal.ReadQ.val_main_v32 (F := Ideal) (launchAt m c main_arg0) (launchAt m c main_arg2) := by
  refine ((W4_arr m c 2).trans (arr0 (X3 m) c)).trans ?_
  rw [show X3 m c main_arg0 = (launchAt m c main_arg0) from W3_launch m c main_arg0 (by decide) (by decide) (by decide),
    show X3 m c main_arg2 = (launchAt m c main_arg2) from W3_launch m c main_arg2 (by decide) (by decide) (by decide)]
  rfl

theorem F5_agg : W5 m c (Proc.devRef .tc main_v45) = Cert.ReferenceIdeal.ReadQ.val_main_v45 (F := Ideal) (launchAt m c main_arg0) (launchAt m c main_arg1) (launchAt m c main_arg2) :=
  agg1_stage (W4 m c) (launchAt m c main_arg0) (launchAt m c main_arg1) (launchAt m c main_arg2) (F4_h m c)
    ((W4_kept m c main_v5 (by decide)).trans (F3_row m c))
    ((W4_kept m c main_v6 (by decide)).trans (F3_col m c))
    ((W4_kept m c main_v31 (by decide)).trans (F3_weight m c))

theorem F5_bias : W5 m c (Proc.devRef .tc main_v46) = Cert.ReferenceIdeal.ReadQ.val_main_v46 (F := Ideal) (launchAt m c main_arg3) :=
  bias1_row (W4 m c) (launchAt m c main_arg3) ((W4_kept m c main_arg3 (by decide)).trans (W3_launch m c main_arg3 (by decide) (by decide) (by decide)))

theorem F6_x : W6 m c (Proc.devRef .tc main_v47) = Cert.ReferenceIdeal.ReadQ.val_main_v49 (F := Ideal) (launchAt m c main_arg0) (launchAt m c main_arg1) (launchAt m c main_arg2) (launchAt m c main_arg3) := by
  refine ((W6_arr m c 2).trans (arr1 (X5 m) c)).trans ?_
  rw [show X5 m c main_v45 = _ from F5_agg m c, show X5 m c main_v46 = _ from F5_bias m c]
  rfl

/-! ## The second layer -/

theorem F7_h : W7 m c (Proc.devRef .tc main_v48) = Cert.ReferenceIdeal.ReadQ.val_main_v50 (F := Ideal) (launchAt m c main_arg0) (launchAt m c main_arg1) (launchAt m c main_arg2) (launchAt m c main_arg3) (launchAt m c main_arg4) := by
  refine ((W7_arr m c 2).trans (arr2 (X6 m) c)).trans ?_
  rw [show X6 m c main_v47 = _ from F6_x m c,
    show X6 m c main_arg4 = (launchAt m c main_arg4) from (W6_kept m c main_arg4 (by decide)).trans
      ((W5_of_W3 m c main_arg4 (by decide) (by decide)).trans (W3_launch m c main_arg4 (by decide) (by decide) (by decide)))]
  rfl

theorem F8_agg : W8 m c (Proc.devRef .tc main_v61) = Cert.ReferenceIdeal.ReadQ.val_main_v63 (F := Ideal) (launchAt m c main_arg0) (launchAt m c main_arg1) (launchAt m c main_arg2) (launchAt m c main_arg3) (launchAt m c main_arg4) :=
  agg2_stage (W7 m c) (launchAt m c main_arg0) (launchAt m c main_arg1) (launchAt m c main_arg2) (launchAt m c main_arg3) (launchAt m c main_arg4) (F7_h m c)
    ((W7_of_W3 m c main_v5 (by decide) (by decide) (by decide) (by decide)).trans (F3_row m c))
    ((W7_of_W3 m c main_v6 (by decide) (by decide) (by decide) (by decide)).trans (F3_col m c))
    ((W7_of_W3 m c main_v31 (by decide) (by decide) (by decide) (by decide)).trans (F3_weight m c))

theorem F8_bias : W8 m c (Proc.devRef .tc main_v62) = Cert.ReferenceIdeal.ReadQ.val_main_v64 (F := Ideal) (launchAt m c main_arg5) :=
  bias2_row (W7 m c) (launchAt m c main_arg5) ((W7_of_W3 m c main_arg5 (by decide) (by decide) (by decide) (by decide)).trans
    (W3_launch m c main_arg5 (by decide) (by decide) (by decide)))

theorem F9_x : W9 m c (Proc.devRef .tc main_v63) = Cert.ReferenceIdeal.ReadQ.val_main_v67 (F := Ideal) (launchAt m c main_arg0) (launchAt m c main_arg1) (launchAt m c main_arg2) (launchAt m c main_arg3) (launchAt m c main_arg4) (launchAt m c main_arg5) := by
  refine ((W9_arr m c 2).trans (arr3 (X8 m) c)).trans ?_
  rw [show X8 m c main_v61 = _ from F8_agg m c, show X8 m c main_v62 = _ from F8_bias m c]
  rfl

/-! ## The third layer -/

theorem F10_h : W10 m c (Proc.devRef .tc main_v64) = Cert.ReferenceIdeal.ReadQ.val_main_v68 (F := Ideal) (launchAt m c main_arg0) (launchAt m c main_arg1) (launchAt m c main_arg2) (launchAt m c main_arg3) (launchAt m c main_arg4) (launchAt m c main_arg5) (launchAt m c main_arg6) := by
  refine ((W10_arr m c 2).trans (arr4 (X9 m) c)).trans ?_
  rw [show X9 m c main_v63 = _ from F9_x m c,
    show X9 m c main_arg6 = (launchAt m c main_arg6) from (W9_kept m c main_arg6 (by decide)).trans ((W8_of_W7 m c main_arg6 (by decide)).trans
      ((W7_of_W3 m c main_arg6 (by decide) (by decide) (by decide) (by decide)).trans (W3_launch m c main_arg6 (by decide) (by decide) (by decide))))]
  rfl

theorem F11_agg : W11 m c (Proc.devRef .tc main_v77) = Cert.ReferenceIdeal.ReadQ.val_main_v81 (F := Ideal) (launchAt m c main_arg0) (launchAt m c main_arg1) (launchAt m c main_arg2) (launchAt m c main_arg3) (launchAt m c main_arg4) (launchAt m c main_arg5) (launchAt m c main_arg6) :=
  agg3_stage (W10 m c) (launchAt m c main_arg0) (launchAt m c main_arg1) (launchAt m c main_arg2) (launchAt m c main_arg3) (launchAt m c main_arg4) (launchAt m c main_arg5) (launchAt m c main_arg6) (F10_h m c)
    ((W10_of_W3 m c main_v5 (by decide) (by decide) (by decide) (by decide) (by decide) (by decide) (by decide)).trans (F3_row m c))
    ((W10_of_W3 m c main_v6 (by decide) (by decide) (by decide) (by decide) (by decide) (by decide) (by decide)).trans (F3_col m c))
    ((W10_of_W3 m c main_v31 (by decide) (by decide) (by decide) (by decide) (by decide) (by decide) (by decide)).trans (F3_weight m c))

theorem F11_bias : W11 m c (Proc.devRef .tc main_v78) = Cert.ReferenceIdeal.ReadQ.val_main_v82 (F := Ideal) (launchAt m c main_arg7) :=
  bias3_row (W10 m c) (launchAt m c main_arg7) ((W10_of_W3 m c main_arg7 (by decide) (by decide) (by decide) (by decide) (by decide) (by decide) (by decide)).trans
    (W3_launch m c main_arg7 (by decide) (by decide) (by decide)))

theorem F12_x : W12 m c (Proc.devRef .tc main_v79) = Cert.ReferenceIdeal.ReadQ.val_main_v85 (F := Ideal) (launchAt m c main_arg0) (launchAt m c main_arg1) (launchAt m c main_arg2) (launchAt m c main_arg3) (launchAt m c main_arg4) (launchAt m c main_arg5) (launchAt m c main_arg6) (launchAt m c main_arg7) := by
  refine ((W12_arr m c 2).trans (arr5 (X11 m) c)).trans ?_
  rw [show X11 m c main_v77 = _ from F11_agg m c, show X11 m c main_v78 = _ from F11_bias m c]
  rfl

/-! ## The output layer -/

/-- The first layer's features are still in place when the three are put side by side. -/
theorem F12_x1 : W12 m c (Proc.devRef .tc main_v47) = Cert.ReferenceIdeal.ReadQ.val_main_v49 (F := Ideal) (launchAt m c main_arg0) (launchAt m c main_arg1) (launchAt m c main_arg2) (launchAt m c main_arg3) :=
  (W12_kept m c main_v47 (by decide)).trans <| (W11_of_W10 m c main_v47 (by decide)).trans <|
    (W10_of_W8 m c main_v47 (by decide) (by decide)).trans <| (W8_of_W7 m c main_v47 (by decide)).trans <|
      (W7_kept m c main_v47 (by decide)).trans (F6_x m c)

/-- And the second layer's. -/
theorem F12_x2 : W12 m c (Proc.devRef .tc main_v63) = Cert.ReferenceIdeal.ReadQ.val_main_v67 (F := Ideal) (launchAt m c main_arg0) (launchAt m c main_arg1) (launchAt m c main_arg2) (launchAt m c main_arg3) (launchAt m c main_arg4) (launchAt m c main_arg5) :=
  (W12_kept m c main_v63 (by decide)).trans <| (W11_of_W10 m c main_v63 (by decide)).trans <|
    (W10_kept m c main_v63 (by decide)).trans (F9_x m c)

theorem F13_cat : W13 m c (Proc.devRef .tc main_v80) = Cert.ReferenceIdeal.ReadQ.val_main_v86 (F := Ideal) (launchAt m c main_arg0) (launchAt m c main_arg1) (launchAt m c main_arg2) (launchAt m c main_arg3) (launchAt m c main_arg4) (launchAt m c main_arg5) (launchAt m c main_arg6) (launchAt m c main_arg7) :=
  cat_stage (W12 m c) (launchAt m c main_arg0) (launchAt m c main_arg1) (launchAt m c main_arg2) (launchAt m c main_arg3) (launchAt m c main_arg4) (launchAt m c main_arg5) (launchAt m c main_arg6) (launchAt m c main_arg7) (F12_x1 m c) (F12_x2 m c) (F12_x m c)

theorem F13_bias : W13 m c (Proc.devRef .tc main_v81) = Cert.ReferenceIdeal.ReadQ.val_main_v88 (F := Ideal) (launchAt m c main_arg9) :=
  biasOut_row (W12 m c) (launchAt m c main_arg9) ((W12_of_W3 m c main_arg9 (by decide) (by decide) (by decide) (by decide) (by decide) (by decide) (by decide) (by decide) (by decide)).trans
    (W3_launch m c main_arg9 (by decide) (by decide) (by decide)))

/-- THE RESULT: at the end of @main the result buffer holds the reference's last stage of the launch arguments. -/
theorem result : W14 m c (Proc.devRef .tc main_v82)
    = Cert.ReferenceIdeal.ReadQ.val_main_v90 (F := Ideal) (launchAt m c main_arg0) (launchAt m c main_arg1) (launchAt m c main_arg2) (launchAt m c main_arg3) (launchAt m c main_arg4) (launchAt m c main_arg5) (launchAt m c main_arg6) (launchAt m c main_arg7) (launchAt m c main_arg8) (launchAt m c main_arg9) := by
  refine ((W14_arr m c 3).trans (arr6 (X13 m) c)).trans ?_
  rw [show X13 m c main_v80 = _ from F13_cat m c, show X13 m c main_v81 = _ from F13_bias m c,
    show X13 m c main_arg8 = (launchAt m c main_arg8) from (W13_of_W12 m c main_arg8 (by decide)).trans
      ((W12_of_W3 m c main_arg8 (by decide) (by decide) (by decide) (by decide) (by decide) (by decide) (by decide) (by decide) (by decide)).trans
        (W3_launch m c main_arg8 (by decide) (by decide) (by decide)))]
  rfl

end Cert.KernelIdeal.Hand

end
-- ==== Proof.LibHostRun.lean ====
/-
  Two general facts about a straight line of host operations.
  The contents after a concatenation of two lines are the contents after the second line, from the contents after the first.
  A two-operand concatenate is a function of its two operands' contents only: equal contents, operand by operand, give
  equal results (a congruence rule for the operand list, which is a list of shape-and-array pairs).
-/
import Idealize.ShloMosaic.Lib.StableHlo.Run

noncomputable section

namespace Idealize.ShloMosaic.StableHlo

open Idealize.ShloMosaic

/-- Running `l₁ ++ l₂` is running `l₁`, then `l₂`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A two-operand concatenate with equal operands' contents. -/
theorem concat2_congr {α : Type} {t s₁ s₂ : Shape} (ax : Fin t.rank) (a a' : s₁.Idx → α) (b b' : s₂.Idx → α) (h)
    (ha : a = a') (hb : b = b') :
    concatenate t ax [⟨s₁, a⟩, ⟨s₂, b⟩] h = concatenate t ax [⟨s₁, a'⟩, ⟨s₂, b'⟩] h := by subst ha hb; rfl

end Idealize.ShloMosaic.StableHlo

end
-- ==== Proof.RefRunOps.lean ====
/-
  The reference program's @main as its 117 host operations in order, cut into ten consecutive stretches c1 … c10
  (operations 1–21, 22–24, 25–43, 44–60, 61–66, 67–83, 84–89, 90–106, 107–112, 113–117), and the facts a run over the
  list needs: @main is the sequence of the ten stretches one after another, the signature scopes no buffer and no
  semaphore, and every operation only touches the TensorCore's buffers. The stretches are cut where few buffers are
  live: after the degree normalization's inputs, after the call that selects it, after the edge weights, and, in each
  of the three layers, after the scatter-add, after the bias-and-maximum, and at the end the concatenation, the last
  product and its bias.
-/
import proofs.«164648_j74337293959433_1_alg».proof.Proof.Gen.ReferenceIdeal
import proofs.«164648_j74337293959433_1_alg».proof.Proof.LibHostRun
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-! ## The operations, in ten stretches (a called function's operations stand in its call's place, spelt `TRef.…`) -/

abbrev c1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32) ]

abbrev c2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select ]

abbrev c3 : List (HloOp τ sig (Elt F)) :=
  [ nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v5 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v5 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v5 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

abbrev c4 : List (HloOp τ sig (Elt F)) :=
  [ binary main_arg0 main_arg2 main_v32 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v5 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

abbrev c5 : List (HloOp τ sig (Elt F)) :=
  [ unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v48) (TRef.of (T := ⟨S50000x128, .f32⟩) main_call1_v0) (TRef.of (T := ⟨S50000x128, .f32⟩) main_v49) maximumf ]

abbrev c6 : List (HloOp τ sig (Elt F)) :=
  [ binary main_v49 main_arg4 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v53 (broadcastInDim S850000 ![] bcast_S_S850000 : (⟨S_, .i32⟩ : BufTy).Contents (Elt F) → (⟨S850000, .i32⟩ : BufTy).Contents (Elt F)),
    binary main_v5 main_v53 main_v54 (addi : (⟨S850000, .i32⟩ : BufTy).Contents (Elt F) → (⟨S850000, .i32⟩ : BufTy).Contents (Elt F) → (⟨S850000, .i32⟩ : BufTy).Contents (Elt F)),
    ternary main_v52 main_v54 main_v5 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v55 main_v56 (broadcastInDim S850000x1 ![0] bcast_S850000_S850000x1_0 : (⟨S850000, .i32⟩ : BufTy).Contents (Elt F) → (⟨S850000x1, .i32⟩ : BufTy).Contents (Elt F)),
    binary main_v50 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v58 (broadcastInDim S850000x1 ![0] bcast_S850000_S850000x1_0 : (⟨S850000, .f32⟩ : BufTy).Contents (Elt F) → (⟨S850000x1, .f32⟩ : BufTy).Contents (Elt F)),
    unary main_v58 main_v59 (broadcastInDim S850000x128 ![0, 1] bcast_S850000x1_S850000x128_0_1 : (⟨S850000x1, .f32⟩ : BufTy).Contents (Elt F) → (⟨S850000x128, .f32⟩ : BufTy).Contents (Elt F)),
    binary main_v57 main_v59 main_v60 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v61 (broadcastInDim S50000x128 ![] bcast_S_S50000x128 : (⟨S_, .f32⟩ : BufTy).Contents (Elt F) → (⟨S50000x128, .f32⟩ : BufTy).Contents (Elt F)),
    unary main_v6 main_v62 (broadcastInDim S850000x1 ![0] bcast_S850000_S850000x1_0 : (⟨S850000, .i32⟩ : BufTy).Contents (Elt F) → (⟨S850000x1, .i32⟩ : BufTy).Contents (Elt F)),
    ternary main_v61 main_v62 main_v60 main_v63 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

abbrev c7 : List (HloOp τ sig (Elt F)) :=
  [ unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v66) (TRef.of (T := ⟨S50000x128, .f32⟩) main_call2_v0) (TRef.of (T := ⟨S50000x128, .f32⟩) main_v67) maximumf ]

abbrev c8 : List (HloOp τ sig (Elt F)) :=
  [ binary main_v67 main_arg6 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_13 (constantI S_ 32 0#32),
    unary main_c_13 main_v69 (broadcastInDim S850000 ![] bcast_S_S850000 : (⟨S_, .i32⟩ : BufTy).Contents (Elt F) → (⟨S850000, .i32⟩ : BufTy).Contents (Elt F)),
    binary main_v5 main_v69 main_v70 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v71 (broadcastInDim S850000 ![] bcast_S_S850000 : (⟨S_, .i32⟩ : BufTy).Contents (Elt F) → (⟨S850000, .i32⟩ : BufTy).Contents (Elt F)),
    binary main_v5 main_v71 main_v72 (addi : (⟨S850000, .i32⟩ : BufTy).Contents (Elt F) → (⟨S850000, .i32⟩ : BufTy).Contents (Elt F) → (⟨S850000, .i32⟩ : BufTy).Contents (Elt F)),
    ternary main_v70 main_v72 main_v5 main_v73 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v73 main_v74 (broadcastInDim S850000x1 ![0] bcast_S850000_S850000x1_0 : (⟨S850000, .i32⟩ : BufTy).Contents (Elt F) → (⟨S850000x1, .i32⟩ : BufTy).Contents (Elt F)),
    binary main_v68 main_v74 main_v75 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v76 (broadcastInDim S850000x1 ![0] bcast_S850000_S850000x1_0 : (⟨S850000, .f32⟩ : BufTy).Contents (Elt F) → (⟨S850000x1, .f32⟩ : BufTy).Contents (Elt F)),
    unary main_v76 main_v77 (broadcastInDim S850000x128 ![0, 1] bcast_S850000x1_S850000x128_0_1 : (⟨S850000x1, .f32⟩ : BufTy).Contents (Elt F) → (⟨S850000x128, .f32⟩ : BufTy).Contents (Elt F)),
    binary main_v75 main_v77 main_v78 (mulf : (⟨S850000x128, .f32⟩ : BufTy).Contents (Elt F) → (⟨S850000x128, .f32⟩ : BufTy).Contents (Elt F) → (⟨S850000x128, .f32⟩ : BufTy).Contents (Elt F)),
    nullary main_cst_15 (constant S_ .f32 0x00000000#32),
    unary main_cst_15 main_v79 (broadcastInDim S50000x128 ![] bcast_S_S50000x128 : (⟨S_, .f32⟩ : BufTy).Contents (Elt F) → (⟨S50000x128, .f32⟩ : BufTy).Contents (Elt F)),
    unary main_v6 main_v80 (broadcastInDim S850000x1 ![0] bcast_S850000_S850000x1_0 : (⟨S850000, .i32⟩ : BufTy).Contents (Elt F) → (⟨S850000x1, .i32⟩ : BufTy).Contents (Elt F)),
    ternary main_v79 main_v80 main_v78 main_v81 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

abbrev c9 : List (HloOp τ sig (Elt F)) :=
  [ unary main_arg7 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v84) (TRef.of (T := ⟨S50000x128, .f32⟩) main_call3_v0) (TRef.of (T := ⟨S50000x128, .f32⟩) main_v85) maximumf ]

abbrev c10 : List (HloOp τ sig (Elt F)) :=
  [ nary ![main_v49, main_v67, main_v85] main_v86 (fun u => concatenate S50000x384 1 [⟨S50000x128, u 0⟩, ⟨S50000x128, u 1⟩, ⟨S50000x128, u 2⟩] concatenates_S50000x128_S50000x128_S50000x128_S50000x384_d1),
    binary main_v86 main_arg8 main_v87 ((fun l r => Host.dotGeneral dot_S50000x384_S384x40_S50000x40_1_0_0_1_n_n none l r) : (⟨S50000x384, .f32⟩ : BufTy).Contents (Elt F) → (⟨S384x40, .f32⟩ : BufTy).Contents (Elt F) → (⟨S50000x40, .f32⟩ : BufTy).Contents (Elt F)),
    unary main_arg9 main_v88 (broadcastInDim S1x40 ![1] bcast_S40_S1x40_1 : (⟨S40, .f32⟩ : BufTy).Contents (Elt F) → (⟨S1x40, .f32⟩ : BufTy).Contents (Elt F)),
    unary main_v88 main_v89 (broadcastInDim S50000x40 ![0, 1] bcast_S1x40_S50000x40_0_1 : (⟨S1x40, .f32⟩ : BufTy).Contents (Elt F) → (⟨S50000x40, .f32⟩ : BufTy).Contents (Elt F)),
    binary main_v87 main_v89 main_v90 (addf : (⟨S50000x40, .f32⟩ : BufTy).Contents (Elt F) → (⟨S50000x40, .f32⟩ : BufTy).Contents (Elt F) → (⟨S50000x40, .f32⟩ : BufTy).Contents (Elt F)) ]

/-- @main's 117 operations, in order. -/
abbrev ops : List (HloOp τ sig (Elt F)) := c1 ++ (c2 ++ (c3 ++ (c4 ++ (c5 ++ (c6 ++ (c7 ++ (c8 ++ (c9 ++ c10))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## Every operation only touches the TensorCore's buffers -/

theorem c1_sub : (c1 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub ..,
    nullary_bufs_sub .., unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., unary_bufs_sub .., nullary_bufs_sub ..⟩
theorem c2_sub : (c2 : List (HloOp τ sig (Elt F))).Forall fun op => op.bufs ⊆ tcRefs τ sig :=
  ⟨unary_bufs_sub .., unary_bufs_sub .., ternary_bufs_sub ..⟩
theorem c3_sub : (c3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub ..⟩
theorem c4_sub : (c4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub .., nullary_bufs_sub ..,
    unary_bufs_sub .., unary_bufs_sub .., ternary_bufs_sub ..⟩
theorem c5_sub : (c5 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem c6_sub : (c6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub .., nullary_bufs_sub ..,
    unary_bufs_sub .., unary_bufs_sub .., ternary_bufs_sub ..⟩
theorem c7_sub : (c7 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem c8_sub : (c8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub .., nullary_bufs_sub ..,
    unary_bufs_sub .., unary_bufs_sub .., ternary_bufs_sub ..⟩
theorem c9_sub : (c9 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem c10_sub : (c10 : List (HloOp τ sig (Elt F))).Forall fun op => op.bufs ⊆ tcRefs τ sig :=
  ⟨nary_bufs_sub .., binary_bufs_sub .., unary_bufs_sub .., unary_bufs_sub .., binary_bufs_sub ..⟩

/-- A property of every member of two lists is a property of every member of their concatenation. -/
theorem forall_append_of {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append_of c1_sub (forall_append_of c2_sub (forall_append_of c3_sub (forall_append_of c4_sub (forall_append_of c5_sub
    (forall_append_of c6_sub (forall_append_of c7_sub (forall_append_of c8_sub (forall_append_of c9_sub c10_sub))))))))

/-- The contents after all the operations are the contents after the ten stretches one after another. -/
theorem after_ops (V : Valuation τ sig (Elt F)) :
    after ops V = after c10 (after c9 (after c8 (after c7 (after c6 (after c5 (after c4 (after c3 (after c2 (after c1 V))))))))) := by
  show after (c1 ++ (c2 ++ (c3 ++ (c4 ++ (c5 ++ (c6 ++ (c7 ++ (c8 ++ (c9 ++ c10))))))))) V = _
  simp only [after_append]

end Cert.ReferenceIdeal.Staged

end
-- ==== Proof.RefRunStaged.lean ====
/-
  The reference's run, read stage by stage. The 117 host operations are evaluated one stretch at a time over an
  arbitrary valuation: each stretch's live results are the reference's stages (the functions val_main_vN of the
  arguments) given that the buffers the stretch reads hold the earlier stages, and a stretch leaves every buffer it does
  not write as it was. Chaining the ten stretches from the launch contents gives the result buffer at the last stage of
  the ten arguments, and the arguments unchanged; the run over the operation list then says so of every final state.
  The buffers carried from stretch to stretch are the two edge lists with the self loops (main_v5, main_v6), the edge
  weights (main_v31), the current layer's input, and the three layers' outputs kept for the concatenation.
-/
import proofs.«164648_j74337293959433_1_alg».proof.Proof.RefRunOps
import proofs.«164648_j74337293959433_1_alg».proof.Proof.RefReadQ
import proofs.«164648_j74337293959433_1_alg».proof.Proof.LibHostRun
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

open Cert.ReferenceIdeal.ReadQ

/-! ## What each stretch writes, and so what it leaves alone -/

abbrev W1 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
abbrev W2 : List (Ref sig .tc) := [main_call0_v0, main_call0_v1, main_v16]
abbrev W3 : List (Ref sig .tc) := [main_c, main_v17, main_v18, main_c_4, main_v19, main_v20, main_v21, main_v22, main_v23, main_c_5, main_v24, main_v25, main_c_6, main_v26, main_v27, main_v28, main_v29, main_v30, main_v31]
abbrev W4 : List (Ref sig .tc) := [main_v32, main_c_7, main_v33, main_v34, main_c_8, main_v35, main_v36, main_v37, main_v38, main_v39, main_v40, main_v41, main_v42, main_cst_9, main_v43, main_v44, main_v45]
abbrev W5 : List (Ref sig .tc) := [main_v46, main_v47, main_v48, main_call1_cst, main_call1_v0, main_v49]
abbrev W6 : List (Ref sig .tc) := [main_v50, main_c_10, main_v51, main_v52, main_c_11, main_v53, main_v54, main_v55, main_v56, main_v57, main_v58, main_v59, main_v60, main_cst_12, main_v61, main_v62, main_v63]
abbrev W7 : List (Ref sig .tc) := [main_v64, main_v65, main_v66, main_call2_cst, main_call2_v0, main_v67]
abbrev W8 : List (Ref sig .tc) := [main_v68, main_c_13, main_v69, main_v70, main_c_14, main_v71, main_v72, main_v73, main_v74, main_v75, main_v76, main_v77, main_v78, main_cst_15, main_v79, main_v80, main_v81]
abbrev W9 : List (Ref sig .tc) := [main_v82, main_v83, main_v84, main_call3_cst, main_call3_v0, main_v85]
abbrev W10 : List (Ref sig .tc) := [main_v86, main_v87, main_v88, main_v89, main_v90]

theorem c1_writes : (c1 : List (HloOp τ sig (Elt F))).Forall fun op => op.writes ⊆ (W1.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c2_writes : (c2 : List (HloOp τ sig (Elt F))).Forall fun op => op.writes ⊆ (W2.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c3_writes : (c3 : List (HloOp τ sig (Elt F))).Forall fun op => op.writes ⊆ (W3.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c4_writes : (c4 : List (HloOp τ sig (Elt F))).Forall fun op => op.writes ⊆ (W4.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c5_writes : (c5 : List (HloOp τ sig (Elt F))).Forall fun op => op.writes ⊆ (W5.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c6_writes : (c6 : List (HloOp τ sig (Elt F))).Forall fun op => op.writes ⊆ (W6.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c7_writes : (c7 : List (HloOp τ sig (Elt F))).Forall fun op => op.writes ⊆ (W7.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c8_writes : (c8 : List (HloOp τ sig (Elt F))).Forall fun op => op.writes ⊆ (W8.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c9_writes : (c9 : List (HloOp τ sig (Elt F))).Forall fun op => op.writes ⊆ (W9.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)
theorem c10_writes : (c10 : List (HloOp τ sig (Elt F))).Forall fun op => op.writes ⊆ (W10.map (Proc.devRef (τ := τ) .tc)).toFinset := by
  simp only [List.Forall, nullary_writes, unary_writes, binary_writes, ternary_writes, reshape_writes, nary_writes, Finset.singleton_subset_iff, List.mem_toFinset]
  constructorm* _ ∧ _ <;> exact List.mem_map_of_mem (by decide)

/-! ## The ten arguments are never written -/

/-- The valuation holds the ten arguments x0 … x9. -/
structure Args (V : Valuation τ sig (Elt F))
    (x0 : (⟨S50000x256, .f32⟩ : BufTy).Contents (Elt F)) (x1 : (⟨S2x800000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x128, .f32⟩ : BufTy).Contents (Elt F)) (x7 : (⟨S128, .f32⟩ : BufTy).Contents (Elt F))
    (x8 : (⟨S384x40, .f32⟩ : BufTy).Contents (Elt F)) (x9 : (⟨S40, .f32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9

/-- A stretch that writes none of the arguments leaves them as they were. -/
theorem Args.after (l : List (HloOp τ sig (Elt F))) (W : List (Ref sig .tc))
    (hW : l.Forall fun op => op.writes ⊆ (W.map (Proc.devRef (τ := τ) .tc)).toFinset)
    (hA : ∀ r ∈ ([main_arg0, main_arg1, main_arg2, main_arg3, main_arg4, main_arg5, main_arg6, main_arg7, main_arg8, main_arg9] : List (Ref sig .tc)), r ∉ W)
    {V : Valuation τ sig (Elt F)} {x0 x1 x2 x3 x4 x5 x6 x7 x8 x9} (h : Args V x0 x1 x2 x3 x4 x5 x6 x7 x8 x9) :
    Args (StableHlo.after l V) x0 x1 x2 x3 x4 x5 x6 x7 x8 x9 :=
  ⟨(after_of_writes_sub l V hW (hA main_arg0 (by decide))).trans h.a0, (after_of_writes_sub l V hW (hA main_arg1 (by decide))).trans h.a1,
    (after_of_writes_sub l V hW (hA main_arg2 (by decide))).trans h.a2, (after_of_writes_sub l V hW (hA main_arg3 (by decide))).trans h.a3,
    (after_of_writes_sub l V hW (hA main_arg4 (by decide))).trans h.a4, (after_of_writes_sub l V hW (hA main_arg5 (by decide))).trans h.a5,
    (after_of_writes_sub l V hW (hA main_arg6 (by decide))).trans h.a6, (after_of_writes_sub l V hW (hA main_arg7 (by decide))).trans h.a7,
    (after_of_writes_sub l V hW (hA main_arg8 (by decide))).trans h.a8, (after_of_writes_sub l V hW (hA main_arg9 (by decide))).trans h.a9⟩

/-! ## Each stretch's live results, as the stages of the reference -/

variable (V : Valuation τ sig (Elt F))
variable (x0 : (⟨S50000x256, .f32⟩ : BufTy).Contents (Elt F)) (x1 : (⟨S2x800000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x128, .f32⟩ : BufTy).Contents (Elt F)) (x7 : (⟨S128, .f32⟩ : BufTy).Contents (Elt F))
    (x8 : (⟨S384x40, .f32⟩ : BufTy).Contents (Elt F)) (x9 : (⟨S40, .f32⟩ : BufTy).Contents (Elt F))

-- operations 1–21: the edge lists with the self loops, the degrees, their comparison with zero and inverse square root
theorem s1_v5 (h1 : V (Proc.devRef .tc main_arg1) = x1) : after c1 V (Proc.devRef .tc main_v5) = val_main_v5 (F := F) x1 := by
  subst h1; after_results; rfl
theorem s1_v6 (h1 : V (Proc.devRef .tc main_arg1) = x1) : after c1 V (Proc.devRef .tc main_v6) = val_main_v6 (F := F) x1 := by
  subst h1; after_results; rfl
theorem s1_v12 (h1 : V (Proc.devRef .tc main_arg1) = x1) : after c1 V (Proc.devRef .tc main_v12) = val_main_v12 (F := F) x1 := by
  subst h1; after_results; rfl
theorem s1_v15 (h1 : V (Proc.devRef .tc main_arg1) = x1) : after c1 V (Proc.devRef .tc main_v15) = val_main_v15 (F := F) x1 := by
  subst h1; after_results; rfl
theorem s1_cst3 : after c1 V (Proc.devRef .tc main_cst_3) = val_main_cst_3 (F := F) := by
  after_results; rfl

-- operations 22–24: the called selection
theorem s2_v16 (h12 : V (Proc.devRef .tc main_v12) = val_main_v12 (F := F) x1) (h15 : V (Proc.devRef .tc main_v15) = val_main_v15 (F := F) x1)
    (h3 : V (Proc.devRef .tc main_cst_3) = val_main_cst_3 (F := F)) :
    after c2 V (Proc.devRef .tc main_v16) = val_main_v16 (F := F) x1 := by
  after_results; rw [h12, h15, h3]; rfl

-- operations 25–43: the edge weights
theorem s3_v31 (h5 : V (Proc.devRef .tc main_v5) = val_main_v5 (F := F) x1) (h6 : V (Proc.devRef .tc main_v6) = val_main_v6 (F := F) x1)
    (h16 : V (Proc.devRef .tc main_v16) = val_main_v16 (F := F) x1) :
    after c3 V (Proc.devRef .tc main_v31) = val_main_v31 (F := F) x1 := by
  after_results_simp; rw [h5, h6, h16]; rfl

-- operations 44–60: the first layer's product, gather, scaling and scatter-add
theorem s4_v45 (h0 : V (Proc.devRef .tc main_arg0) = x0) (h2 : V (Proc.devRef .tc main_arg2) = x2)
    (h5 : V (Proc.devRef .tc main_v5) = val_main_v5 (F := F) x1) (h6 : V (Proc.devRef .tc main_v6) = val_main_v6 (F := F) x1)
    (h31 : V (Proc.devRef .tc main_v31) = val_main_v31 (F := F) x1) :
    after c4 V (Proc.devRef .tc main_v45) = val_main_v45 (F := F) x0 x1 x2 := by
  after_results_simp; rw [h0, h2, h5, h6, h31]; rfl

-- operations 61–66: the first layer's bias and maximum with zero
theorem s5_v49 (h3 : V (Proc.devRef .tc main_arg3) = x3) (h45 : V (Proc.devRef .tc main_v45) = val_main_v45 (F := F) x0 x1 x2) :
    after c5 V (Proc.devRef .tc main_v49) = val_main_v49 (F := F) x0 x1 x2 x3 := by
  after_results; rw [h3, h45]; rfl

-- operations 67–83: the second layer's product, gather, scaling and scatter-add
theorem s6_v63 (h4 : V (Proc.devRef .tc main_arg4) = x4) (h49 : V (Proc.devRef .tc main_v49) = val_main_v49 (F := F) x0 x1 x2 x3)
    (h5 : V (Proc.devRef .tc main_v5) = val_main_v5 (F := F) x1) (h6 : V (Proc.devRef .tc main_v6) = val_main_v6 (F := F) x1)
    (h31 : V (Proc.devRef .tc main_v31) = val_main_v31 (F := F) x1) :
    after c6 V (Proc.devRef .tc main_v63) = val_main_v63 (F := F) x0 x1 x2 x3 x4 := by
  after_results_simp; rw [h4, h49, h5, h6, h31]; rfl

-- operations 84–89: the second layer's bias and maximum with zero
theorem s7_v67 (h5a : V (Proc.devRef .tc main_arg5) = x5) (h63 : V (Proc.devRef .tc main_v63) = val_main_v63 (F := F) x0 x1 x2 x3 x4) :
    after c7 V (Proc.devRef .tc main_v67) = val_main_v67 (F := F) x0 x1 x2 x3 x4 x5 := by
  after_results; rw [h5a, h63]; rfl

-- operations 90–106: the third layer's product, gather, scaling and scatter-add
theorem s8_v81 (h6a : V (Proc.devRef .tc main_arg6) = x6) (h67 : V (Proc.devRef .tc main_v67) = val_main_v67 (F := F) x0 x1 x2 x3 x4 x5)
    (h5 : V (Proc.devRef .tc main_v5) = val_main_v5 (F := F) x1) (h6 : V (Proc.devRef .tc main_v6) = val_main_v6 (F := F) x1)
    (h31 : V (Proc.devRef .tc main_v31) = val_main_v31 (F := F) x1) :
    after c8 V (Proc.devRef .tc main_v81) = val_main_v81 (F := F) x0 x1 x2 x3 x4 x5 x6 := by
  after_results_simp; rw [h6a, h67, h5, h6, h31]; rfl

-- operations 107–112: the third layer's bias and maximum with zero
theorem s9_v85 (h7 : V (Proc.devRef .tc main_arg7) = x7) (h81 : V (Proc.devRef .tc main_v81) = val_main_v81 (F := F) x0 x1 x2 x3 x4 x5 x6) :
    after c9 V (Proc.devRef .tc main_v85) = val_main_v85 (F := F) x0 x1 x2 x3 x4 x5 x6 x7 := by
  after_results; rw [h7, h81]; rfl

-- operations 113–117: the three layers side by side, the last product and its bias; the concatenation's operands named by
-- variables, since its evidence depends on the operand list
theorem s10_of (y49 y67 y85 : (⟨S50000x128, .f32⟩ : BufTy).Contents (Elt F))
    (h49 : V (Proc.devRef .tc main_v49) = y49) (h67 : V (Proc.devRef .tc main_v67) = y67) (h85 : V (Proc.devRef .tc main_v85) = y85)
    (h8 : V (Proc.devRef .tc main_arg8) = x8) (h9 : V (Proc.devRef .tc main_arg9) = x9) :
    after c10 V (Proc.devRef .tc main_v90)
      = addf (Host.dotGeneral dot_S50000x384_S384x40_S50000x40_1_0_0_1_n_n none
          (concatenate S50000x384 1 [⟨S50000x128, y49⟩, ⟨S50000x128, y67⟩, ⟨S50000x128, y85⟩] concatenates_S50000x128_S50000x128_S50000x128_S50000x384_d1) x8)
        (broadcastInDim S50000x40 ![0, 1] bcast_S1x40_S50000x40_0_1 (broadcastInDim S1x40 ![1] bcast_S40_S1x40_1 x9)) := by
  subst h49 h67 h85 h8 h9
  after_results
  rfl
theorem s10_v90 (h49 : V (Proc.devRef .tc main_v49) = val_main_v49 (F := F) x0 x1 x2 x3)
    (h67 : V (Proc.devRef .tc main_v67) = val_main_v67 (F := F) x0 x1 x2 x3 x4 x5)
    (h85 : V (Proc.devRef .tc main_v85) = val_main_v85 (F := F) x0 x1 x2 x3 x4 x5 x6 x7)
    (h8 : V (Proc.devRef .tc main_arg8) = x8) (h9 : V (Proc.devRef .tc main_arg9) = x9) :
    after c10 V (Proc.devRef .tc main_v90) = val_main_v90 (F := F) x0 x1 x2 x3 x4 x5 x6 x7 x8 x9 :=
  (s10_of V x8 x9 _ _ _ h49 h67 h85 h8 h9).trans rfl

/-! ## The ten stretches chained -/

/-- The arguments after all the operations are the arguments. -/
theorem after_ops_args (h : Args V x0 x1 x2 x3 x4 x5 x6 x7 x8 x9) : Args (after ops V) x0 x1 x2 x3 x4 x5 x6 x7 x8 x9 := by
  rw [after_ops]
  exact Args.after c10 W10 c10_writes (by decide) (Args.after c9 W9 c9_writes (by decide) (Args.after c8 W8 c8_writes (by decide)
    (Args.after c7 W7 c7_writes (by decide) (Args.after c6 W6 c6_writes (by decide) (Args.after c5 W5 c5_writes (by decide)
    (Args.after c4 W4 c4_writes (by decide) (Args.after c3 W3 c3_writes (by decide) (Args.after c2 W2 c2_writes (by decide)
    (Args.after c1 W1 c1_writes (by decide) h)))))))))

/-- The result buffer after all the operations is the last stage of the ten arguments. -/
theorem after_ops_v90 (h : Args V x0 x1 x2 x3 x4 x5 x6 x7 x8 x9) :
    after ops V (Proc.devRef .tc main_v90) = val_main_v90 (F := F) x0 x1 x2 x3 x4 x5 x6 x7 x8 x9 := by
  rw [after_ops]
  have A1 := Args.after c1 W1 c1_writes (by decide) h
  have A2 := Args.after c2 W2 c2_writes (by decide) A1
  have A3 := Args.after c3 W3 c3_writes (by decide) A2
  have A4 := Args.after c4 W4 c4_writes (by decide) A3
  have A5 := Args.after c5 W5 c5_writes (by decide) A4
  have A6 := Args.after c6 W6 c6_writes (by decide) A5
  have A7 := Args.after c7 W7 c7_writes (by decide) A6
  have A8 := Args.after c8 W8 c8_writes (by decide) A7
  have A9 := Args.after c9 W9 c9_writes (by decide) A8
  -- stretch 1
  have v5_1 := s1_v5 V x1 h.a1
  have v6_1 := s1_v6 V x1 h.a1
  have v12_1 := s1_v12 V x1 h.a1
  have v15_1 := s1_v15 V x1 h.a1
  have k3_1 := s1_cst3 V
  -- stretch 2
  have v16_2 := s2_v16 _ x1 v12_1 v15_1 k3_1
  have v5_2 := (after_of_writes_sub c2 _ c2_writes (r := main_v5) (by decide)).trans v5_1
  have v6_2 := (after_of_writes_sub c2 _ c2_writes (r := main_v6) (by decide)).trans v6_1
  -- stretch 3
  have v31_3 := s3_v31 _ x1 v5_2 v6_2 v16_2
  have v5_3 := (after_of_writes_sub c3 _ c3_writes (r := main_v5) (by decide)).trans v5_2
  have v6_3 := (after_of_writes_sub c3 _ c3_writes (r := main_v6) (by decide)).trans v6_2
  -- stretch 4
  have v45_4 := s4_v45 _ x0 x1 x2 A3.a0 A3.a2 v5_3 v6_3 v31_3
  have v5_4 := (after_of_writes_sub c4 _ c4_writes (r := main_v5) (by decide)).trans v5_3
  have v6_4 := (after_of_writes_sub c4 _ c4_writes (r := main_v6) (by decide)).trans v6_3
  have v31_4 := (after_of_writes_sub c4 _ c4_writes (r := main_v31) (by decide)).trans v31_3
  -- stretch 5
  have v49_5 := s5_v49 _ x0 x1 x2 x3 A4.a3 v45_4
  have v5_5 := (after_of_writes_sub c5 _ c5_writes (r := main_v5) (by decide)).trans v5_4
  have v6_5 := (after_of_writes_sub c5 _ c5_writes (r := main_v6) (by decide)).trans v6_4
  have v31_5 := (after_of_writes_sub c5 _ c5_writes (r := main_v31) (by decide)).trans v31_4
  -- stretch 6
  have v63_6 := s6_v63 _ x0 x1 x2 x3 x4 A5.a4 v49_5 v5_5 v6_5 v31_5
  have v49_6 := (after_of_writes_sub c6 _ c6_writes (r := main_v49) (by decide)).trans v49_5
  have v5_6 := (after_of_writes_sub c6 _ c6_writes (r := main_v5) (by decide)).trans v5_5
  have v6_6 := (after_of_writes_sub c6 _ c6_writes (r := main_v6) (by decide)).trans v6_5
  have v31_6 := (after_of_writes_sub c6 _ c6_writes (r := main_v31) (by decide)).trans v31_5
  -- stretch 7
  have v67_7 := s7_v67 _ x0 x1 x2 x3 x4 x5 A6.a5 v63_6
  have v49_7 := (after_of_writes_sub c7 _ c7_writes (r := main_v49) (by decide)).trans v49_6
  have v5_7 := (after_of_writes_sub c7 _ c7_writes (r := main_v5) (by decide)).trans v5_6
  have v6_7 := (after_of_writes_sub c7 _ c7_writes (r := main_v6) (by decide)).trans v6_6
  have v31_7 := (after_of_writes_sub c7 _ c7_writes (r := main_v31) (by decide)).trans v31_6
  -- stretch 8
  have v81_8 := s8_v81 _ x0 x1 x2 x3 x4 x5 x6 A7.a6 v67_7 v5_7 v6_7 v31_7
  have v49_8 := (after_of_writes_sub c8 _ c8_writes (r := main_v49) (by decide)).trans v49_7
  have v67_8 := (after_of_writes_sub c8 _ c8_writes (r := main_v67) (by decide)).trans v67_7
  -- stretch 9
  have v85_9 := s9_v85 _ x0 x1 x2 x3 x4 x5 x6 x7 A8.a7 v81_8
  have v49_9 := (after_of_writes_sub c9 _ c9_writes (r := main_v49) (by decide)).trans v49_8
  have v67_9 := (after_of_writes_sub c9 _ c9_writes (r := main_v67) (by decide)).trans v67_8
  -- stretch 10
  exact s10_v90 _ x0 x1 x2 x3 x4 x5 x6 x7 x8 x9 v49_9 v67_9 v85_9 A9.a8 A9.a9

/-! ## The run -/

/-- On every device, for any float values, from any memory with zero counters: every weakly fair execution of @main
    terminates with the result at the last stage of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v90)
          = val_main_v90 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      have hA : Args (launchContents m c) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) :=
        ⟨rfl, rfl, rfl, rfl, rfl, rfl, rfl, rfl, rfl, rfl⟩
      have hB := after_ops_args _ _ _ _ _ _ _ _ _ _ _ hA
      exact ⟨(h c main_v90).trans (after_ops_v90 _ _ _ _ _ _ _ _ _ _ _ hA), (h c main_arg0).trans hB.a0, (h c main_arg1).trans hB.a1,
        (h c main_arg2).trans hB.a2, (h c main_arg3).trans hB.a3, (h c main_arg4).trans hB.a4, (h c main_arg5).trans hB.a5,
        (h c main_arg6).trans hB.a6, (h c main_arg7).trans hB.a7, (h c main_arg8).trans hB.a8, (h c main_arg9).trans hB.a9⟩)
    (run_seq scopedRefs_eq scopedSems_eq defs main (fun _ => ops) main_eq (fun _ => ops_sub) m ρ)

end Cert.ReferenceIdeal.Staged

end
-- ==== Proof.lean ====
/-
  A three-layer graph convolution with the layers' features concatenated and a final linear layer, against its
  plain reference, as extended reals.

  Both programs start from the edge list: the source and target indices with a self loop appended for every node,
  each node's degree as a scatter-add of ones along the targets, its inverse square root (zero where the degree is
  zero), and the weight of an edge as the product of those at its two ends. A layer maps node features x to
  max(A · (x · W) + b, 0), where A · h gathers the rows of h at the source indices, scales each by its edge's weight
  and scatter-adds them along the target indices. The three layers' outputs are put side by side and multiplied by
  Wout, and bout is added.

  The kernel program computes the dense products x · W, the maps max(· + b, 0) and the last product-plus-bias in
  seven tiled kernel regions — 25 row blocks of 2000 nodes each — and everything else on the host, by the same
  operations as the reference. A region's body reads its input blocks whole and overwrites its output block whole, so
  a region leaves its input arrays as found and its output array is one whole-array operation of its inputs: the 25
  row blocks of a product are the product's rows (a row of x · W needs that row of x and all of W; rounding the
  operands to a shorter format on the way into the product is the identity on the extended reals), and the blocks of
  max(a + b, 0) are its rows. With every region replaced by that operation the kernel program's host chain is the
  reference's, operation for operation, except that it lays a bias vector out as a 1 × n row by a reshape where the
  reference broadcasts the vector's axis to the row's second axis — the same array. No law of arithmetic is needed
  beyond reading a product as a sum over the inner index on both sides; finiteness of the inputs is not used.

  The frames: the kernel program, as printed and idealized, is run item by item — a host stretch applies its
  operations, a region is launched over its grid —, every weakly fair execution terminates without a fault, and a
  buffer no item writes, each argument among them, ends holding its launch contents. The reference is a straight line
  of host operations, evaluated in ten stretches against the same staged functions. The idealization rewrote nothing,
  so there is nothing to preserve.
-/
import proofs.«164648_j74337293959433_1_alg».proof.Defs
import proofs.«164648_j74337293959433_1_alg».proof.Proof.Gen.Kernel
import proofs.«164648_j74337293959433_1_alg».proof.Proof.Gen.KernelIdeal
import proofs.«164648_j74337293959433_1_alg».proof.Proof.Gen.ReferenceIdeal
import proofs.«164648_j74337293959433_1_alg».proof.Proof.Gen.Pre_finite_inputs
import proofs.«164648_j74337293959433_1_alg».proof.Proof.WordRun
import proofs.«164648_j74337293959433_1_alg».proof.Proof.IdealBridge
import proofs.«164648_j74337293959433_1_alg».proof.Proof.RefRunStaged
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- The idealization rewrote no operation. -/
theorem preserves : Cert.preserves_Kernel_KernelIdeal := trivial

/-- From memories that agree on the arguments both idealized programs end with the same result array: the kernel
    program's result buffer holds the reference's last stage of the kernel's arguments, the reference's holds that
    stage of its own, and the arguments agree. -/
theorem algebraic : Cert.algebraic_KernelIdeal_ReferenceIdeal := by
  intro m ρ m' ρ' _ hagree
  refine ⟨fun c => Cert.KernelIdeal.Hand.W14 (F := Ideal) m c (Proc.devRef .tc Cert.KernelIdeal.main_v82), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v82 (by decide)),
      (h c _ (Cert.KernelIdeal.Hand.mem_uc Cert.KernelIdeal.main_arg0 (by decide))).trans (Cert.KernelIdeal.Hand.W14_main_arg0 m c),
      (h c _ (Cert.KernelIdeal.Hand.mem_uc Cert.KernelIdeal.main_arg1 (by decide))).trans (Cert.KernelIdeal.Hand.W14_main_arg1 m c),
      (h c _ (Cert.KernelIdeal.Hand.mem_uc Cert.KernelIdeal.main_arg2 (by decide))).trans (Cert.KernelIdeal.Hand.W14_main_arg2 m c),
      (h c _ (Cert.KernelIdeal.Hand.mem_uc Cert.KernelIdeal.main_arg3 (by decide))).trans (Cert.KernelIdeal.Hand.W14_main_arg3 m c),
      (h c _ (Cert.KernelIdeal.Hand.mem_uc Cert.KernelIdeal.main_arg4 (by decide))).trans (Cert.KernelIdeal.Hand.W14_main_arg4 m c),
      (h c _ (Cert.KernelIdeal.Hand.mem_uc Cert.KernelIdeal.main_arg5 (by decide))).trans (Cert.KernelIdeal.Hand.W14_main_arg5 m c),
      (h c _ (Cert.KernelIdeal.Hand.mem_uc Cert.KernelIdeal.main_arg6 (by decide))).trans (Cert.KernelIdeal.Hand.W14_main_arg6 m c),
      (h c _ (Cert.KernelIdeal.Hand.mem_uc Cert.KernelIdeal.main_arg7 (by decide))).trans (Cert.KernelIdeal.Hand.W14_main_arg7 m c),
      (h c _ (Cert.KernelIdeal.Hand.mem_uc Cert.KernelIdeal.main_arg8 (by decide))).trans (Cert.KernelIdeal.Hand.W14_main_arg8 m c),
      (h c _ (Cert.KernelIdeal.Hand.mem_uc Cert.KernelIdeal.main_arg9 (by decide))).trans (Cert.KernelIdeal.Hand.W14_main_arg9 m c)⟩
  · refine (θ_run Cert.ReferenceIdeal.defs _ _).mono (fun _ h c => ⟨(h c).1.trans ?_, (h c).2⟩)
      (Cert.ReferenceIdeal.Staged.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (Cert.KernelIdeal.Hand.result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
